-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2048x16384 : Shape := ⟨2, ![2048, 16384]⟩
abbrev S256x16384 : Shape := ⟨2, ![256, 16384]⟩
abbrev S_ : Shape := ⟨0, ![]⟩

class Facts : Prop where
  bcast_S_S2048x16384 : S_.BroadcastsInDim S2048x16384 (![] : Fin 0 → Fin S2048x16384.rank)
  reducesTo_S2048x16384_S_d0_1 : S2048x16384.ReducesTo [0, 1] S_
  h_S_ : 0 < S_.numel
  bcast_S_S256x16384 : S_.BroadcastsInDim S256x16384 (![] : Fin 0 → Fin S256x16384.rank)
  reducesTo_S256x16384_S_d0_1 : S256x16384.ReducesTo [0, 1] S_

variable [Facts]

def fn {F : FTy → Type} [FloatOps F] (main_arg0 : FVec F S2048x16384 .f32) (main_arg1 : FVec F S256x16384 .f32) : IVec S_ 1 :=
  let main_v0 : FVec F S2048x16384 .f32 := Host.absf main_arg0
  let main_cst : FVec F S_ .f32 := constant S_ .f32 0x7F800000#32
  let main_v1 : FVec F S2048x16384 .f32 := broadcastInDim S2048x16384 ![] bcast_S_S2048x16384 main_cst
  let main_v2 : IVec S2048x16384 1 := cmpf .olt main_v0 main_v1
  let main_c : IVec S_ 1 := constantI S_ 1 1#1
  let main_v3 : IVec S_ 1 := (fun x v => Host.reduce IntOp.andi x v reducesTo_S2048x16384_S_d0_1 h_S_) main_v2 main_c
  let main_v4 : FVec F S256x16384 .f32 := Host.absf main_arg1
  let main_cst_0 : FVec F S_ .f32 := constant S_ .f32 0x7F800000#32
  let main_v5 : FVec F S256x16384 .f32 := broadcastInDim S256x16384 ![] bcast_S_S256x16384 main_cst_0
  let main_v6 : IVec S256x16384 1 := cmpf .olt main_v4 main_v5
  let main_c_1 : IVec S_ 1 := constantI S_ 1 1#1
  let main_v7 : IVec S_ 1 := (fun x v => Host.reduce IntOp.andi x v reducesTo_S256x16384_S_d0_1 h_S_) main_v6 main_c_1
  let main_v8 : IVec S_ 1 := andi main_v3 main_v7
  main_v8
-- ==== Kernel.lean ====
abbrev S2048x16384 : Shape := ⟨2, ![2048, 16384]⟩
abbrev S256x16384 : Shape := ⟨2, ![256, 16384]⟩
abbrev S384x16384 : Shape := ⟨2, ![384, 16384]⟩
abbrev S256x4096 : Shape := ⟨2, ![256, 4096]⟩
abbrev S384x4096 : Shape := ⟨2, ![384, 4096]⟩
abbrev S128x4096 : Shape := ⟨2, ![128, 4096]⟩
abbrev S2048x256 : Shape := ⟨2, ![2048, 256]⟩
abbrev S512x4096 : Shape := ⟨2, ![512, 4096]⟩
abbrev S512x256 : Shape := ⟨2, ![512, 256]⟩
abbrev S512x384 : Shape := ⟨2, ![512, 384]⟩
abbrev S512x128 : Shape := ⟨2, ![512, 128]⟩
abbrev S512 : Shape := ⟨1, ![512]⟩
abbrev S512x1 : Shape := ⟨2, ![512, 1]⟩

abbrev nBuf : Space → Nat
  | .hbm => 4
  | .vmem => 11
  | .smem => 0
  | _ => 0

abbrev bufTy : (tb : Table) → Fin (tcTables nBuf tb) → BufTy
  | .hbm, ⟨0, _⟩ => ⟨S2048x16384, .f32⟩
  | .hbm, ⟨1, _⟩ => ⟨S256x16384, .f32⟩
  | .hbm, ⟨2, _⟩ => ⟨S384x16384, .bf16⟩
  | .hbm, ⟨3, _⟩ => ⟨S2048x256, .f32⟩
  | .local _ .vmem, ⟨0, _⟩ => ⟨S256x4096, .f32⟩
  | .local _ .vmem, ⟨1, _⟩ => ⟨S256x4096, .f32⟩
  | .local _ .vmem, ⟨2, _⟩ => ⟨S384x4096, .bf16⟩
  | .local _ .vmem, ⟨3, _⟩ => ⟨S384x4096, .bf16⟩
  | .local _ .vmem, ⟨4, _⟩ => ⟨S512x4096, .f32⟩
  | .local _ .vmem, ⟨5, _⟩ => ⟨S512x4096, .f32⟩
  | .local _ .vmem, ⟨6, _⟩ => ⟨S384x4096, .bf16⟩
  | .local _ .vmem, ⟨7, _⟩ => ⟨S384x4096, .bf16⟩
  | .local _ .vmem, ⟨8, _⟩ => ⟨S512x256, .f32⟩
  | .local _ .vmem, ⟨9, _⟩ => ⟨S512x256, .f32⟩
  | .local _ .vmem, ⟨10, _⟩ => ⟨S512x384, .f32⟩
  | _, _ => ⟨S2048x16384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg1_1 : Ref sig .tc := ⟨.vmem, 7, rfl⟩
abbrev cc1_stg2_0 : Ref sig .tc := ⟨.vmem, 8, rfl⟩
abbrev cc1_stg2_1 : Ref sig .tc := ⟨.vmem, 9, rfl⟩
abbrev cc1_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5
abbrev cc1_sem1_0 : DmaSem sig := 6
abbrev cc1_sem1_1 : DmaSem sig := 7
abbrev cc1_sem2_0 : DmaSem sig := 8
abbrev cc1_sem2_1 : DmaSem sig := 9

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S384x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev grid1 : Pipeline.Grid := ⟨2, ![4, 4], ![false, false]⟩

def k1_cond2 (i : grid1.Coords) : BitVec 1 :=
  let arg1 : BitVec 32 := BitVec.ofNat 32 (i 1).val
  let c3_i32 : BitVec 32 := 3#32
  let v13 : BitVec 1 := Scalar.cmpi .eq arg1 c3_i32
  let v14 : BitVec 32 := Scalar.extui v13
  let c0_i32_8 : BitVec 32 := 0#32
  let v15 : BitVec 1 := Scalar.cmpi .ne v14 c0_i32_8
  v15

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S512x4096 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S384x4096 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S512x256 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

class Facts₀ : Prop where
  inb_S256x4096_S256x4096_0_0 : ∀ a, (![0, 0] : Fin 2 → Nat) a + S256x4096.size a ≤ S256x4096.size a
  h_S256x4096 : 0 < S256x4096.numel
  bitsLt_bf16_f32 : FTy.bits .bf16 < FTy.bits .f32
  inb_S384x4096_S256x4096_0_0 : ∀ a, (![0, 0] : Fin 2 → Nat) a + S256x4096.size a ≤ S384x4096.size a
  packedbf16_S384x4096_S256x4096_0_0 : (Rect.unit (s := S384x4096) ![0, 0] S256x4096.size inb_S384x4096_S256x4096_0_0).PackedRows (EltTy.packing .bf16)
  inb_S384x4096_S128x4096_256_0 : ∀ a, (![256, 0] : Fin 2 → Nat) a + S128x4096.size a ≤ S384x4096.size a
  h_S128x4096 : 0 < S128x4096.numel
  packedbf16_S384x4096_S128x4096_256_0 : (Rect.unit (s := S384x4096) ![256, 0] S128x4096.size inb_S384x4096_S128x4096_256_0).PackedRows (EltTy.packing .bf16)
  inb_S512x384_S512x384_0_0 : ∀ a, (![0, 0] : Fin 2 → Nat) a + S512x384.size a ≤ S512x384.size a
  h_S512x384 : 0 < S512x384.numel
  shapeCasts_S512x384_S512x384 : S512x384.ShapeCasts S512x384
  inb_S512x4096_S512x4096_0_0 : ∀ a, (![0, 0] : Fin 2 → Nat) a + S512x4096.size a ≤ S512x4096.size a
  h_S512x4096 : 0 < S512x4096.numel
  inb_S384x4096_S384x4096_0_0 : ∀ a, (![0, 0] : Fin 2 → Nat) a + S384x4096.size a ≤ S384x4096.size a
  h_S384x4096 : 0 < S384x4096.numel
  shapeCasts_S384x4096_S384x4096 : S384x4096.ShapeCasts S384x4096
  inb_S512x384_S512x256_0_0 : ∀ a, (![0, 0] : Fin 2 → Nat) a + S512x256.size a ≤ S512x384.size a
  h_S512x256 : 0 < S512x256.numel
  inb_S512x384_S512x128_0_256 : ∀ a, (![0, 256] : Fin 2 → Nat) a + S512x128.size a ≤ S512x384.size a
  h_S512x128 : 0 < S512x128.numel
  reduces_S512x128_S512 : S512x128.Reduces [1] S512
  shapeCasts_S512_S512x1 : S512.ShapeCasts S512x1
  broadcasts_S512x1_S512x256 : S512x1.Broadcasts S512x256
  inb_S512x256_S512x256_0_0 : ∀ a, (![0, 0] : Fin 2 → Nat) a + S512x256.size a ≤ S512x256.size a
  dot_S512x4096_S384x4096_S512x384_1_1_0_0_n_n_wf : DotDims.WF S512x4096 S384x4096 S512x384 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x4096.size a ≤ S256x16384.size a
  hwx0_0 : ∀ i : grid0.Coords, EltTy.bits .f32 = 32 ∨ (Rect.block (s := S256x16384) S256x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S384x4096.size a ≤ S384x16384.size a
  hwx0_1 : ∀ i : grid0.Coords, EltTy.bits .bf16 = 32 ∨ (Rect.block (s := S384x16384) S384x4096.size (cc0_transform_1 i) (hinb0_1 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x4096.size a ≤ S2048x16384.size a
  hwx1_0 : ∀ i : grid1.Coords, EltTy.bits .f32 = 32 ∨ (Rect.block (s := S2048x16384) S512x4096.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S384x4096.size a ≤ S384x16384.size a
  hwx1_1 : ∀ i : grid1.Coords, EltTy.bits .bf16 = 32 ∨ (Rect.block (s := S384x16384) S384x4096.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S512x256.size a ≤ S2048x256.size a
  hwx1_2 : ∀ i : grid1.Coords, EltTy.bits .f32 = 32 ∨ (Rect.block (s := S2048x256) S512x256.size (cc1_transform_2 i) (hinb1_2 i)).WholeWords (EltTy.packing .f32)

variable [Facts₀]

def dot_S512x4096_S384x4096_S512x384_1_1_0_0_n_n : DotDims S512x4096 S384x4096 S512x384 where
  lhsContracting := [1]
  rhsContracting := [1]
  lhsNonContracting := [0]
  rhsNonContracting := [0]
  lhsBatch := []
  rhsBatch := []
  wf := dot_S512x4096_S384x4096_S512x384_1_1_0_0_n_n_wf

abbrev win0_0 : Pipeline.Window sig grid0 :=
  Pipeline.Window.ofSpec (Memref.whole main_arg1) S256x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S384x4096.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev win1_0 : Pipeline.Window sig grid1 :=
  Pipeline.Window.ofSpec (Memref.whole main_arg0) S512x4096.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0) S384x4096.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v1) S512x256.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev idle1 : Fin 3 → grid1.Coords → Bool := fun | 0 => fun _ => false | 1 => fun _ => false | 2 => fun i => !(k1_cond2 i == 1#1) | ⟨_ + 3, h⟩ => absurd h (Nat.not_lt.2 (Nat.le_add_left _ _))

class Facts : Prop extends Facts₀ where

variable [Facts]
-- ==== ReferenceIdeal.lean ====
abbrev S2048x16384 : Shape := ⟨2, ![2048, 16384]⟩
abbrev S256x16384 : Shape := ⟨2, ![256, 16384]⟩
abbrev S_ : Shape := ⟨0, ![]⟩
abbrev S2048x256 : Shape := ⟨2, ![2048, 256]⟩
abbrev S2048 : Shape := ⟨1, ![2048]⟩
abbrev S2048x1 : Shape := ⟨2, ![2048, 1]⟩

abbrev nBuf : Space → Nat
  | .hbm => 29
  | .vmem => 0
  | .smem => 0
  | _ => 0

abbrev bufTy : (tb : Table) → Fin (tcTables nBuf tb) → BufTy
  | .hbm, ⟨0, _⟩ => ⟨S2048x16384, .f32⟩
  | .hbm, ⟨1, _⟩ => ⟨S256x16384, .f32⟩
  | .hbm, ⟨2, _⟩ => ⟨S256x16384, .f32⟩
  | .hbm, ⟨3, _⟩ => ⟨S256x16384, .f32⟩
  | .hbm, ⟨4, _⟩ => ⟨S_, .f32⟩
  | .hbm, ⟨5, _⟩ => ⟨S256x16384, .f32⟩
  | .hbm, ⟨6, _⟩ => ⟨S256x16384, .f32⟩
  | .hbm, ⟨7, _⟩ => ⟨S_, .f32⟩
  | .hbm, ⟨8, _⟩ => ⟨S256x16384, .f32⟩
  | .hbm, ⟨9, _⟩ => ⟨S256x16384, .f32⟩
  | .hbm, ⟨10, _⟩ => ⟨S_, .f32⟩
  | .hbm, ⟨11, _⟩ => ⟨S256x16384, .f32⟩
  | .hbm, ⟨12, _⟩ => ⟨S256x16384, .f32⟩
  | .hbm, ⟨13, _⟩ => ⟨S_, .f32⟩
  | .hbm, ⟨14, _⟩ => ⟨S_, .f32⟩
  | .hbm, ⟨15, _⟩ => ⟨S256x16384, .f32⟩
  | .hbm, ⟨16, _⟩ => ⟨S256x16384, .f32⟩
  | .hbm, ⟨17, _⟩ => ⟨S256x16384, .f32⟩
  | .hbm, ⟨18, _⟩ => ⟨S2048x256, .f32⟩
  | .hbm, ⟨19, _⟩ => ⟨S_, .f32⟩
  | .hbm, ⟨20, _⟩ => ⟨S2048, .f32⟩
  | .hbm, ⟨21, _⟩ => ⟨S2048x1, .f32⟩
  | .hbm, ⟨22, _⟩ => ⟨S_, .f32⟩
  | .hbm, ⟨23, _⟩ => ⟨S_, .f32⟩
  | .hbm, ⟨24, _⟩ => ⟨S2048x1, .f32⟩
  | .hbm, ⟨25, _⟩ => ⟨S2048x1, .f32⟩
  | .hbm, ⟨26, _⟩ => ⟨S2048x256, .f32⟩
  | .hbm, ⟨27, _⟩ => ⟨S2048x256, .f32⟩
  | .hbm, ⟨28, _⟩ => ⟨S2048x256, .f32⟩
  | _, _ => ⟨S2048x16384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_cst_2 : Ref sig .tc := ⟨.hbm, 13, rfl⟩
abbrev main_call0_v0 : Ref sig .tc := ⟨.hbm, 14, rfl⟩
abbrev main_call0_v1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_call1_v0 : Ref sig .tc := ⟨.hbm, 23, rfl⟩
abbrev main_call1_v1 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩

abbrev nD : Nat := 1
abbrev τ : Topo := Topo.v7x

variable {F : FTy → Type} [FloatOps F]

class Facts₀ : Prop where
  bcast_S_S256x16384 : S_.BroadcastsInDim S256x16384 (![] : Fin 0 → Fin S256x16384.rank)
  reducesTo_S2048x16384_S2048_d1 : S2048x16384.ReducesTo [1] S2048
  h_S_ : 0 < S_.numel
  bcast_S2048_S2048x1_0 : S2048.BroadcastsInDim S2048x1 (![0] : Fin 1 → Fin S2048x1.rank)
  bcast_S_S2048x1 : S_.BroadcastsInDim S2048x1 (![] : Fin 0 → Fin S2048x1.rank)
  bcast_S2048x1_S2048x256_0_1 : S2048x1.BroadcastsInDim S2048x256 (![0, 1] : Fin 2 → Fin S2048x256.rank)
  dot_S2048x16384_S256x16384_S2048x256_1_1_0_0_n_n_wf : DotDims.WF S2048x16384 S256x16384 S2048x256 [1] [1] [0] [0] [] []

variable [Facts₀]

def dot_S2048x16384_S256x16384_S2048x256_1_1_0_0_n_n : DotDims S2048x16384 S256x16384 S2048x256 where
  lhsContracting := [1]
  rhsContracting := [1]
  lhsNonContracting := [0]
  rhsNonContracting := [0]
  lhsBatch := []
  rhsBatch := []
  wf := dot_S2048x16384_S256x16384_S2048x256_1_1_0_0_n_n_wf

class Facts : Prop extends Facts₀ where

variable [Facts]
-- ==== Proof.LogWeightsRegion.lean ====
/- REGION 0 of @main: the log-weights kernel, at the buffer contents the region is entered with.
   Every grid point reads one [256,4096] tile of the raw weights and leaves, in its [384,4096] output tile,
   log(max(eps, 10·sigmoid(raw))) rounded to bf16 in rows 0..255 and the constant 1 in rows 256..383.
   Stated at any float interpretation F. -/
import proofs.«106602_j17901423690383_2_alg».proof.Proof.Gen.KernelIdeal.Launch
import proofs.«106602_j17901423690383_2_alg».proof.Proof.Gen.KernelIdeal.Skeleton
import proofs.«106602_j17901423690383_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle with thousands of columns: the structural check recurses once per coordinate
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section LogWeights
-- the TensorCore's buffer contents when the region is entered
variable (V : (c : Dev nD) → (b : Ref sig .tc) → Buf (Elt F) ((c : Thread nD τ).loc b))

/-! ## The windows' blocks -/

/-- Window w's block at grid point t, read off the window's array as the region finds it. -/
def logwBlock (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The raw-weights window's staging buffer holds the point's tile when the body starts, for any proof data
    whose array is the entry contents and whose body leaves the tile in place: the window is fetched at every
    point, is never cut and never idle. -/
theorem logwBlock_before_of {c : Dev nD} (dat : Dat τ (Elt F) Unit ℕ (UR sig nD τ) ℕ cfg0 c) (hA : dat.A 0 = V c (Pipeline.arrRef spec0 0))
    (hafter : ∀ t, dat.after 0 t = logwBlock V c 0 t) (t : Fin cfg0.N) (d) : dat.before 0 t d = logwBlock V c 0 t :=
  (dat.before_in_eq_fetched 0 rfl (fun _ => rfl) (fun _ _ _ => rfl) (fun t => by rw [hafter]; unfold Dat.blockOf logwBlock; rw [hA]; try rfl) t d).trans
    (by unfold Dat.fetched Dat.blockOf logwBlock; rw [hA]; try rfl)

/-! ## The rectangles the body touches -/

/-- The whole input tile. -/
abbrev inputRect : Rect S256x4096 := Rect.unit (s := S256x4096) ![0, 0] S256x4096.size inb_S256x4096_S256x4096_0_0
/-- Rows 0..255 of the output tile: where the log-weights go. -/
abbrev rows0to255 : Rect S384x4096 := Rect.unit (s := S384x4096) ![0, 0] S256x4096.size inb_S384x4096_S256x4096_0_0
/-- Rows 256..383 of the output tile: where the constant 1 goes. -/
abbrev rows256to383 : Rect S384x4096 := Rect.unit (s := S384x4096) ![256, 0] S128x4096.size inb_S384x4096_S128x4096_256_0

/-! ## What the body leaves in the output tile -/

/-- The output tile after the body, from the input tile: the two stores as pieces, the LAST store first. -/
def logwOut (x0 : Vec F S256x4096 .f32) : Vec F S384x4096 .bf16 :=
  View.canon [⟨rows256to383, k0_pay2⟩, ⟨rows0to255, k0_pay1 (View.ld x0 inputRect)⟩]

/-- Rows 256..383 and rows 0..255 tile the 384 rows, so every cell of the output tile is in one of the stores:
    cut into blocks of [128,4096] the two pieces are the three such blocks of the tile, each once. -/
theorem logwOut_cover (p0 : Vec F S128x4096 .bf16) (p1 : Vec F S256x4096 .bf16) (y : S384x4096.Idx) :
    ∃ pc ∈ ([⟨rows256to383, p0⟩, ⟨rows0to255, p1⟩] : List (View.Piece (Elt F) S384x4096 .bf16)), y ∈ pc.1.set :=
  View.cover_of_tiledBy [⟨rows256to383, p0⟩, ⟨rows0to255, p1⟩] ![128, 4096] (by sl_kernel_rfl) y

/-! ## The body's triple -/

set_option maxHeartbeats 1000000 in
/-- The body on whole staging memrefs, the input's at the tile x0 and the output's at anything, runs to the
    continuation holding the input's as it was and the output's at logwOut x0. The body reads the output
    memref before each of its two stores; what it reads there is used by nothing. -/
theorem logw_body_triple (c : Dev nD) (E : Set ℕ) (i : grid0.Coords) (arg1 : Memref sig .tc .vmem S256x4096 .f32) (harg1 : arg1.IsWhole)
    (arg2 : Memref sig .tc .vmem S384x4096 .bf16) (harg2 : arg2.IsWhole)
    (x0 : Vec F S256x4096 .f32) (K : PUnit → sProp 𝕄) :
    iprop(owns (c : Thread nD τ) arg1 fullShare x0 ∗ (∃ d, owns (c : Thread nD τ) arg2 fullShare d)
        ∗ (iprop(owns (c : Thread nD τ) arg1 fullShare x0 ∗ owns (c : Thread nD τ) arg2 fullShare (logwOut x0)) -∗ K ⟨⟩))
      ⊢ wp frame (wpE (defs₀ (F := F)) Variants.none c none) E (cc0__logw_kernel i arg1 harg1 arg2 harg2) K := by
  simp only [cc0__logw_kernel_eq_skeleton]; unfold cc0__logw_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (logwOut_cover _ _)

/-! ## The pipeline's proof data -/

/-- The proof data of the log-weights pipeline on core c: the arrays as the region finds them; after the body
    at point t the input's buffer still at its tile and the output's at logwOut of that tile; the invariant is
    the scoped rest and the generator register, untouched; nothing owed; full shares. -/
def logwDat (c : Dev nD) : Dat τ (Elt F) Unit ℕ (UR sig nD τ) ℕ cfg0 c where
  A w := V c (Pipeline.arrRef spec0 w)
  after w t := match w with
    | ⟨0, _⟩ => logwBlock V c 0 t
    | ⟨1, _⟩ => logwOut (logwBlock V c 0 t)
  Φ _ := Pipeline.ΦA spec0 c
  q _ := fullShare
  owed _ := 0

/-- The proof data's arrays are the region-entry contents. -/
theorem logwDat_A (c : Dev nD) (w : Fin cfg0.W) : (logwDat V c).A w = V c (Pipeline.arrRef spec0 w) := by
  dsimp only [logwDat]

/-- What the body leaves, window by window. -/
theorem logwDat_after_in (c : Dev nD) (t : Fin cfg0.N) : (logwDat V c).after 0 t = logwBlock V c 0 t := by dsimp only [logwDat]
theorem logwDat_after_out (c : Dev nD) (t : Fin cfg0.N) : (logwDat V c).after 1 t = logwOut (logwBlock V c 0 t) := by dsimp only [logwDat]

/-- The input's current staging buffer holds the point's tile when the body starts. -/
theorem logwDat_before_in (c : Dev nD) (t : Fin cfg0.N) (d) : (logwDat V c).before 0 t d = logwBlock V c 0 t :=
  logwBlock_before_of V (logwDat V c) (logwDat_A V c 0) (logwDat_after_in V c) t d

/-! ## The body obligation, at a generic point -/

/-- What the body is called with at point t, the windows one by one, -/
def logwBodyPre (c : Dev nD) (t : Fin cfg0.N) : sProp 𝕄 :=
  iprop((logwDat V c).Φ t.castSucc ∗ (logwDat V c).owesAt () t.castSucc
    ∗ (∃ d, owns (c : Thread nD τ) (st0_0 t) fullShare ((logwDat V c).before 0 t d))
    ∗ (∃ d, owns (c : Thread nD τ) (st0_1 t) fullShare ((logwDat V c).before 1 t d)))

/-- and what it returns. -/
def logwBodyPost (c : Dev nD) (t : Fin cfg0.N) : sProp 𝕄 :=
  iprop((logwDat V c).Φ t.succ ∗ (logwDat V c).owesAt () t.succ
    ∗ owns (c : Thread nD τ) (st0_0 t) fullShare ((logwDat V c).after 0 t)
    ∗ owns (c : Thread nD τ) (st0_1 t) fullShare ((logwDat V c).after 1 t))

/-- The body at any point: the input's memref holds its tile, so the triple applies; the invariant and what
    the core owes pass through unread. -/
theorem logw_body_at (c : Dev nD) (t : Fin cfg0.N) :
    logwBodyPre V c t ⊢ wp frame (wpE (defs₀ (F := F)) Variants.none c none) Set.univ (bodyAt0 t) (fun _ => logwBodyPost V c t) := by
  unfold logwBodyPre logwBodyPost bodyAt0
  simp only [logwDat_before_in]
  rw [show (logwDat V c).Φ t.succ = (logwDat V c).Φ t.castSucc from rfl,
    show (logwDat V c).owesAt () t.succ = (logwDat V c).owesAt () t.castSucc from rfl,
    logwDat_after_in, logwDat_after_out]
  iintro ⟨HΦ, Ho, ⟨%d0, H0⟩, ⟨%d1, H1⟩⟩
  iapply (logw_body_triple c Set.univ _ _ _ _ _ (logwBlock V c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The library's body obligation, at every point. -/
theorem logw_body_obligation (c : Dev nD) : BodyObligation (logwDat (F := F) V c) (defs₀ (F := F)) Variants.none () Set.univ := fun t => by
  rw [bigSep_W0, bigSep_W0]
  exact logw_body_at V c t

end LogWeights

end Cert.KernelIdeal.Hand

end
-- ==== Proof.LogitsCases.lean ====
/-
  The second kernel region (the masked log-sum and its read-out), first part: what every control case of its body is
  stated over. The grid is 4 batch tiles by 4 reduction tiles, a point `t` being batch tile `t / 4` and reduction
  tile `t % 4`. The body resets its accumulator exactly at the first reduction tile (`t % 4 = 0`), adds one tile's
  matrix product at every point, and reads the accumulator out into its output block exactly at the last reduction tile
  (`t % 4 = 3`); at the other points the output block is left untouched and is not written back.
-/
import proofs.«106602_j17901423690383_2_alg».proof.Proof.Gen.KernelIdeal.Launch
import proofs.«106602_j17901423690383_2_alg».proof.Proof.Gen.KernelIdeal.Skeleton
import proofs.«106602_j17901423690383_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-! ## The windows' blocks -/

/-- Window `w`'s block at point `t`, read off its array as the region finds it. -/
def logitsBlock (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The activations' staging buffer holds the point's block of the activations, fetched there or not, for any proof
    data over the entry contents whose body leaves that block in place. -/
theorem logitsBlock_before_of0 {c : Dev nD} (dat : Dat τ (Elt F) Unit ℕ (UR sig nD τ) ℕ cfg1 c) (hA : dat.A 0 = V c (Pipeline.arrRef spec1 0))
    (hafter : ∀ t, dat.after 0 t = logitsBlock V c 0 t) (t : Fin cfg1.N) (d) : dat.before 0 t d = logitsBlock V c 0 t :=
  (dat.before_in_eq_fetched 0 rfl (fun _ => rfl) (fun _ _ _ => rfl) (fun t => by rw [hafter]; unfold Dat.blockOf logitsBlock; rw [hA]; try rfl) t d).trans
    (by unfold Dat.fetched Dat.blockOf logitsBlock; rw [hA]; try rfl)

/-- The same for the log-weights' staging buffer. -/
theorem logitsBlock_before_of1 {c : Dev nD} (dat : Dat τ (Elt F) Unit ℕ (UR sig nD τ) ℕ cfg1 c) (hA : dat.A 1 = V c (Pipeline.arrRef spec1 1))
    (hafter : ∀ t, dat.after 1 t = logitsBlock V c 1 t) (t : Fin cfg1.N) (d) : dat.before 1 t d = logitsBlock V c 1 t :=
  (dat.before_in_eq_fetched 1 rfl (fun _ => rfl) (fun _ _ _ => rfl) (fun t => by rw [hafter]; unfold Dat.blockOf logitsBlock; rw [hA]; try rfl) t d).trans
    (by unfold Dat.fetched Dat.blockOf logitsBlock; rw [hA]; try rfl)
end

/-! ## The body's two branch conditions -/

/-- "This is the first reduction tile": the condition of the body's first conditional, from the grid coordinates. -/
abbrev atFirstTile (i : grid1.Coords) : Prop := (Scalar.cmpi .ne (Scalar.extui (Scalar.cmpi .eq (BitVec.ofNat 32 (i 1).val) 0#32)) 0#32) = 1#1
/-- It holds exactly at the points ≡ 0 (mod 4). -/
theorem atFirstTile_iff : ∀ t : Fin cfg1.N, atFirstTile (grid1.coords t) ↔ t.val % 4 = 0 :=
  (by decide +kernel : ∀ t : Fin grid1.N, atFirstTile (grid1.coords t) ↔ t.val % 4 = 0)

/-- "This is the last reduction tile": the condition of the body's second conditional. -/
abbrev atLastTile (i : grid1.Coords) : Prop := k1_cond2 i = 1#1
/-- It holds exactly at the points ≡ 3 (mod 4). -/
theorem atLastTile_iff : ∀ t : Fin cfg1.N, atLastTile (grid1.coords t) ↔ t.val % 4 = 3 :=
  (by decide +kernel : ∀ t : Fin grid1.N, atLastTile (grid1.coords t) ↔ t.val % 4 = 3)

/-! ## Where the windows are idle -/

theorem activations_live : ∀ t : Fin cfg1.N, cfg1.idle 0 (grid1.coords t) = false := by decide +kernel
theorem logweights_live : ∀ t : Fin cfg1.N, cfg1.idle 1 (grid1.coords t) = false := by decide +kernel
/-- Away from the last reduction tile the output window is idle (nothing is stored into it) -/
theorem output_idle : ∀ t : Fin cfg1.N, ¬atLastTile (grid1.coords t) → cfg1.idle 2 (grid1.coords t) = true := by decide +kernel
/-- and its block is not written back; -/
theorem output_noFlush : ∀ t : Fin cfg1.N, ¬atLastTile (grid1.coords t) → (cfg1.win 2).flush t = false := by decide +kernel
/-- at the last reduction tile it is live. -/
theorem output_live : ∀ t : Fin cfg1.N, atLastTile (grid1.coords t) → cfg1.idle 2 (grid1.coords t) = false := by decide +kernel

/-! ## The memrefs the body is called with -/

/-- One staging buffer of the output window, through which its contents are stated (the choice does not matter). -/
abbrev outView : View sig .tc .vmem S512x256 .f32 := (Memref.whole cc1_stg2_0 : Memref sig .tc .vmem S512x256 .f32).view
abbrev actM (t : Fin cfg1.N) : Memref sig .tc .vmem S512x4096 .f32 := win1_0.stage (cfg1.slots t 0)
abbrev actM_whole (t : Fin cfg1.N) : (actM t).IsWhole := hstage1_0 ((cfg1.slots t 0).cast nbuf1_0)
abbrev lwM (t : Fin cfg1.N) : Memref sig .tc .vmem S384x4096 .bf16 := win1_1.stage (cfg1.slots t 1)
abbrev lwM_whole (t : Fin cfg1.N) : (lwM t).IsWhole := hstage1_1 ((cfg1.slots t 1).cast nbuf1_1)
abbrev outM (t : Fin cfg1.N) : Memref sig .tc .vmem S512x256 .f32 := win1_2.stage (cfg1.slots t 2)
abbrev outM_whole (t : Fin cfg1.N) : (outM t).IsWhole := hstage1_2 ((cfg1.slots t 2).cast nbuf1_2)
/-- The accumulator: a whole scoped buffer of the kernel's own, carried from point to point. -/
abbrev accM : Memref sig .tc .vmem S512x384 .f32 := Memref.whole cc1_scratch0
abbrev accView : View sig .tc .vmem S512x384 .f32 := accM.view

/-! ## The invariant with the accumulator named -/

/-- The scoped buffers this region neither stages nor uses (the first region's staging buffers), each whole at some
    contents, beside an assertion `X` about the accumulator. -/
def scopedWith (c : Dev nD) (X : sProp 𝕄) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ X)

/-- What the region is handed at entry, with the accumulator as a memref owned at some contents. -/
theorem entryInv_eq (c : Dev nD) :
    (Pipeline.ΦA spec1 c : sProp 𝕄)
      = iprop(scopedWith c iprop(∃ d, owns (c : Thread nD τ) accM fullShare d) ∗ (∃ r, prngReg c r)) := by
  unfold Pipeline.ΦA scopedWith; rw [scopedRest1_eq]; simp only [accM, owns_whole]; try rfl

end Cert.KernelIdeal.Hand

end
-- ==== Proof.LogitsRunFirst.lean ====
/-
  The second kernel region at a FIRST reduction tile that is not also the last: the body zeroes the accumulator, then
  adds this tile's matrix product to it; it stores nothing into the output block.
-/
import proofs.«106602_j17901423690383_2_alg».proof.Proof.LogitsCases

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The pieces the body's stores leave in the output buffer (none) and in the accumulator (last store first), with the
    body's triple: on whole memrefs — the two inputs' at their contents, the output's at contents handed back untouched,
    the accumulator's at anything — the body runs to the continuation holding the inputs and the output as they were and
    the accumulator with its pieces written. The pieces are found by the run. -/
noncomputable def runFirstTile (c : Dev nD) (i : grid1.Coords) (arg2 : Memref sig .tc .vmem S512x4096 .f32) (harg2 : arg2.IsWhole) (arg3 : Memref sig .tc .vmem S384x4096 .bf16) (harg3 : arg3.IsWhole) (arg4 : Memref sig .tc .vmem S512x256 .f32) (harg4 : arg4.IsWhole) (arg5 : Memref sig .tc .vmem S512x384 .f32) (harg5 : arg5.IsWhole) (hc0 : atFirstTile i) (hc1 : ¬atLastTile i)
    (x0 : Vec F S512x4096 .f32) (x1 : Vec F S384x4096 .bf16) :
    Σ' (L2 : List (View.Piece (Elt F) S512x256 .f32)), { LS : List (View.Piece (Elt F) S512x384 .f32) //
      ∀ (xi2 : Vec F S512x256 .f32) (E : Set ℕ) (K : PUnit → sProp 𝕄),
        iprop(owns (c : Thread nD τ) arg2 fullShare x0 ∗ owns (c : Thread nD τ) arg3 fullShare x1 ∗ owns (c : Thread nD τ) arg4 fullShare xi2 ∗ (∃ d, owns (c : Thread nD τ) arg5 fullShare d)
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS)) -∗ K ⟨⟩))
          ⊢ wp frame (wpE (defs₀ (F := F)) Variants.none c none) E (cc1__logits_kernel i arg2 harg2 arg3 harg3 arg4 harg4 arg5 harg5) K } := by
  refine ⟨[], ?_, fun xi2 E K => ?run⟩
  case run =>
    simp only [cc1__logits_kernel_eq_skeleton]; unfold cc1__logits_kernel_skel
    unfold owns
    iintro ⟨⟨%f0, %hf0, H0⟩, ⟨%f1, %hf1, H1⟩, ⟨%f2, %hf2, H2⟩, ⟨%ds, %fs, -, HS⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS

end Cert.KernelIdeal.Hand

end
-- ==== Proof.LogitsRunMid.lean ====
/-
  The second kernel region at a MIDDLE reduction tile (neither first nor last): the body adds this tile's matrix
  product to the accumulator the point before left, and stores nothing into the output block.
-/
import proofs.«106602_j17901423690383_2_alg».proof.Proof.LogitsRunFirst

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- As at a first tile, but the accumulator enters at the contents `xs` the point before left. -/
noncomputable def runMidTile (c : Dev nD) (i : grid1.Coords) (arg2 : Memref sig .tc .vmem S512x4096 .f32) (harg2 : arg2.IsWhole) (arg3 : Memref sig .tc .vmem S384x4096 .bf16) (harg3 : arg3.IsWhole) (arg4 : Memref sig .tc .vmem S512x256 .f32) (harg4 : arg4.IsWhole) (arg5 : Memref sig .tc .vmem S512x384 .f32) (harg5 : arg5.IsWhole) (hc0 : ¬atFirstTile i) (hc1 : ¬atLastTile i)
    (x0 : Vec F S512x4096 .f32) (x1 : Vec F S384x4096 .bf16) (xs : Vec F S512x384 .f32) :
    Σ' (L2 : List (View.Piece (Elt F) S512x256 .f32)), { LS : List (View.Piece (Elt F) S512x384 .f32) //
      ∀ (xi2 : Vec F S512x256 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xs
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS)) -∗ K ⟨⟩))
          ⊢ wp frame (wpE (defs₀ (F := F)) Variants.none c none) E (cc1__logits_kernel i arg2 harg2 arg3 harg3 arg4 harg4 arg5 harg5) K } := by
  refine ⟨[], ?_, fun xi2 E K => ?run⟩
  case run =>
    simp only [cc1__logits_kernel_eq_skeleton]; unfold cc1__logits_kernel_skel
    unfold owns
    iintro ⟨⟨%f0, %hf0, H0⟩, ⟨%f1, %hf1, H1⟩, ⟨%f2, %hf2, H2⟩, ⟨%fs, %hfs, HS⟩, Hk⟩
    obtain rfl := harg2.eq_unread hf0; obtain rfl := harg3.eq_unread hf1; obtain rfl := harg4.eq_unread hf2; obtain rfl := harg5.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS

end Cert.KernelIdeal.Hand

end
-- ==== Proof.LogitsRunLast.lean ====
/-
  The second kernel region at a LAST reduction tile that is not also the first: the body adds this tile's matrix
  product to the accumulator the point before left, then reads the accumulator out — the first 256 columns divided by
  the larger of one and the maximum of the row's last 128 columns, exponentiated — into the output block, which it stores whole.
-/
import proofs.«106602_j17901423690383_2_alg».proof.Proof.LogitsRunMid

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The output buffer enters at anything and leaves with its pieces written; the accumulator enters at `xs`. -/
noncomputable def runLastTile (c : Dev nD) (i : grid1.Coords) (arg2 : Memref sig .tc .vmem S512x4096 .f32) (harg2 : arg2.IsWhole) (arg3 : Memref sig .tc .vmem S384x4096 .bf16) (harg3 : arg3.IsWhole) (arg4 : Memref sig .tc .vmem S512x256 .f32) (harg4 : arg4.IsWhole) (arg5 : Memref sig .tc .vmem S512x384 .f32) (harg5 : arg5.IsWhole) (hc0 : ¬atFirstTile i) (hc1 : atLastTile i)
    (x0 : Vec F S512x4096 .f32) (x1 : Vec F S384x4096 .bf16) (xs : Vec F S512x384 .f32) :
    Σ' (L2 : List (View.Piece (Elt F) S512x256 .f32)), { LS : List (View.Piece (Elt F) S512x384 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS)) -∗ K ⟨⟩))
          ⊢ wp frame (wpE (defs₀ (F := F)) Variants.none c none) E (cc1__logits_kernel i arg2 harg2 arg3 harg3 arg4 harg4 arg5 harg5) K } := by
  refine ⟨?_, ?_, fun E K => ?run⟩
  case run =>
    simp only [cc1__logits_kernel_eq_skeleton]; unfold cc1__logits_kernel_skel
    unfold owns
    iintro ⟨⟨%f0, %hf0, H0⟩, ⟨%f1, %hf1, H1⟩, ⟨%d2, %f2, -, H2⟩, ⟨%fs, %hfs, HS⟩, Hk⟩
    obtain rfl := harg2.eq_unread hf0; obtain rfl := harg3.eq_unread hf1; obtain rfl := harg5.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS

end Cert.KernelIdeal.Hand

end
-- ==== Proof.LogitsRegion.lean ====
/-
  The second kernel region (the masked log-sum and its read-out), second part: what the accumulator and the output
  block hold after every grid point, the region's invariant, its proof data and the body obligation.

  After point `t` the accumulator holds: at a first reduction tile, zero plus this tile's matrix product; at any later
  tile, what the point before left plus this tile's matrix product. The output block holds, at a last reduction tile, the
  read-out of the accumulator; elsewhere it is idle. The invariant between points is the accumulator at exactly those
  contents, beside the scoped buffers the region does not use and the generator register.
-/
import proofs.«106602_j17901423690383_2_alg».proof.Proof.LogitsRunLast

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-! ## What each control case leaves -/

/-- A first tile stores nothing into the output block: a placeholder nothing consults (the window is idle there). -/
def outFirst (c : Dev nD) (i : grid1.Coords) (arg2 : Memref sig .tc .vmem S512x4096 .f32) (harg2 : arg2.IsWhole) (arg3 : Memref sig .tc .vmem S384x4096 .bf16) (harg3 : arg3.IsWhole) (arg4 : Memref sig .tc .vmem S512x256 .f32) (harg4 : arg4.IsWhole) (arg5 : Memref sig .tc .vmem S512x384 .f32) (harg5 : arg5.IsWhole) (hc0 : atFirstTile i) (hc1 : ¬atLastTile i)
    (x0 : Vec F S512x4096 .f32) (x1 : Vec F S384x4096 .bf16) : Vec F S512x256 .f32 :=
  outView.read (Elt F) (outView.writes (Elt F) outView.junk (runFirstTile c i arg2 harg2 arg3 harg3 arg4 harg4 arg5 harg5 hc0 hc1 x0 x1).1)
/-- Its stores into the accumulator cover it. -/
theorem accCoverFirst (c : Dev nD) (i : grid1.Coords) (arg2 : Memref sig .tc .vmem S512x4096 .f32) (harg2 : arg2.IsWhole) (arg3 : Memref sig .tc .vmem S384x4096 .bf16) (harg3 : arg3.IsWhole) (arg4 : Memref sig .tc .vmem S512x256 .f32) (harg4 : arg4.IsWhole) (arg5 : Memref sig .tc .vmem S512x384 .f32) (harg5 : arg5.IsWhole) (hc0 : atFirstTile i) (hc1 : ¬atLastTile i)
    (x0 : Vec F S512x4096 .f32) (x1 : Vec F S384x4096 .bf16) (y : S512x384.Idx) :
    ∃ pc ∈ (runFirstTile c i arg2 harg2 arg3 harg3 arg4 harg4 arg5 harg5 hc0 hc1 x0 x1).2.1, y ∈ pc.1.set :=
  View.cover_of_tiledL (runFirstTile c i arg2 harg2 arg3 harg3 arg4 harg4 arg5 harg5 hc0 hc1 x0 x1).2.1 S512x384.size (by sl_kernel_rfl) y
/-- What a first tile leaves in the accumulator. -/
def accFirst (c : Dev nD) (i : grid1.Coords) (arg2 : Memref sig .tc .vmem S512x4096 .f32) (harg2 : arg2.IsWhole) (arg3 : Memref sig .tc .vmem S384x4096 .bf16) (harg3 : arg3.IsWhole) (arg4 : Memref sig .tc .vmem S512x256 .f32) (harg4 : arg4.IsWhole) (arg5 : Memref sig .tc .vmem S512x384 .f32) (harg5 : arg5.IsWhole) (hc0 : atFirstTile i) (hc1 : ¬atLastTile i)
    (x0 : Vec F S512x4096 .f32) (x1 : Vec F S384x4096 .bf16) : Vec F S512x384 .f32 :=
  accView.read (Elt F) (accView.writes (Elt F) accView.junk (runFirstTile c i arg2 harg2 arg3 harg3 arg4 harg4 arg5 harg5 hc0 hc1 x0 x1).2.1)

def outMid (c : Dev nD) (i : grid1.Coords) (arg2 : Memref sig .tc .vmem S512x4096 .f32) (harg2 : arg2.IsWhole) (arg3 : Memref sig .tc .vmem S384x4096 .bf16) (harg3 : arg3.IsWhole) (arg4 : Memref sig .tc .vmem S512x256 .f32) (harg4 : arg4.IsWhole) (arg5 : Memref sig .tc .vmem S512x384 .f32) (harg5 : arg5.IsWhole) (hc0 : ¬atFirstTile i) (hc1 : ¬atLastTile i)
    (x0 : Vec F S512x4096 .f32) (x1 : Vec F S384x4096 .bf16) (xs : Vec F S512x384 .f32) : Vec F S512x256 .f32 :=
  outView.read (Elt F) (outView.writes (Elt F) outView.junk (runMidTile c i arg2 harg2 arg3 harg3 arg4 harg4 arg5 harg5 hc0 hc1 x0 x1 xs).1)
theorem accCoverMid (c : Dev nD) (i : grid1.Coords) (arg2 : Memref sig .tc .vmem S512x4096 .f32) (harg2 : arg2.IsWhole) (arg3 : Memref sig .tc .vmem S384x4096 .bf16) (harg3 : arg3.IsWhole) (arg4 : Memref sig .tc .vmem S512x256 .f32) (harg4 : arg4.IsWhole) (arg5 : Memref sig .tc .vmem S512x384 .f32) (harg5 : arg5.IsWhole) (hc0 : ¬atFirstTile i) (hc1 : ¬atLastTile i)
    (x0 : Vec F S512x4096 .f32) (x1 : Vec F S384x4096 .bf16) (xs : Vec F S512x384 .f32) (y : S512x384.Idx) :
    ∃ pc ∈ (runMidTile c i arg2 harg2 arg3 harg3 arg4 harg4 arg5 harg5 hc0 hc1 x0 x1 xs).2.1, y ∈ pc.1.set :=
  View.cover_of_tiledL (runMidTile c i arg2 harg2 arg3 harg3 arg4 harg4 arg5 harg5 hc0 hc1 x0 x1 xs).2.1 S512x384.size (by sl_kernel_rfl) y
/-- What a middle tile leaves in the accumulator, from what the point before left (`xs`). -/
def accMid (c : Dev nD) (i : grid1.Coords) (arg2 : Memref sig .tc .vmem S512x4096 .f32) (harg2 : arg2.IsWhole) (arg3 : Memref sig .tc .vmem S384x4096 .bf16) (harg3 : arg3.IsWhole) (arg4 : Memref sig .tc .vmem S512x256 .f32) (harg4 : arg4.IsWhole) (arg5 : Memref sig .tc .vmem S512x384 .f32) (harg5 : arg5.IsWhole) (hc0 : ¬atFirstTile i) (hc1 : ¬atLastTile i)
    (x0 : Vec F S512x4096 .f32) (x1 : Vec F S384x4096 .bf16) (xs : Vec F S512x384 .f32) : Vec F S512x384 .f32 :=
  accView.read (Elt F) (accView.writes (Elt F) accView.junk (runMidTile c i arg2 harg2 arg3 harg3 arg4 harg4 arg5 harg5 hc0 hc1 x0 x1 xs).2.1)

/-- A last tile's one store covers the output block. -/
theorem outCoverLast (c : Dev nD) (i : grid1.Coords) (arg2 : Memref sig .tc .vmem S512x4096 .f32) (harg2 : arg2.IsWhole) (arg3 : Memref sig .tc .vmem S384x4096 .bf16) (harg3 : arg3.IsWhole) (arg4 : Memref sig .tc .vmem S512x256 .f32) (harg4 : arg4.IsWhole) (arg5 : Memref sig .tc .vmem S512x384 .f32) (harg5 : arg5.IsWhole) (hc0 : ¬atFirstTile i) (hc1 : atLastTile i)
    (x0 : Vec F S512x4096 .f32) (x1 : Vec F S384x4096 .bf16) (xs : Vec F S512x384 .f32) (y : S512x256.Idx) :
    ∃ pc ∈ (runLastTile c i arg2 harg2 arg3 harg3 arg4 harg4 arg5 harg5 hc0 hc1 x0 x1 xs).1, y ∈ pc.1.set :=
  View.cover_of_tiledL (runLastTile c i arg2 harg2 arg3 harg3 arg4 harg4 arg5 harg5 hc0 hc1 x0 x1 xs).1 S512x256.size (by sl_kernel_rfl) y
/-- What a last tile leaves in the output block. -/
def outLast (c : Dev nD) (i : grid1.Coords) (arg2 : Memref sig .tc .vmem S512x4096 .f32) (harg2 : arg2.IsWhole) (arg3 : Memref sig .tc .vmem S384x4096 .bf16) (harg3 : arg3.IsWhole) (arg4 : Memref sig .tc .vmem S512x256 .f32) (harg4 : arg4.IsWhole) (arg5 : Memref sig .tc .vmem S512x384 .f32) (harg5 : arg5.IsWhole) (hc0 : ¬atFirstTile i) (hc1 : atLastTile i)
    (x0 : Vec F S512x4096 .f32) (x1 : Vec F S384x4096 .bf16) (xs : Vec F S512x384 .f32) : Vec F S512x256 .f32 :=
  outView.read (Elt F) (outView.writes (Elt F) outView.junk (runLastTile c i arg2 harg2 arg3 harg3 arg4 harg4 arg5 harg5 hc0 hc1 x0 x1 xs).1)
theorem accCoverLast (c : Dev nD) (i : grid1.Coords) (arg2 : Memref sig .tc .vmem S512x4096 .f32) (harg2 : arg2.IsWhole) (arg3 : Memref sig .tc .vmem S384x4096 .bf16) (harg3 : arg3.IsWhole) (arg4 : Memref sig .tc .vmem S512x256 .f32) (harg4 : arg4.IsWhole) (arg5 : Memref sig .tc .vmem S512x384 .f32) (harg5 : arg5.IsWhole) (hc0 : ¬atFirstTile i) (hc1 : atLastTile i)
    (x0 : Vec F S512x4096 .f32) (x1 : Vec F S384x4096 .bf16) (xs : Vec F S512x384 .f32) (y : S512x384.Idx) :
    ∃ pc ∈ (runLastTile c i arg2 harg2 arg3 harg3 arg4 harg4 arg5 harg5 hc0 hc1 x0 x1 xs).2.1, y ∈ pc.1.set :=
  View.cover_of_tiledL (runLastTile c i arg2 harg2 arg3 harg3 arg4 harg4 arg5 harg5 hc0 hc1 x0 x1 xs).2.1 S512x384.size (by sl_kernel_rfl) y
/-- What a last tile leaves in the accumulator. -/
def accLast (c : Dev nD) (i : grid1.Coords) (arg2 : Memref sig .tc .vmem S512x4096 .f32) (harg2 : arg2.IsWhole) (arg3 : Memref sig .tc .vmem S384x4096 .bf16) (harg3 : arg3.IsWhole) (arg4 : Memref sig .tc .vmem S512x256 .f32) (harg4 : arg4.IsWhole) (arg5 : Memref sig .tc .vmem S512x384 .f32) (harg5 : arg5.IsWhole) (hc0 : ¬atFirstTile i) (hc1 : atLastTile i)
    (x0 : Vec F S512x4096 .f32) (x1 : Vec F S384x4096 .bf16) (xs : Vec F S512x384 .f32) : Vec F S512x384 .f32 :=
  accView.read (Elt F) (accView.writes (Elt F) accView.junk (runLastTile c i arg2 harg2 arg3 harg3 arg4 harg4 arg5 harg5 hc0 hc1 x0 x1 xs).2.1)

/-! ## What the output block and the accumulator hold after each point -/

/-- After the body at position `n`: (the output block, the accumulator) — the case the point is in, run at the point's
    memrefs and input blocks, the accumulator entering at what position `n - 1` left. No point is both a first and a
    last reduction tile. -/
def stateAt (c : Dev nD) : (n : ℕ) → n < cfg1.N → Vec F S512x256 .f32 × Vec F S512x384 .f32
  | 0, hn => (outFirst c (grid1.coords ⟨0, hn⟩) (actM ⟨0, hn⟩) (actM_whole ⟨0, hn⟩) (lwM ⟨0, hn⟩) (lwM_whole ⟨0, hn⟩) (outM ⟨0, hn⟩) (outM_whole ⟨0, hn⟩) accM (Memref.isWhole_whole _) ((atFirstTile_iff ⟨0, hn⟩).mpr (Nat.zero_mod _)) (fun h => (fun h => by (try dsimp only at h); omega) ((atLastTile_iff ⟨0, hn⟩).mp h)) (logitsBlock V c 0 ⟨0, hn⟩) (logitsBlock V c 1 ⟨0, hn⟩),
      accFirst c (grid1.coords ⟨0, hn⟩) (actM ⟨0, hn⟩) (actM_whole ⟨0, hn⟩) (lwM ⟨0, hn⟩) (lwM_whole ⟨0, hn⟩) (outM ⟨0, hn⟩) (outM_whole ⟨0, hn⟩) accM (Memref.isWhole_whole _) ((atFirstTile_iff ⟨0, hn⟩).mpr (Nat.zero_mod _)) (fun h => (fun h => by (try dsimp only at h); omega) ((atLastTile_iff ⟨0, hn⟩).mp h)) (logitsBlock V c 0 ⟨0, hn⟩) (logitsBlock V c 1 ⟨0, hn⟩))
  | n + 1, hn =>
    if h0 : (n + 1) % 4 = 0 then
      if h1 : (n + 1) % 4 = 3 then
        False.elim (by omega)
      else
        (outFirst c (grid1.coords ⟨n + 1, hn⟩) (actM ⟨n + 1, hn⟩) (actM_whole ⟨n + 1, hn⟩) (lwM ⟨n + 1, hn⟩) (lwM_whole ⟨n + 1, hn⟩) (outM ⟨n + 1, hn⟩) (outM_whole ⟨n + 1, hn⟩) accM (Memref.isWhole_whole _) ((atFirstTile_iff ⟨n + 1, hn⟩).mpr h0) (fun h => h1 ((atLastTile_iff ⟨n + 1, hn⟩).mp h)) (logitsBlock V c 0 ⟨n + 1, hn⟩) (logitsBlock V c 1 ⟨n + 1, hn⟩),
          accFirst c (grid1.coords ⟨n + 1, hn⟩) (actM ⟨n + 1, hn⟩) (actM_whole ⟨n + 1, hn⟩) (lwM ⟨n + 1, hn⟩) (lwM_whole ⟨n + 1, hn⟩) (outM ⟨n + 1, hn⟩) (outM_whole ⟨n + 1, hn⟩) accM (Memref.isWhole_whole _) ((atFirstTile_iff ⟨n + 1, hn⟩).mpr h0) (fun h => h1 ((atLastTile_iff ⟨n + 1, hn⟩).mp h)) (logitsBlock V c 0 ⟨n + 1, hn⟩) (logitsBlock V c 1 ⟨n + 1, hn⟩))
    else
      if h1 : (n + 1) % 4 = 3 then
        (outLast c (grid1.coords ⟨n + 1, hn⟩) (actM ⟨n + 1, hn⟩) (actM_whole ⟨n + 1, hn⟩) (lwM ⟨n + 1, hn⟩) (lwM_whole ⟨n + 1, hn⟩) (outM ⟨n + 1, hn⟩) (outM_whole ⟨n + 1, hn⟩) accM (Memref.isWhole_whole _) (fun h => h0 ((atFirstTile_iff ⟨n + 1, hn⟩).mp h)) ((atLastTile_iff ⟨n + 1, hn⟩).mpr h1) (logitsBlock V c 0 ⟨n + 1, hn⟩) (logitsBlock V c 1 ⟨n + 1, hn⟩) (stateAt c n (Nat.lt_of_succ_lt hn)).2,
          accLast c (grid1.coords ⟨n + 1, hn⟩) (actM ⟨n + 1, hn⟩) (actM_whole ⟨n + 1, hn⟩) (lwM ⟨n + 1, hn⟩) (lwM_whole ⟨n + 1, hn⟩) (outM ⟨n + 1, hn⟩) (outM_whole ⟨n + 1, hn⟩) accM (Memref.isWhole_whole _) (fun h => h0 ((atFirstTile_iff ⟨n + 1, hn⟩).mp h)) ((atLastTile_iff ⟨n + 1, hn⟩).mpr h1) (logitsBlock V c 0 ⟨n + 1, hn⟩) (logitsBlock V c 1 ⟨n + 1, hn⟩) (stateAt c n (Nat.lt_of_succ_lt hn)).2)
      else
        (outMid c (grid1.coords ⟨n + 1, hn⟩) (actM ⟨n + 1, hn⟩) (actM_whole ⟨n + 1, hn⟩) (lwM ⟨n + 1, hn⟩) (lwM_whole ⟨n + 1, hn⟩) (outM ⟨n + 1, hn⟩) (outM_whole ⟨n + 1, hn⟩) accM (Memref.isWhole_whole _) (fun h => h0 ((atFirstTile_iff ⟨n + 1, hn⟩).mp h)) (fun h => h1 ((atLastTile_iff ⟨n + 1, hn⟩).mp h)) (logitsBlock V c 0 ⟨n + 1, hn⟩) (logitsBlock V c 1 ⟨n + 1, hn⟩) (stateAt c n (Nat.lt_of_succ_lt hn)).2,
          accMid c (grid1.coords ⟨n + 1, hn⟩) (actM ⟨n + 1, hn⟩) (actM_whole ⟨n + 1, hn⟩) (lwM ⟨n + 1, hn⟩) (lwM_whole ⟨n + 1, hn⟩) (outM ⟨n + 1, hn⟩) (outM_whole ⟨n + 1, hn⟩) accM (Memref.isWhole_whole _) (fun h => h0 ((atFirstTile_iff ⟨n + 1, hn⟩).mp h)) (fun h => h1 ((atLastTile_iff ⟨n + 1, hn⟩).mp h)) (logitsBlock V c 0 ⟨n + 1, hn⟩) (logitsBlock V c 1 ⟨n + 1, hn⟩) (stateAt c n (Nat.lt_of_succ_lt hn)).2)

/-- At a first tile: that case's contents. -/
theorem stateAt_first (c : Dev nD) (t : Fin cfg1.N) (h0 : t.val % 4 = 0) (h1 : ¬t.val % 4 = 3) :
    stateAt V c t.val t.isLt = (outFirst c (grid1.coords t) (actM t) (actM_whole t) (lwM t) (lwM_whole t) (outM t) (outM_whole t) accM (Memref.isWhole_whole _) ((atFirstTile_iff t).mpr h0) (fun h => h1 ((atLastTile_iff t).mp h)) (logitsBlock V c 0 t) (logitsBlock V c 1 t),
      accFirst c (grid1.coords t) (actM t) (actM_whole t) (lwM t) (lwM_whole t) (outM t) (outM_whole t) accM (Memref.isWhole_whole _) ((atFirstTile_iff t).mpr h0) (fun h => h1 ((atLastTile_iff t).mp h)) (logitsBlock V c 0 t) (logitsBlock V c 1 t)) := by
  obtain ⟨n, hn⟩ := t
  cases n with
  | zero => exact rfl
  | succ n => exact (dif_pos h0).trans ((dif_neg h1).trans rfl)

/-- At a middle tile: that case's contents over what the point before left. -/
theorem stateAt_mid (c : Dev nD) (t : Fin cfg1.N) (h0 : ¬t.val % 4 = 0) (h1 : ¬t.val % 4 = 3) :
    stateAt V c t.val t.isLt = (outMid c (grid1.coords t) (actM t) (actM_whole t) (lwM t) (lwM_whole t) (outM t) (outM_whole t) accM (Memref.isWhole_whole _) (fun h => h0 ((atFirstTile_iff t).mp h)) (fun h => h1 ((atLastTile_iff t).mp h)) (logitsBlock V c 0 t) (logitsBlock V c 1 t) (stateAt V c (t.val - 1) (Nat.lt_of_le_of_lt (Nat.sub_le _ _) t.isLt)).2,
      accMid c (grid1.coords t) (actM t) (actM_whole t) (lwM t) (lwM_whole t) (outM t) (outM_whole t) accM (Memref.isWhole_whole _) (fun h => h0 ((atFirstTile_iff t).mp h)) (fun h => h1 ((atLastTile_iff t).mp h)) (logitsBlock V c 0 t) (logitsBlock V c 1 t) (stateAt V c (t.val - 1) (Nat.lt_of_le_of_lt (Nat.sub_le _ _) t.isLt)).2) := by
  obtain ⟨n, hn⟩ := t
  cases n with
  | zero => exact absurd (Nat.zero_mod _) h0
  | succ n => exact (dif_neg h0).trans ((dif_neg h1).trans rfl)

/-- At a last tile: that case's contents over what the point before left. -/
theorem stateAt_last (c : Dev nD) (t : Fin cfg1.N) (h0 : ¬t.val % 4 = 0) (h1 : t.val % 4 = 3) :
    stateAt V c t.val t.isLt = (outLast c (grid1.coords t) (actM t) (actM_whole t) (lwM t) (lwM_whole t) (outM t) (outM_whole t) accM (Memref.isWhole_whole _) (fun h => h0 ((atFirstTile_iff t).mp h)) ((atLastTile_iff t).mpr h1) (logitsBlock V c 0 t) (logitsBlock V c 1 t) (stateAt V c (t.val - 1) (Nat.lt_of_le_of_lt (Nat.sub_le _ _) t.isLt)).2,
      accLast c (grid1.coords t) (actM t) (actM_whole t) (lwM t) (lwM_whole t) (outM t) (outM_whole t) accM (Memref.isWhole_whole _) (fun h => h0 ((atFirstTile_iff t).mp h)) ((atLastTile_iff t).mpr h1) (logitsBlock V c 0 t) (logitsBlock V c 1 t) (stateAt V c (t.val - 1) (Nat.lt_of_le_of_lt (Nat.sub_le _ _) t.isLt)).2) := by
  obtain ⟨n, hn⟩ := t
  cases n with
  | zero => exact absurd (Nat.zero_mod _) h0
  | succ n => exact (dif_neg h0).trans ((dif_pos h1).trans rfl)

/-! ## The invariant -/

/-- Before position `n`: at the region's entry what it is handed (every scoped buffer at anything, the generator register
    at some state); afterwards the same with the accumulator at what the point before left. -/
def accInv (c : Dev nD) : (n : ℕ) → n ≤ cfg1.N → sProp 𝕄
  | 0, _ => Pipeline.ΦA spec1 c
  | n + 1, hn => iprop(scopedWith c (owns (c : Thread nD τ) accM fullShare ((stateAt V c n hn).2)) ∗ (∃ r, prngReg c r))

theorem accInv_zero (c : Dev nD) (n : ℕ) (h : n ≤ cfg1.N) (hz : n = 0) : accInv V c n h = Pipeline.ΦA spec1 c := by
  subst hz; rfl
theorem accInv_succ (c : Dev nD) (n : ℕ) (hn : n < cfg1.N) :
    accInv V c (n + 1) hn = iprop(scopedWith c (owns (c : Thread nD τ) accM fullShare ((stateAt V c n hn).2)) ∗ (∃ r, prngReg c r)) := rfl
theorem accInv_pos (c : Dev nD) (n : ℕ) (h : n ≤ cfg1.N) (hz : n ≠ 0) :
    accInv V c n h = iprop(scopedWith c (owns (c : Thread nD τ) accM fullShare ((stateAt V c (n - 1) (by omega)).2)) ∗ (∃ r, prngReg c r)) := by
  cases n with
  | zero => exact absurd rfl hz
  | succ n => rfl

/-! ## The proof data -/

/-- The region's proof data on core `c`: the arrays as the region finds them; after the body at point `t` each
    input's buffer at its block and the output's at `stateAt`'s first component; the invariant `accInv`; nothing owed;
    full shares. -/
def logitsDat (c : Dev nD) : Dat τ (Elt F) Unit ℕ (UR sig nD τ) ℕ cfg1 c where
  A w := V c (Pipeline.arrRef spec1 w)
  after w t := match w with
    | ⟨0, _⟩ => logitsBlock V c 0 t
    | ⟨1, _⟩ => logitsBlock V c 1 t
    | ⟨2, _⟩ => (stateAt V c t.val t.isLt).1
  Φ t := accInv V c t.val (Nat.le_of_lt_succ t.isLt)
  q _ := fullShare
  owed _ := 0

theorem logitsDat_A (c : Dev nD) (w : Fin cfg1.W) : (logitsDat V c).A w = V c (Pipeline.arrRef spec1 w) := by
  dsimp only [logitsDat]
theorem logitsDat_inv_castSucc (c : Dev nD) (t : Fin cfg1.N) :
    (logitsDat V c).Φ t.castSucc = accInv V c t.val (Nat.le_of_lt t.isLt) := by
  dsimp only [logitsDat]; simp only [Fin.coe_castSucc]
theorem logitsDat_after0 (c : Dev nD) (t : Fin cfg1.N) : (logitsDat V c).after 0 t = logitsBlock V c 0 t := by dsimp only [logitsDat]
theorem logitsDat_after1 (c : Dev nD) (t : Fin cfg1.N) : (logitsDat V c).after 1 t = logitsBlock V c 1 t := by dsimp only [logitsDat]
theorem logitsDat_after2 (c : Dev nD) (t : Fin cfg1.N) : (logitsDat V c).after 2 t = (stateAt V c t.val t.isLt).1 := by dsimp only [logitsDat]
theorem logitsDat_before0 (c : Dev nD) (t : Fin cfg1.N) (d) : (logitsDat V c).before 0 t d = logitsBlock V c 0 t :=
  logitsBlock_before_of0 V (logitsDat V c) (logitsDat_A V c 0) (logitsDat_after0 V c) t d
theorem logitsDat_before1 (c : Dev nD) (t : Fin cfg1.N) (d) : (logitsDat V c).before 1 t d = logitsBlock V c 1 t :=
  logitsBlock_before_of1 V (logitsDat V c) (logitsDat_A V c 1) (logitsDat_after1 V c) t d

/-! ## The body obligation -/

def logitsBodyPre (c : Dev nD) (t : Fin cfg1.N) : sProp 𝕄 :=
  iprop((logitsDat V c).Φ t.castSucc ∗ (logitsDat V c).owesAt () t.castSucc
    ∗ (∃ d, owns (c : Thread nD τ) (actM t) fullShare ((logitsDat V c).before 0 t d))
    ∗ (∃ d, owns (c : Thread nD τ) (lwM t) fullShare ((logitsDat V c).before 1 t d))
    ∗ (∃ d, owns (c : Thread nD τ) (outM t) fullShare ((logitsDat V c).before 2 t d)))

def logitsBodyPost (c : Dev nD) (t : Fin cfg1.N) : sProp 𝕄 :=
  iprop((logitsDat V c).Φ t.succ ∗ (logitsDat V c).owesAt () t.succ
    ∗ (logitsDat V c).leavesExact 0 t
    ∗ (logitsDat V c).leavesExact 1 t
    ∗ (logitsDat V c).leavesExact 2 t)

set_option maxHeartbeats 4800000 in
/-- The body at any point. The inputs' memrefs hold their blocks; the closed forms of the two conditions say which case
    the point is in; the invariant hands the body the accumulator (at anything at the very first point, else at what the
    point before left) and takes it back at this point's contents, the case's stores covering it. -/
theorem logits_sound_body (c : Dev nD) (t : Fin cfg1.N) :
    logitsBodyPre V c t ⊢ wp frame (wpE (defs₀ (F := F)) Variants.none c none) Set.univ (bodyAt1 t) (fun _ => logitsBodyPost V c t) := by
  unfold logitsBodyPre logitsBodyPost bodyAt1
  simp only [logitsDat_before0, logitsDat_before1]
  rw [show (logitsDat V c).owesAt () t.succ = (logitsDat V c).owesAt () t.castSucc from rfl]
  rw [show (logitsDat V c).Φ t.succ = accInv V c (t.val + 1) t.isLt from rfl, accInv_succ]
  have hN : t.val < 16 := lt_of_lt_of_eq t.isLt (show cfg1.N = 16 from N_1)
  rw [show (logitsDat V c).leavesExact 0 t = owns (c : Thread nD τ) (actM t) fullShare ((logitsDat V c).after 0 t) from by
    unfold Dat.leavesExact; rw [activations_live t], logitsDat_after0]
  rw [show (logitsDat V c).leavesExact 1 t = owns (c : Thread nD τ) (lwM t) fullShare ((logitsDat V c).after 1 t) from by
    unfold Dat.leavesExact; rw [logweights_live t], logitsDat_after1]
  by_cases h0 : t.val % 4 = 0
  · have h1 : ¬t.val % 4 = 3 := by omega
    rw [Dat.leavesExact_idle (logitsDat V c) 2 t (output_idle t (fun h => h1 ((atLastTile_iff t).mp h))) (output_noFlush t (fun h => h1 ((atLastTile_iff t).mp h)))]
    rw [stateAt_first V c t h0 h1]
    unfold accFirst; (try dsimp only)
    by_cases hz : t.val = 0
    · rw [logitsDat_inv_castSucc V c t, accInv_zero V c _ _ hz, entryInv_eq]
      unfold scopedWith
      iintro ⟨⟨⟨Ha, Hb, Hc, Hd, HS⟩, Hg⟩, Ho, ⟨%d0, H0⟩, ⟨%d1, H1⟩, ⟨%d2, H2⟩⟩
      iapply ((runFirstTile c (grid1.coords t) _ _ _ _ _ _ _ _ ((atFirstTile_iff t).mpr h0) (fun h => h1 ((atLastTile_iff t).mp h)) (logitsBlock V c 0 t) (logitsBlock V c 1 t)).2.2 _ Set.univ _)
      isplitl [H0]; · iexact H0
      isplitl [H1]; · iexact H1
      isplitl [H2]; · iexact H2
      isplitl [HS]; · iexact HS
      iintro ⟨H0, H1, H2, ⟨%es, HS⟩⟩
      isplitl [Ha Hb Hc Hd HS Hg]
      · isplitl [Ha Hb Hc Hd HS]
        · isplitl [Ha]; · iexact Ha
          isplitl [Hb]; · iexact Hb
          isplitl [Hc]; · iexact Hc
          isplitl [Hd]; · iexact Hd
          unfold owns; iexists _; isplitr
          swap; · iexact HS
          ipureintro; exact View.read_writes_of_cover _ _ _ _ _ (accCoverFirst c _ _ _ _ _ _ _ _ _ _ _ _ _)
        iexact Hg
      isplitl [Ho]; · iexact Ho
      isplitl [H0]; · iexact H0
      isplitl [H1]; · iexact H1
      iexists _; iexact H2
    · rw [logitsDat_inv_castSucc V c t, accInv_pos V c _ _ hz]
      unfold scopedWith
      iintro ⟨⟨⟨Ha, Hb, Hc, Hd, HS⟩, Hg⟩, Ho, ⟨%d0, H0⟩, ⟨%d1, H1⟩, ⟨%d2, H2⟩⟩
      iapply ((runFirstTile c (grid1.coords t) _ _ _ _ _ _ _ _ ((atFirstTile_iff t).mpr h0) (fun h => h1 ((atLastTile_iff t).mp h)) (logitsBlock V c 0 t) (logitsBlock V c 1 t)).2.2 _ Set.univ _)
      isplitl [H0]; · iexact H0
      isplitl [H1]; · iexact H1
      isplitl [H2]; · iexact H2
      isplitl [HS]; · iexists _; iexact HS
      iintro ⟨H0, H1, H2, ⟨%es, HS⟩⟩
      isplitl [Ha Hb Hc Hd HS Hg]
      · isplitl [Ha Hb Hc Hd HS]
        · isplitl [Ha]; · iexact Ha
          isplitl [Hb]; · iexact Hb
          isplitl [Hc]; · iexact Hc
          isplitl [Hd]; · iexact Hd
          unfold owns; iexists _; isplitr
          swap; · iexact HS
          ipureintro; exact View.read_writes_of_cover _ _ _ _ _ (accCoverFirst c _ _ _ _ _ _ _ _ _ _ _ _ _)
        iexact Hg
      isplitl [Ho]; · iexact Ho
      isplitl [H0]; · iexact H0
      isplitl [H1]; · iexact H1
      iexists _; iexact H2
  · have hz : t.val ≠ 0 := fun h => h0 (by rw [h])
    by_cases h1 : t.val % 4 = 3
    · rw [show (logitsDat V c).leavesExact 2 t = owns (c : Thread nD τ) (outM t) fullShare ((logitsDat V c).after 2 t) from by
        unfold Dat.leavesExact; rw [output_live t ((atLastTile_iff t).mpr h1)], logitsDat_after2]
      rw [stateAt_last V c t h0 h1]
      unfold outLast accLast; (try dsimp only)
      rw [logitsDat_inv_castSucc V c t, accInv_pos V c _ _ hz]
      unfold scopedWith
      iintro ⟨⟨⟨Ha, Hb, Hc, Hd, HS⟩, Hg⟩, Ho, ⟨%d0, H0⟩, ⟨%d1, H1⟩, ⟨%d2, H2⟩⟩
      iapply ((runLastTile c (grid1.coords t) _ _ _ _ _ _ _ _ (fun h => h0 ((atFirstTile_iff t).mp h)) ((atLastTile_iff t).mpr h1) (logitsBlock V c 0 t) (logitsBlock V c 1 t) _).2.2 Set.univ _)
      isplitl [H0]; · iexact H0
      isplitl [H1]; · iexact H1
      isplitl [H2]; · iexists _; iexact H2
      isplitl [HS]; · iexact HS
      iintro ⟨H0, H1, ⟨%e2, H2⟩, ⟨%es, HS⟩⟩
      isplitl [Ha Hb Hc Hd HS Hg]
      · isplitl [Ha Hb Hc Hd HS]
        · isplitl [Ha]; · iexact Ha
          isplitl [Hb]; · iexact Hb
          isplitl [Hc]; · iexact Hc
          isplitl [Hd]; · iexact Hd
          unfold owns; iexists _; isplitr
          swap; · iexact HS
          ipureintro; exact View.read_writes_of_cover _ _ _ _ _ (accCoverLast c _ _ _ _ _ _ _ _ _ _ _ _ _ _)
        iexact Hg
      isplitl [Ho]; · iexact Ho
      isplitl [H0]; · iexact H0
      isplitl [H1]; · iexact H1
      unfold owns; iexists _; isplitr
      swap; · iexact H2
      ipureintro; exact View.read_writes_of_cover _ _ _ _ _ (outCoverLast c _ _ _ _ _ _ _ _ _ _ _ _ _ _)
    · rw [Dat.leavesExact_idle (logitsDat V c) 2 t (output_idle t (fun h => h1 ((atLastTile_iff t).mp h))) (output_noFlush t (fun h => h1 ((atLastTile_iff t).mp h)))]
      rw [stateAt_mid V c t h0 h1]
      unfold accMid; (try dsimp only)
      rw [logitsDat_inv_castSucc V c t, accInv_pos V c _ _ hz]
      unfold scopedWith
      iintro ⟨⟨⟨Ha, Hb, Hc, Hd, HS⟩, Hg⟩, Ho, ⟨%d0, H0⟩, ⟨%d1, H1⟩, ⟨%d2, H2⟩⟩
      iapply ((runMidTile c (grid1.coords t) _ _ _ _ _ _ _ _ (fun h => h0 ((atFirstTile_iff t).mp h)) (fun h => h1 ((atLastTile_iff t).mp h)) (logitsBlock V c 0 t) (logitsBlock V c 1 t) _).2.2 _ Set.univ _)
      isplitl [H0]; · iexact H0
      isplitl [H1]; · iexact H1
      isplitl [H2]; · iexact H2
      isplitl [HS]; · iexact HS
      iintro ⟨H0, H1, H2, ⟨%es, HS⟩⟩
      isplitl [Ha Hb Hc Hd HS Hg]
      · isplitl [Ha Hb Hc Hd HS]
        · isplitl [Ha]; · iexact Ha
          isplitl [Hb]; · iexact Hb
          isplitl [Hc]; · iexact Hc
          isplitl [Hd]; · iexact Hd
          unfold owns; iexists _; isplitr
          swap; · iexact HS
          ipureintro; exact View.read_writes_of_cover _ _ _ _ _ (accCoverMid c _ _ _ _ _ _ _ _ _ _ _ _ _ _)
        iexact Hg
      isplitl [Ho]; · iexact Ho
      isplitl [H0]; · iexact H0
      isplitl [H1]; · iexact H1
      iexists _; iexact H2

/-- The library's body obligation, at every point. -/
theorem logits_body_obligation (c : Dev nD) : BodyObligation (logitsDat (F := F) V c) (defs₀ (F := F)) Variants.none () Set.univ := fun t => by
  rw [bigSep_W1, bigSep_W1]
  exact logits_sound_body V c t

/-! ## The invariant's two ends -/

/-- Before the first point the invariant is what the region is handed. -/
theorem logits_inv_first (c : Dev nD) : (logitsDat V c).Φ 0 = Pipeline.ΦA spec1 c := by
  rw [show (logitsDat V c).Φ 0 = accInv V c 0 (Nat.zero_le _) from rfl, accInv_zero V c 0 _ rfl]

/-- After the last point it gives that back: the accumulator's named contents are forgotten. -/
theorem logits_inv_last (c : Dev nD) : (logitsDat V c).Φ (Fin.last cfg1.N) ⊢ Pipeline.ΦA spec1 c := by
  rw [show (logitsDat V c).Φ (Fin.last cfg1.N) = accInv V c (Fin.last cfg1.N).val (Nat.le_of_lt_succ (Fin.last cfg1.N).isLt) from rfl,
    accInv_pos V c _ _ (by rw [Fin.val_last]; have : cfg1.N = 16 := N_1; omega), entryInv_eq]
  unfold scopedWith
  iintro ⟨⟨Ha, Hb, Hc, Hd, HS⟩, Hg⟩
  isplitl [Ha Hb Hc Hd HS]
  · isplitl [Ha]; · iexact Ha
    isplitl [Hb]; · iexact Hb
    isplitl [Hc]; · iexact Hc
    isplitl [Hd]; · iexact Hd
    iexists _; iexact HS
  iexact Hg
end

end Cert.KernelIdeal.Hand

end
-- ==== Proof.Run.lean ====
/- THE RUN of @main: region 0 (the log-weights kernel) then region 1 (the logits kernel), with no host operation
   between them. The buffer contents at the three boundaries (launch, between the regions, return) are a fold from
   the launch memory; the run's theorem states every unscoped buffer of every core at the last boundary's contents,
   from which the frame (the two arguments end as launched) and the result array's contents are read.
   Stated at any float interpretation F. -/
import proofs.«106602_j17901423690383_2_alg».proof.Proof.LogWeightsRegion
import proofs.«106602_j17901423690383_2_alg».proof.Proof.LogitsRegion

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary: a fold through @main -/

/-- Core c's buffers at launch. -/
abbrev B0 : Dev nD → Valuation τ sig (Elt F) := fun c b => (s₀ m ρ).mem ((c : Dev nD), b)
/-- The same read at the TensorCore's references (what region 0's proof data take). -/
abbrev B0' : (c : Dev nD) → (b : Ref sig .tc) → Buf (Elt F) ((c : Thread nD τ).loc b) := fun c b => B0 m ρ c b

/-- Between the regions: region 0's arrays at what its pipeline leaves (the raw weights as entered, the
    log-weights array with every tile's write-back folded in), every other buffer as launched. -/
def B1 (c : Dev nD) : Valuation τ sig (Elt F) :=
  Pipeline.withArrays spec0 c (B0 m ρ c) fun w => (logwDat (B0' m ρ) c).arrAt w cfg0.N
theorem B1_arr (c : Dev nD) (w : Fin cfg0.W) :
    B1 m ρ c (Proc.devRef .tc (Pipeline.arrRef spec0 w)) = (logwDat (B0' m ρ) c).arrAt w cfg0.N := by
  unfold B1; exact Pipeline.withArrays_arr spec0 launch0.win.arr_inj c _ _ w
theorem B1_of_ne (c : Dev nD) (b : Ref sig .tc) (hb : ∀ w, Pipeline.arrRef spec0 w ≠ b) :
    B1 m ρ c (Proc.devRef .tc b) = B0 m ρ c (Proc.devRef .tc b) := by
  unfold B1; exact Pipeline.withArrays_of_ne spec0 c _ _ b hb
/-- The same read at the TensorCore's references (what region 1's proof data take). -/
abbrev B1' : (c : Dev nD) → (b : Ref sig .tc) → Buf (Elt F) ((c : Thread nD τ).loc b) := fun c b => B1 m ρ c b
/-- At region 0's exit each of its arrays holds what the pipeline leaves and every other buffer what it held at
    entry. -/
theorem B1_arrays (c : Dev nD) (w : Fin cfg0.W) : (logwDat (B0' m ρ) c).arrAt w cfg0.N = B1' m ρ c (Pipeline.arrRef spec0 w) :=
  (B1_arr m ρ c w).symm
theorem B1_rest (c : Dev nD) : ∀ b, b ∉ Finset.univ.image (Pipeline.arrRef spec0) → B1' m ρ c b = B0' m ρ c b :=
  fun b hb => B1_of_ne m ρ c b fun w e => hb (Finset.mem_image.mpr ⟨w, Finset.mem_univ _, e⟩)

/-- At the return: region 1's arrays at what its pipeline leaves (the binary matrix and the log-weights as entered,
    the result array with its write-backs folded in), every other buffer as region 1 found it. -/
def B2 (c : Dev nD) : Valuation τ sig (Elt F) :=
  Pipeline.withArrays spec1 c (B1 m ρ c) fun w => (logitsDat (B1' m ρ) c).arrAt w cfg1.N
theorem B2_arr (c : Dev nD) (w : Fin cfg1.W) :
    B2 m ρ c (Proc.devRef .tc (Pipeline.arrRef spec1 w)) = (logitsDat (B1' m ρ) c).arrAt w cfg1.N := by
  unfold B2; exact Pipeline.withArrays_arr spec1 launch1.win.arr_inj c _ _ w
theorem B2_of_ne (c : Dev nD) (b : Ref sig .tc) (hb : ∀ w, Pipeline.arrRef spec1 w ≠ b) :
    B2 m ρ c (Proc.devRef .tc b) = B1 m ρ c (Proc.devRef .tc b) := by
  unfold B2; exact Pipeline.withArrays_of_ne spec1 c _ _ b hb
/-- The same read at the TensorCore's references. -/
abbrev B2' : (c : Dev nD) → (b : Ref sig .tc) → Buf (Elt F) ((c : Thread nD τ).loc b) := fun c b => B2 m ρ c b
theorem B2_arrays (c : Dev nD) (w : Fin cfg1.W) : (logitsDat (B1' m ρ) c).arrAt w cfg1.N = B2' m ρ c (Pipeline.arrRef spec1 w) :=
  (B2_arr m ρ c w).symm
theorem B2_rest (c : Dev nD) : ∀ b, b ∉ Finset.univ.image (Pipeline.arrRef spec1) → B2' m ρ c b = B1' m ρ c b :=
  fun b hb => B2_of_ne m ρ c b fun w e => hb (Finset.mem_image.mpr ⟨w, Finset.mem_univ _, e⟩)

/-! ### Reading the fold: what each of @main's four arrays holds at each boundary -/

/-- At launch every buffer holds the launch memory. -/
theorem B0_eq (c : Dev nD) (b : Ref sig .tc) : B0 m ρ c (Proc.devRef .tc b) = m ((c : Thread nD τ).loc b) := rfl

/-- Region 0 reads the raw weights through an input window: the array is as launched. -/
theorem B1_main_arg1 (c : Dev nD) : B1 m ρ c (Proc.devRef .tc main_arg1) = m ((c : Thread nD τ).loc main_arg1) :=
  calc B1 m ρ c (Proc.devRef .tc main_arg1)
    _ = B0 m ρ c (Proc.devRef .tc main_arg1) := (B1_arr m ρ c 0).trans (((logwDat (B0' m ρ) c).arrAt_in 0 rfl _).trans (logwDat_A (B0' m ρ) c 0))
    _ = m ((c : Thread nD τ).loc main_arg1) := rfl
/-- Region 0 does not touch the binary matrix. -/
theorem B1_main_arg0 (c : Dev nD) : B1 m ρ c (Proc.devRef .tc main_arg0) = m ((c : Thread nD τ).loc main_arg0) :=
  (B1_of_ne m ρ c main_arg0 (by decide)).trans rfl
/-- Region 0's result: the log-weights array after all four tiles' write-backs. -/
theorem B1_main_v0 (c : Dev nD) : B1 m ρ c (Proc.devRef .tc main_v0) = (logwDat (B0' m ρ) c).arrAt 1 cfg0.N :=
  B1_arr m ρ c 1
/-- Region 0 does not touch the final result array. -/
theorem B1_main_v1 (c : Dev nD) : B1 m ρ c (Proc.devRef .tc main_v1) = m ((c : Thread nD τ).loc main_v1) :=
  (B1_of_ne m ρ c main_v1 (by decide)).trans rfl

/-- Region 1 reads the binary matrix through an input window: the array is as launched. -/
theorem B2_main_arg0 (c : Dev nD) : B2 m ρ c (Proc.devRef .tc main_arg0) = m ((c : Thread nD τ).loc main_arg0) :=
  calc B2 m ρ c (Proc.devRef .tc main_arg0)
    _ = B1 m ρ c (Proc.devRef .tc main_arg0) := (B2_arr m ρ c 0).trans (((logitsDat (B1' m ρ) c).arrAt_in 0 rfl _).trans (logitsDat_A (B1' m ρ) c 0))
    _ = m ((c : Thread nD τ).loc main_arg0) := B1_main_arg0 m ρ c
/-- Region 1 does not touch the raw weights. -/
theorem B2_main_arg1 (c : Dev nD) : B2 m ρ c (Proc.devRef .tc main_arg1) = m ((c : Thread nD τ).loc main_arg1) :=
  (B2_of_ne m ρ c main_arg1 (by decide)).trans (B1_main_arg1 m ρ c)
/-- Region 1 reads the log-weights through an input window: the array is as region 0 left it. -/
theorem B2_main_v0 (c : Dev nD) : B2 m ρ c (Proc.devRef .tc main_v0) = (logwDat (B0' m ρ) c).arrAt 1 cfg0.N :=
  ((B2_arr m ρ c 1).trans (((logitsDat (B1' m ρ) c).arrAt_in 1 rfl _).trans (logitsDat_A (B1' m ρ) c 1))).trans (B1_main_v0 m ρ c)
/-- Region 1's result: the result array after its write-backs. -/
theorem B2_main_v1 (c : Dev nD) : B2 m ρ c (Proc.devRef .tc main_v1) = (logitsDat (B1' m ρ) c).arrAt 2 cfg1.N :=
  B2_arr m ρ c 2

/-! ## The proof data family and the thread state -/

/-- The prefetched tables' admissible contents: no pipeline has a table. -/
abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => logwDat (B0' m ρ) c
  | ⟨1, _⟩ => fun c => logitsDat (B1' m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through both regions: the core's generator register at some state and its
    debts, at nothing. -/
abbrev R (c : Dev nD) : sProp 𝕄 := iprop((∃ r, prngReg c r) ∗ ∃ W, owes (c : Thread nD τ) (0 : CellTallies nD τ sig Unit) W)
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the debts: every unscoped buffer at the last boundary's contents, the generator
    register at some state. -/
abbrev Tₙ (c : Dev nD) : sProp 𝕄 := iprop(StableHlo.held (c : Thread nD τ) (Pipeline.ucRefs τ sig) (B2 m ρ c) ∗ ∃ r, prngReg c r)

/-! ## The regions as segments -/

set_option backward.isDefEq.respectTransparency.types false in
/-- REGION 0 over the thread state: entered from every unscoped buffer at the launch contents, left at the
    contents between the regions. Its arrays are split out of the unscoped buffers and put back at the exit
    contents; the generator register goes into the invariant and comes out; nothing owed. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (logw_body_obligation (B0' m ρ) c).loose
  hwaits := Pipeline.hwaits_of_owed_zero _ _ _ _ L lv 0 fun _ _ => rfl
  pre c := iprop(StableHlo.held (c : Thread nD τ) (Pipeline.ucRefs τ sig) (B0 m ρ c) ∗ R c)
  post c := iprop(StableHlo.held (c : Thread nD τ) (Pipeline.ucRefs τ sig) (B1 m ρ c) ∗ R c)
  X c := iprop(∃ r, prngReg c r)
  Y c := iprop(∃ r, prngReg c r)
  Z c := Pipeline.unscopedRest (Ix := Unit) (Name := ℕ) (U := UR sig nD τ) (Lvl := ℕ) spec0 c (B0' m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (B0' m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (B0' m ρ c) (B1' m ρ c) ((pdats m ρ 0 c).arrAt · cfg0.N) (B1_arrays m ρ c) (B1_rest m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 1 over the thread state: entered from every unscoped buffer at the contents between the regions, left
    at the return contents. Its invariant starts as the scoped rest with the generator register and, at the last
    point, forgets the accumulator it carried back into the scoped rest. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (logits_body_obligation (B1' m ρ) c).loose
  hwaits := Pipeline.hwaits_of_owed_zero _ _ _ _ L lv 1 fun _ _ => rfl
  pre c := iprop(StableHlo.held (c : Thread nD τ) (Pipeline.ucRefs τ sig) (B1 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (B1' m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (B1' m ρ c) fun w => logitsDat_A (B1' m ρ) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from logits_inv_first (B1' m ρ) c]; unfold Pipeline.ΦA
    iintro ⟨Hp, -, Hr⟩
    isplitl [Hr]; · iexact Hr
    iexact Hp
  hout c := by
    rw [Pipeline.ownSems0_none]
    refine (show (pdats m ρ 1 c).Φ (Fin.last _) ⊢ Pipeline.ΦA spec1 c from logits_inv_last (B1' m ρ) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (B1' m ρ c) (B2' m ρ c) ((pdats m ρ 1 c).arrAt · cfg1.N) (B2_arrays m ρ c) (B2_rest m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

/-- @main's two segments in order: a region per kernel call, nothing between them. -/
abbrev segs : List (Pipeline.Seg (pcfgs (F := F)) adm (pdats m ρ) () defs₀ 𝒱₀ L lv) :=
  [ .region (reg0 m ρ),
    .region (reg1 m ρ) ]
/-- @main is the run of the two segments. -/
theorem main_run (c : Dev nD) : main (F := F) c = Pipeline.Seg.run (segs m ρ) :=
  main_segs adm (pdats m ρ) () 𝒱₀ L lv (reg0 m ρ) (reg1 m ρ) c

set_option backward.isDefEq.respectTransparency.types false in
/-- THE RUN: at the compiled mesh, from any memory with zero counters, every weakly fair execution of @main on the
    TensorCores terminates, nothing faulting, and in every final state every unscoped buffer of every core holds
    the last boundary's contents. -/
theorem run_all : θ_run defs (onTc (τ := τ) (main (F := F))) ⟨m, fun _ => 0, ρ⟩ (fun r => ∀ c : Dev nD,
      ∀ b ∈ Pipeline.ucRefs τ sig, r.2.mem ((c : Thread nD τ).1, b) = B2 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (B0 m ρ c) ∗ R c)) (Tₙ := Tₙ m ρ)
    (hch := ⟨fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (B0 m ρ c)
        from Pipeline.unscopedBufs_held c (B0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = B2 m ρ c b)
    (hfin := fun c s' => by
      iintro ⟨⟨Hh, -⟩, HSI⟩
      unfold StableHlo.held
      imodintro
      iapply (pointsTo_read_all (Pipeline.ucRefs τ sig) (fun b => (((c : Thread nD τ)).1, b)) (B2 m ρ c) s')
      isplitl [Hh] <;> iassumption)
    (hQ := fun s h => h)

/-- THE FRAME: the two argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (run_all m ρ).mono fun r h c =>
    ⟨(h c _ (mem_uc main_arg0 (by decide))).trans (B2_main_arg0 m ρ c),
     (h c _ (mem_uc main_arg1 (by decide))).trans (B2_main_arg1 m ρ c)⟩

/-- The result array in every final state: what region 1's pipeline leaves in it. -/
theorem result_eq : θ_run defs (onTc (τ := τ) (main (F := F))) ⟨m, fun _ => 0, ρ⟩ (fun r => ∀ c : Dev nD,
      r.2.mem ((c.tc : Thread nD τ).loc main_v1) = (logitsDat (B1' m ρ) c).arrAt 2 cfg1.N) :=
  (run_all m ρ).mono fun r h c =>
    (h c _ (mem_uc main_v1 (by decide))).trans (B2_main_v1 m ρ c)

/-- The result array and the frame in one statement: in every final state the result array holds what region 1's
    pipeline leaves in it, and the two argument arrays are as launched. -/
theorem result_and_frame : θ_run defs (onTc (τ := τ) (main (F := F))) ⟨m, fun _ => 0, ρ⟩ (fun r => ∀ c : Dev nD,
      r.2.mem ((c.tc : Thread nD τ).loc main_v1) = (logitsDat (B1' m ρ) c).arrAt 2 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (run_all m ρ).mono fun r h c =>
    ⟨(h c _ (mem_uc main_v1 (by decide))).trans (B2_main_v1 m ρ c),
     (h c _ (mem_uc main_arg0 (by decide))).trans (B2_main_arg0 m ρ c),
     (h c _ (mem_uc main_arg1 (by decide))).trans (B2_main_arg1 m ρ c)⟩

end Cert.KernelIdeal.Hand

end
-- ==== Proof.KernelFrame.LogWeightsRegion.lean ====
/- REGION 0 of @main: the log-weights kernel, at the buffer contents the region is entered with.
   Every grid point reads one [256,4096] tile of the raw weights and leaves, in its [384,4096] output tile,
   log(max(eps, 10·sigmoid(raw))) rounded to bf16 in rows 0..255 and the constant 1 in rows 256..383.
   Stated at any float interpretation F. -/
import proofs.«106602_j17901423690383_2_alg».proof.Proof.Gen.Kernel.Launch
import proofs.«106602_j17901423690383_2_alg».proof.Proof.Gen.Kernel.Skeleton
import proofs.«106602_j17901423690383_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle with thousands of columns: the structural check recurses once per coordinate
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section LogWeights
-- the TensorCore's buffer contents when the region is entered
variable (V : (c : Dev nD) → (b : Ref sig .tc) → Buf (Elt F) ((c : Thread nD τ).loc b))

/-! ## The windows' blocks -/

/-- Window w's block at grid point t, read off the window's array as the region finds it. -/
def logwBlock (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The raw-weights window's staging buffer holds the point's tile when the body starts, for any proof data
    whose array is the entry contents and whose body leaves the tile in place: the window is fetched at every
    point, is never cut and never idle. -/
theorem logwBlock_before_of {c : Dev nD} (dat : Dat τ (Elt F) Unit ℕ (UR sig nD τ) ℕ cfg0 c) (hA : dat.A 0 = V c (Pipeline.arrRef spec0 0))
    (hafter : ∀ t, dat.after 0 t = logwBlock V c 0 t) (t : Fin cfg0.N) (d) : dat.before 0 t d = logwBlock V c 0 t :=
  (dat.before_in_eq_fetched 0 rfl (fun _ => rfl) (fun _ _ _ => rfl) (fun t => by rw [hafter]; unfold Dat.blockOf logwBlock; rw [hA]; try rfl) t d).trans
    (by unfold Dat.fetched Dat.blockOf logwBlock; rw [hA]; try rfl)

/-! ## The rectangles the body touches -/

/-- The whole input tile. -/
abbrev inputRect : Rect S256x4096 := Rect.unit (s := S256x4096) ![0, 0] S256x4096.size inb_S256x4096_S256x4096_0_0
/-- Rows 0..255 of the output tile: where the log-weights go. -/
abbrev rows0to255 : Rect S384x4096 := Rect.unit (s := S384x4096) ![0, 0] S256x4096.size inb_S384x4096_S256x4096_0_0
/-- Rows 256..383 of the output tile: where the constant 1 goes. -/
abbrev rows256to383 : Rect S384x4096 := Rect.unit (s := S384x4096) ![256, 0] S128x4096.size inb_S384x4096_S128x4096_256_0

/-! ## What the body leaves in the output tile -/

/-- The output tile after the body, from the input tile: the two stores as pieces, the LAST store first. -/
def logwOut (x0 : Vec F S256x4096 .f32) : Vec F S384x4096 .bf16 :=
  View.canon [⟨rows256to383, k0_pay2⟩, ⟨rows0to255, k0_pay1 (View.ld x0 inputRect)⟩]

/-- Rows 256..383 and rows 0..255 tile the 384 rows, so every cell of the output tile is in one of the stores:
    cut into blocks of [128,4096] the two pieces are the three such blocks of the tile, each once. -/
theorem logwOut_cover (p0 : Vec F S128x4096 .bf16) (p1 : Vec F S256x4096 .bf16) (y : S384x4096.Idx) :
    ∃ pc ∈ ([⟨rows256to383, p0⟩, ⟨rows0to255, p1⟩] : List (View.Piece (Elt F) S384x4096 .bf16)), y ∈ pc.1.set :=
  View.cover_of_tiledBy [⟨rows256to383, p0⟩, ⟨rows0to255, p1⟩] ![128, 4096] (by sl_kernel_rfl) y

/-! ## The body's triple -/

set_option maxHeartbeats 1000000 in
/-- The body on whole staging memrefs, the input's at the tile x0 and the output's at anything, runs to the
    continuation holding the input's as it was and the output's at logwOut x0. The body reads the output
    memref before each of its two stores; what it reads there is used by nothing. -/
theorem logw_body_triple (c : Dev nD) (E : Set ℕ) (i : grid0.Coords) (arg1 : Memref sig .tc .vmem S256x4096 .f32) (harg1 : arg1.IsWhole)
    (arg2 : Memref sig .tc .vmem S384x4096 .bf16) (harg2 : arg2.IsWhole)
    (x0 : Vec F S256x4096 .f32) (K : PUnit → sProp 𝕄) :
    iprop(owns (c : Thread nD τ) arg1 fullShare x0 ∗ (∃ d, owns (c : Thread nD τ) arg2 fullShare d)
        ∗ (iprop(owns (c : Thread nD τ) arg1 fullShare x0 ∗ owns (c : Thread nD τ) arg2 fullShare (logwOut x0)) -∗ K ⟨⟩))
      ⊢ wp frame (wpE (defs₀ (F := F)) Variants.none c none) E (cc0__logw_kernel i arg1 harg1 arg2 harg2) K := by
  simp only [cc0__logw_kernel_eq_skeleton]; unfold cc0__logw_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (logwOut_cover _ _)

/-! ## The pipeline's proof data -/

/-- The proof data of the log-weights pipeline on core c: the arrays as the region finds them; after the body
    at point t the input's buffer still at its tile and the output's at logwOut of that tile; the invariant is
    the scoped rest and the generator register, untouched; nothing owed; full shares. -/
def logwDat (c : Dev nD) : Dat τ (Elt F) Unit ℕ (UR sig nD τ) ℕ cfg0 c where
  A w := V c (Pipeline.arrRef spec0 w)
  after w t := match w with
    | ⟨0, _⟩ => logwBlock V c 0 t
    | ⟨1, _⟩ => logwOut (logwBlock V c 0 t)
  Φ _ := Pipeline.ΦA spec0 c
  q _ := fullShare
  owed _ := 0

/-- The proof data's arrays are the region-entry contents. -/
theorem logwDat_A (c : Dev nD) (w : Fin cfg0.W) : (logwDat V c).A w = V c (Pipeline.arrRef spec0 w) := by
  dsimp only [logwDat]

/-- What the body leaves, window by window. -/
theorem logwDat_after_in (c : Dev nD) (t : Fin cfg0.N) : (logwDat V c).after 0 t = logwBlock V c 0 t := by dsimp only [logwDat]
theorem logwDat_after_out (c : Dev nD) (t : Fin cfg0.N) : (logwDat V c).after 1 t = logwOut (logwBlock V c 0 t) := by dsimp only [logwDat]

/-- The input's current staging buffer holds the point's tile when the body starts. -/
theorem logwDat_before_in (c : Dev nD) (t : Fin cfg0.N) (d) : (logwDat V c).before 0 t d = logwBlock V c 0 t :=
  logwBlock_before_of V (logwDat V c) (logwDat_A V c 0) (logwDat_after_in V c) t d

/-! ## The body obligation, at a generic point -/

/-- What the body is called with at point t, the windows one by one, -/
def logwBodyPre (c : Dev nD) (t : Fin cfg0.N) : sProp 𝕄 :=
  iprop((logwDat V c).Φ t.castSucc ∗ (logwDat V c).owesAt () t.castSucc
    ∗ (∃ d, owns (c : Thread nD τ) (st0_0 t) fullShare ((logwDat V c).before 0 t d))
    ∗ (∃ d, owns (c : Thread nD τ) (st0_1 t) fullShare ((logwDat V c).before 1 t d)))

/-- and what it returns. -/
def logwBodyPost (c : Dev nD) (t : Fin cfg0.N) : sProp 𝕄 :=
  iprop((logwDat V c).Φ t.succ ∗ (logwDat V c).owesAt () t.succ
    ∗ owns (c : Thread nD τ) (st0_0 t) fullShare ((logwDat V c).after 0 t)
    ∗ owns (c : Thread nD τ) (st0_1 t) fullShare ((logwDat V c).after 1 t))

/-- The body at any point: the input's memref holds its tile, so the triple applies; the invariant and what
    the core owes pass through unread. -/
theorem logw_body_at (c : Dev nD) (t : Fin cfg0.N) :
    logwBodyPre V c t ⊢ wp frame (wpE (defs₀ (F := F)) Variants.none c none) Set.univ (bodyAt0 t) (fun _ => logwBodyPost V c t) := by
  unfold logwBodyPre logwBodyPost bodyAt0
  simp only [logwDat_before_in]
  rw [show (logwDat V c).Φ t.succ = (logwDat V c).Φ t.castSucc from rfl,
    show (logwDat V c).owesAt () t.succ = (logwDat V c).owesAt () t.castSucc from rfl,
    logwDat_after_in, logwDat_after_out]
  iintro ⟨HΦ, Ho, ⟨%d0, H0⟩, ⟨%d1, H1⟩⟩
  iapply (logw_body_triple c Set.univ _ _ _ _ _ (logwBlock V c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The library's body obligation, at every point. -/
theorem logw_body_obligation (c : Dev nD) : BodyObligation (logwDat (F := F) V c) (defs₀ (F := F)) Variants.none () Set.univ := fun t => by
  rw [bigSep_W0, bigSep_W0]
  exact logw_body_at V c t

end LogWeights

end Cert.Kernel.Hand

end
-- ==== Proof.KernelFrame.LogitsCases.lean ====
/-
  The second kernel region (the masked log-sum and its read-out), first part: what every control case of its body is
  stated over. The grid is 4 batch tiles by 4 reduction tiles, a point `t` being batch tile `t / 4` and reduction
  tile `t % 4`. The body resets its accumulator exactly at the first reduction tile (`t % 4 = 0`), adds one tile's
  matrix product at every point, and reads the accumulator out into its output block exactly at the last reduction tile
  (`t % 4 = 3`); at the other points the output block is left untouched and is not written back.
-/
import proofs.«106602_j17901423690383_2_alg».proof.Proof.Gen.Kernel.Launch
import proofs.«106602_j17901423690383_2_alg».proof.Proof.Gen.Kernel.Skeleton
import proofs.«106602_j17901423690383_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-! ## The windows' blocks -/

/-- Window `w`'s block at point `t`, read off its array as the region finds it. -/
def logitsBlock (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The activations' staging buffer holds the point's block of the activations, fetched there or not, for any proof
    data over the entry contents whose body leaves that block in place. -/
theorem logitsBlock_before_of0 {c : Dev nD} (dat : Dat τ (Elt F) Unit ℕ (UR sig nD τ) ℕ cfg1 c) (hA : dat.A 0 = V c (Pipeline.arrRef spec1 0))
    (hafter : ∀ t, dat.after 0 t = logitsBlock V c 0 t) (t : Fin cfg1.N) (d) : dat.before 0 t d = logitsBlock V c 0 t :=
  (dat.before_in_eq_fetched 0 rfl (fun _ => rfl) (fun _ _ _ => rfl) (fun t => by rw [hafter]; unfold Dat.blockOf logitsBlock; rw [hA]; try rfl) t d).trans
    (by unfold Dat.fetched Dat.blockOf logitsBlock; rw [hA]; try rfl)

/-- The same for the log-weights' staging buffer. -/
theorem logitsBlock_before_of1 {c : Dev nD} (dat : Dat τ (Elt F) Unit ℕ (UR sig nD τ) ℕ cfg1 c) (hA : dat.A 1 = V c (Pipeline.arrRef spec1 1))
    (hafter : ∀ t, dat.after 1 t = logitsBlock V c 1 t) (t : Fin cfg1.N) (d) : dat.before 1 t d = logitsBlock V c 1 t :=
  (dat.before_in_eq_fetched 1 rfl (fun _ => rfl) (fun _ _ _ => rfl) (fun t => by rw [hafter]; unfold Dat.blockOf logitsBlock; rw [hA]; try rfl) t d).trans
    (by unfold Dat.fetched Dat.blockOf logitsBlock; rw [hA]; try rfl)
end

/-! ## The body's two branch conditions -/

/-- "This is the first reduction tile": the condition of the body's first conditional, from the grid coordinates. -/
abbrev atFirstTile (i : grid1.Coords) : Prop := (Scalar.cmpi .ne (Scalar.extui (Scalar.cmpi .eq (BitVec.ofNat 32 (i 1).val) 0#32)) 0#32) = 1#1
/-- It holds exactly at the points ≡ 0 (mod 4). -/
theorem atFirstTile_iff : ∀ t : Fin cfg1.N, atFirstTile (grid1.coords t) ↔ t.val % 4 = 0 :=
  (by decide +kernel : ∀ t : Fin grid1.N, atFirstTile (grid1.coords t) ↔ t.val % 4 = 0)

/-- "This is the last reduction tile": the condition of the body's second conditional. -/
abbrev atLastTile (i : grid1.Coords) : Prop := k1_cond2 i = 1#1
/-- It holds exactly at the points ≡ 3 (mod 4). -/
theorem atLastTile_iff : ∀ t : Fin cfg1.N, atLastTile (grid1.coords t) ↔ t.val % 4 = 3 :=
  (by decide +kernel : ∀ t : Fin grid1.N, atLastTile (grid1.coords t) ↔ t.val % 4 = 3)

/-! ## Where the windows are idle -/

theorem activations_live : ∀ t : Fin cfg1.N, cfg1.idle 0 (grid1.coords t) = false := by decide +kernel
theorem logweights_live : ∀ t : Fin cfg1.N, cfg1.idle 1 (grid1.coords t) = false := by decide +kernel
/-- Away from the last reduction tile the output window is idle (nothing is stored into it) -/
theorem output_idle : ∀ t : Fin cfg1.N, ¬atLastTile (grid1.coords t) → cfg1.idle 2 (grid1.coords t) = true := by decide +kernel
/-- and its block is not written back; -/
theorem output_noFlush : ∀ t : Fin cfg1.N, ¬atLastTile (grid1.coords t) → (cfg1.win 2).flush t = false := by decide +kernel
/-- at the last reduction tile it is live. -/
theorem output_live : ∀ t : Fin cfg1.N, atLastTile (grid1.coords t) → cfg1.idle 2 (grid1.coords t) = false := by decide +kernel

/-! ## The memrefs the body is called with -/

/-- One staging buffer of the output window, through which its contents are stated (the choice does not matter). -/
abbrev outView : View sig .tc .vmem S512x256 .f32 := (Memref.whole cc1_stg2_0 : Memref sig .tc .vmem S512x256 .f32).view
abbrev actM (t : Fin cfg1.N) : Memref sig .tc .vmem S512x4096 .f32 := win1_0.stage (cfg1.slots t 0)
abbrev actM_whole (t : Fin cfg1.N) : (actM t).IsWhole := hstage1_0 ((cfg1.slots t 0).cast nbuf1_0)
abbrev lwM (t : Fin cfg1.N) : Memref sig .tc .vmem S384x4096 .bf16 := win1_1.stage (cfg1.slots t 1)
abbrev lwM_whole (t : Fin cfg1.N) : (lwM t).IsWhole := hstage1_1 ((cfg1.slots t 1).cast nbuf1_1)
abbrev outM (t : Fin cfg1.N) : Memref sig .tc .vmem S512x256 .f32 := win1_2.stage (cfg1.slots t 2)
abbrev outM_whole (t : Fin cfg1.N) : (outM t).IsWhole := hstage1_2 ((cfg1.slots t 2).cast nbuf1_2)
/-- The accumulator: a whole scoped buffer of the kernel's own, carried from point to point. -/
abbrev accM : Memref sig .tc .vmem S512x384 .f32 := Memref.whole cc1_scratch0
abbrev accView : View sig .tc .vmem S512x384 .f32 := accM.view

/-! ## The invariant with the accumulator named -/

/-- The scoped buffers this region neither stages nor uses (the first region's staging buffers), each whole at some
    contents, beside an assertion `X` about the accumulator. -/
def scopedWith (c : Dev nD) (X : sProp 𝕄) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ X)

/-- What the region is handed at entry, with the accumulator as a memref owned at some contents. -/
theorem entryInv_eq (c : Dev nD) :
    (Pipeline.ΦA spec1 c : sProp 𝕄)
      = iprop(scopedWith c iprop(∃ d, owns (c : Thread nD τ) accM fullShare d) ∗ (∃ r, prngReg c r)) := by
  unfold Pipeline.ΦA scopedWith; rw [scopedRest1_eq]; simp only [accM, owns_whole]; try rfl

end Cert.Kernel.Hand

end
-- ==== Proof.KernelFrame.LogitsRunFirst.lean ====
/-
  The second kernel region at a FIRST reduction tile that is not also the last: the body zeroes the accumulator, then
  adds this tile's matrix product to it; it stores nothing into the output block.
-/
import proofs.«106602_j17901423690383_2_alg».proof.Proof.KernelFrame.LogitsCases

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The pieces the body's stores leave in the output buffer (none) and in the accumulator (last store first), with the
    body's triple: on whole memrefs — the two inputs' at their contents, the output's at contents handed back untouched,
    the accumulator's at anything — the body runs to the continuation holding the inputs and the output as they were and
    the accumulator with its pieces written. The pieces are found by the run. -/
noncomputable def runFirstTile (c : Dev nD) (i : grid1.Coords) (arg2 : Memref sig .tc .vmem S512x4096 .f32) (harg2 : arg2.IsWhole) (arg3 : Memref sig .tc .vmem S384x4096 .bf16) (harg3 : arg3.IsWhole) (arg4 : Memref sig .tc .vmem S512x256 .f32) (harg4 : arg4.IsWhole) (arg5 : Memref sig .tc .vmem S512x384 .f32) (harg5 : arg5.IsWhole) (hc0 : atFirstTile i) (hc1 : ¬atLastTile i)
    (x0 : Vec F S512x4096 .f32) (x1 : Vec F S384x4096 .bf16) :
    Σ' (L2 : List (View.Piece (Elt F) S512x256 .f32)), { LS : List (View.Piece (Elt F) S512x384 .f32) //
      ∀ (xi2 : Vec F S512x256 .f32) (E : Set ℕ) (K : PUnit → sProp 𝕄),
        iprop(owns (c : Thread nD τ) arg2 fullShare x0 ∗ owns (c : Thread nD τ) arg3 fullShare x1 ∗ owns (c : Thread nD τ) arg4 fullShare xi2 ∗ (∃ d, owns (c : Thread nD τ) arg5 fullShare d)
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS)) -∗ K ⟨⟩))
          ⊢ wp frame (wpE (defs₀ (F := F)) Variants.none c none) E (cc1__logits_kernel i arg2 harg2 arg3 harg3 arg4 harg4 arg5 harg5) K } := by
  refine ⟨[], ?_, fun xi2 E K => ?run⟩
  case run =>
    simp only [cc1__logits_kernel_eq_skeleton]; unfold cc1__logits_kernel_skel
    unfold owns
    iintro ⟨⟨%f0, %hf0, H0⟩, ⟨%f1, %hf1, H1⟩, ⟨%f2, %hf2, H2⟩, ⟨%ds, %fs, -, HS⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS

end Cert.Kernel.Hand

end
-- ==== Proof.KernelFrame.LogitsRunMid.lean ====
/-
  The second kernel region at a MIDDLE reduction tile (neither first nor last): the body adds this tile's matrix
  product to the accumulator the point before left, and stores nothing into the output block.
-/
import proofs.«106602_j17901423690383_2_alg».proof.Proof.KernelFrame.LogitsRunFirst

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- As at a first tile, but the accumulator enters at the contents `xs` the point before left. -/
noncomputable def runMidTile (c : Dev nD) (i : grid1.Coords) (arg2 : Memref sig .tc .vmem S512x4096 .f32) (harg2 : arg2.IsWhole) (arg3 : Memref sig .tc .vmem S384x4096 .bf16) (harg3 : arg3.IsWhole) (arg4 : Memref sig .tc .vmem S512x256 .f32) (harg4 : arg4.IsWhole) (arg5 : Memref sig .tc .vmem S512x384 .f32) (harg5 : arg5.IsWhole) (hc0 : ¬atFirstTile i) (hc1 : ¬atLastTile i)
    (x0 : Vec F S512x4096 .f32) (x1 : Vec F S384x4096 .bf16) (xs : Vec F S512x384 .f32) :
    Σ' (L2 : List (View.Piece (Elt F) S512x256 .f32)), { LS : List (View.Piece (Elt F) S512x384 .f32) //
      ∀ (xi2 : Vec F S512x256 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xs
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS)) -∗ K ⟨⟩))
          ⊢ wp frame (wpE (defs₀ (F := F)) Variants.none c none) E (cc1__logits_kernel i arg2 harg2 arg3 harg3 arg4 harg4 arg5 harg5) K } := by
  refine ⟨[], ?_, fun xi2 E K => ?run⟩
  case run =>
    simp only [cc1__logits_kernel_eq_skeleton]; unfold cc1__logits_kernel_skel
    unfold owns
    iintro ⟨⟨%f0, %hf0, H0⟩, ⟨%f1, %hf1, H1⟩, ⟨%f2, %hf2, H2⟩, ⟨%fs, %hfs, HS⟩, Hk⟩
    obtain rfl := harg2.eq_unread hf0; obtain rfl := harg3.eq_unread hf1; obtain rfl := harg4.eq_unread hf2; obtain rfl := harg5.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS

end Cert.Kernel.Hand

end
-- ==== Proof.KernelFrame.LogitsRunLast.lean ====
/-
  The second kernel region at a LAST reduction tile that is not also the first: the body adds this tile's matrix
  product to the accumulator the point before left, then reads the accumulator out — the first 256 columns divided by
  the larger of one and the maximum of the row's last 128 columns, exponentiated — into the output block, which it stores whole.
-/
import proofs.«106602_j17901423690383_2_alg».proof.Proof.KernelFrame.LogitsRunMid

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The output buffer enters at anything and leaves with its pieces written; the accumulator enters at `xs`. -/
noncomputable def runLastTile (c : Dev nD) (i : grid1.Coords) (arg2 : Memref sig .tc .vmem S512x4096 .f32) (harg2 : arg2.IsWhole) (arg3 : Memref sig .tc .vmem S384x4096 .bf16) (harg3 : arg3.IsWhole) (arg4 : Memref sig .tc .vmem S512x256 .f32) (harg4 : arg4.IsWhole) (arg5 : Memref sig .tc .vmem S512x384 .f32) (harg5 : arg5.IsWhole) (hc0 : ¬atFirstTile i) (hc1 : atLastTile i)
    (x0 : Vec F S512x4096 .f32) (x1 : Vec F S384x4096 .bf16) (xs : Vec F S512x384 .f32) :
    Σ' (L2 : List (View.Piece (Elt F) S512x256 .f32)), { LS : List (View.Piece (Elt F) S512x384 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS)) -∗ K ⟨⟩))
          ⊢ wp frame (wpE (defs₀ (F := F)) Variants.none c none) E (cc1__logits_kernel i arg2 harg2 arg3 harg3 arg4 harg4 arg5 harg5) K } := by
  refine ⟨?_, ?_, fun E K => ?run⟩
  case run =>
    simp only [cc1__logits_kernel_eq_skeleton]; unfold cc1__logits_kernel_skel
    unfold owns
    iintro ⟨⟨%f0, %hf0, H0⟩, ⟨%f1, %hf1, H1⟩, ⟨%d2, %f2, -, H2⟩, ⟨%fs, %hfs, HS⟩, Hk⟩
    obtain rfl := harg2.eq_unread hf0; obtain rfl := harg3.eq_unread hf1; obtain rfl := harg5.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS

end Cert.Kernel.Hand

end
-- ==== Proof.KernelFrame.LogitsRegion.lean ====
/-
  The second kernel region (the masked log-sum and its read-out), second part: what the accumulator and the output
  block hold after every grid point, the region's invariant, its proof data and the body obligation.

  After point `t` the accumulator holds: at a first reduction tile, zero plus this tile's matrix product; at any later
  tile, what the point before left plus this tile's matrix product. The output block holds, at a last reduction tile, the
  read-out of the accumulator; elsewhere it is idle. The invariant between points is the accumulator at exactly those
  contents, beside the scoped buffers the region does not use and the generator register.
-/
import proofs.«106602_j17901423690383_2_alg».proof.Proof.KernelFrame.LogitsRunLast

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-! ## What each control case leaves -/

/-- A first tile stores nothing into the output block: a placeholder nothing consults (the window is idle there). -/
def outFirst (c : Dev nD) (i : grid1.Coords) (arg2 : Memref sig .tc .vmem S512x4096 .f32) (harg2 : arg2.IsWhole) (arg3 : Memref sig .tc .vmem S384x4096 .bf16) (harg3 : arg3.IsWhole) (arg4 : Memref sig .tc .vmem S512x256 .f32) (harg4 : arg4.IsWhole) (arg5 : Memref sig .tc .vmem S512x384 .f32) (harg5 : arg5.IsWhole) (hc0 : atFirstTile i) (hc1 : ¬atLastTile i)
    (x0 : Vec F S512x4096 .f32) (x1 : Vec F S384x4096 .bf16) : Vec F S512x256 .f32 :=
  outView.read (Elt F) (outView.writes (Elt F) outView.junk (runFirstTile c i arg2 harg2 arg3 harg3 arg4 harg4 arg5 harg5 hc0 hc1 x0 x1).1)
/-- Its stores into the accumulator cover it. -/
theorem accCoverFirst (c : Dev nD) (i : grid1.Coords) (arg2 : Memref sig .tc .vmem S512x4096 .f32) (harg2 : arg2.IsWhole) (arg3 : Memref sig .tc .vmem S384x4096 .bf16) (harg3 : arg3.IsWhole) (arg4 : Memref sig .tc .vmem S512x256 .f32) (harg4 : arg4.IsWhole) (arg5 : Memref sig .tc .vmem S512x384 .f32) (harg5 : arg5.IsWhole) (hc0 : atFirstTile i) (hc1 : ¬atLastTile i)
    (x0 : Vec F S512x4096 .f32) (x1 : Vec F S384x4096 .bf16) (y : S512x384.Idx) :
    ∃ pc ∈ (runFirstTile c i arg2 harg2 arg3 harg3 arg4 harg4 arg5 harg5 hc0 hc1 x0 x1).2.1, y ∈ pc.1.set :=
  View.cover_of_tiledL (runFirstTile c i arg2 harg2 arg3 harg3 arg4 harg4 arg5 harg5 hc0 hc1 x0 x1).2.1 S512x384.size (by sl_kernel_rfl) y
/-- What a first tile leaves in the accumulator. -/
def accFirst (c : Dev nD) (i : grid1.Coords) (arg2 : Memref sig .tc .vmem S512x4096 .f32) (harg2 : arg2.IsWhole) (arg3 : Memref sig .tc .vmem S384x4096 .bf16) (harg3 : arg3.IsWhole) (arg4 : Memref sig .tc .vmem S512x256 .f32) (harg4 : arg4.IsWhole) (arg5 : Memref sig .tc .vmem S512x384 .f32) (harg5 : arg5.IsWhole) (hc0 : atFirstTile i) (hc1 : ¬atLastTile i)
    (x0 : Vec F S512x4096 .f32) (x1 : Vec F S384x4096 .bf16) : Vec F S512x384 .f32 :=
  accView.read (Elt F) (accView.writes (Elt F) accView.junk (runFirstTile c i arg2 harg2 arg3 harg3 arg4 harg4 arg5 harg5 hc0 hc1 x0 x1).2.1)

def outMid (c : Dev nD) (i : grid1.Coords) (arg2 : Memref sig .tc .vmem S512x4096 .f32) (harg2 : arg2.IsWhole) (arg3 : Memref sig .tc .vmem S384x4096 .bf16) (harg3 : arg3.IsWhole) (arg4 : Memref sig .tc .vmem S512x256 .f32) (harg4 : arg4.IsWhole) (arg5 : Memref sig .tc .vmem S512x384 .f32) (harg5 : arg5.IsWhole) (hc0 : ¬atFirstTile i) (hc1 : ¬atLastTile i)
    (x0 : Vec F S512x4096 .f32) (x1 : Vec F S384x4096 .bf16) (xs : Vec F S512x384 .f32) : Vec F S512x256 .f32 :=
  outView.read (Elt F) (outView.writes (Elt F) outView.junk (runMidTile c i arg2 harg2 arg3 harg3 arg4 harg4 arg5 harg5 hc0 hc1 x0 x1 xs).1)
theorem accCoverMid (c : Dev nD) (i : grid1.Coords) (arg2 : Memref sig .tc .vmem S512x4096 .f32) (harg2 : arg2.IsWhole) (arg3 : Memref sig .tc .vmem S384x4096 .bf16) (harg3 : arg3.IsWhole) (arg4 : Memref sig .tc .vmem S512x256 .f32) (harg4 : arg4.IsWhole) (arg5 : Memref sig .tc .vmem S512x384 .f32) (harg5 : arg5.IsWhole) (hc0 : ¬atFirstTile i) (hc1 : ¬atLastTile i)
    (x0 : Vec F S512x4096 .f32) (x1 : Vec F S384x4096 .bf16) (xs : Vec F S512x384 .f32) (y : S512x384.Idx) :
    ∃ pc ∈ (runMidTile c i arg2 harg2 arg3 harg3 arg4 harg4 arg5 harg5 hc0 hc1 x0 x1 xs).2.1, y ∈ pc.1.set :=
  View.cover_of_tiledL (runMidTile c i arg2 harg2 arg3 harg3 arg4 harg4 arg5 harg5 hc0 hc1 x0 x1 xs).2.1 S512x384.size (by sl_kernel_rfl) y
/-- What a middle tile leaves in the accumulator, from what the point before left (`xs`). -/
def accMid (c : Dev nD) (i : grid1.Coords) (arg2 : Memref sig .tc .vmem S512x4096 .f32) (harg2 : arg2.IsWhole) (arg3 : Memref sig .tc .vmem S384x4096 .bf16) (harg3 : arg3.IsWhole) (arg4 : Memref sig .tc .vmem S512x256 .f32) (harg4 : arg4.IsWhole) (arg5 : Memref sig .tc .vmem S512x384 .f32) (harg5 : arg5.IsWhole) (hc0 : ¬atFirstTile i) (hc1 : ¬atLastTile i)
    (x0 : Vec F S512x4096 .f32) (x1 : Vec F S384x4096 .bf16) (xs : Vec F S512x384 .f32) : Vec F S512x384 .f32 :=
  accView.read (Elt F) (accView.writes (Elt F) accView.junk (runMidTile c i arg2 harg2 arg3 harg3 arg4 harg4 arg5 harg5 hc0 hc1 x0 x1 xs).2.1)

/-- A last tile's one store covers the output block. -/
theorem outCoverLast (c : Dev nD) (i : grid1.Coords) (arg2 : Memref sig .tc .vmem S512x4096 .f32) (harg2 : arg2.IsWhole) (arg3 : Memref sig .tc .vmem S384x4096 .bf16) (harg3 : arg3.IsWhole) (arg4 : Memref sig .tc .vmem S512x256 .f32) (harg4 : arg4.IsWhole) (arg5 : Memref sig .tc .vmem S512x384 .f32) (harg5 : arg5.IsWhole) (hc0 : ¬atFirstTile i) (hc1 : atLastTile i)
    (x0 : Vec F S512x4096 .f32) (x1 : Vec F S384x4096 .bf16) (xs : Vec F S512x384 .f32) (y : S512x256.Idx) :
    ∃ pc ∈ (runLastTile c i arg2 harg2 arg3 harg3 arg4 harg4 arg5 harg5 hc0 hc1 x0 x1 xs).1, y ∈ pc.1.set :=
  View.cover_of_tiledL (runLastTile c i arg2 harg2 arg3 harg3 arg4 harg4 arg5 harg5 hc0 hc1 x0 x1 xs).1 S512x256.size (by sl_kernel_rfl) y
/-- What a last tile leaves in the output block. -/
def outLast (c : Dev nD) (i : grid1.Coords) (arg2 : Memref sig .tc .vmem S512x4096 .f32) (harg2 : arg2.IsWhole) (arg3 : Memref sig .tc .vmem S384x4096 .bf16) (harg3 : arg3.IsWhole) (arg4 : Memref sig .tc .vmem S512x256 .f32) (harg4 : arg4.IsWhole) (arg5 : Memref sig .tc .vmem S512x384 .f32) (harg5 : arg5.IsWhole) (hc0 : ¬atFirstTile i) (hc1 : atLastTile i)
    (x0 : Vec F S512x4096 .f32) (x1 : Vec F S384x4096 .bf16) (xs : Vec F S512x384 .f32) : Vec F S512x256 .f32 :=
  outView.read (Elt F) (outView.writes (Elt F) outView.junk (runLastTile c i arg2 harg2 arg3 harg3 arg4 harg4 arg5 harg5 hc0 hc1 x0 x1 xs).1)
theorem accCoverLast (c : Dev nD) (i : grid1.Coords) (arg2 : Memref sig .tc .vmem S512x4096 .f32) (harg2 : arg2.IsWhole) (arg3 : Memref sig .tc .vmem S384x4096 .bf16) (harg3 : arg3.IsWhole) (arg4 : Memref sig .tc .vmem S512x256 .f32) (harg4 : arg4.IsWhole) (arg5 : Memref sig .tc .vmem S512x384 .f32) (harg5 : arg5.IsWhole) (hc0 : ¬atFirstTile i) (hc1 : atLastTile i)
    (x0 : Vec F S512x4096 .f32) (x1 : Vec F S384x4096 .bf16) (xs : Vec F S512x384 .f32) (y : S512x384.Idx) :
    ∃ pc ∈ (runLastTile c i arg2 harg2 arg3 harg3 arg4 harg4 arg5 harg5 hc0 hc1 x0 x1 xs).2.1, y ∈ pc.1.set :=
  View.cover_of_tiledL (runLastTile c i arg2 harg2 arg3 harg3 arg4 harg4 arg5 harg5 hc0 hc1 x0 x1 xs).2.1 S512x384.size (by sl_kernel_rfl) y
/-- What a last tile leaves in the accumulator. -/
def accLast (c : Dev nD) (i : grid1.Coords) (arg2 : Memref sig .tc .vmem S512x4096 .f32) (harg2 : arg2.IsWhole) (arg3 : Memref sig .tc .vmem S384x4096 .bf16) (harg3 : arg3.IsWhole) (arg4 : Memref sig .tc .vmem S512x256 .f32) (harg4 : arg4.IsWhole) (arg5 : Memref sig .tc .vmem S512x384 .f32) (harg5 : arg5.IsWhole) (hc0 : ¬atFirstTile i) (hc1 : atLastTile i)
    (x0 : Vec F S512x4096 .f32) (x1 : Vec F S384x4096 .bf16) (xs : Vec F S512x384 .f32) : Vec F S512x384 .f32 :=
  accView.read (Elt F) (accView.writes (Elt F) accView.junk (runLastTile c i arg2 harg2 arg3 harg3 arg4 harg4 arg5 harg5 hc0 hc1 x0 x1 xs).2.1)

/-! ## What the output block and the accumulator hold after each point -/

/-- After the body at position `n`: (the output block, the accumulator) — the case the point is in, run at the point's
    memrefs and input blocks, the accumulator entering at what position `n - 1` left. No point is both a first and a
    last reduction tile. -/
def stateAt (c : Dev nD) : (n : ℕ) → n < cfg1.N → Vec F S512x256 .f32 × Vec F S512x384 .f32
  | 0, hn => (outFirst c (grid1.coords ⟨0, hn⟩) (actM ⟨0, hn⟩) (actM_whole ⟨0, hn⟩) (lwM ⟨0, hn⟩) (lwM_whole ⟨0, hn⟩) (outM ⟨0, hn⟩) (outM_whole ⟨0, hn⟩) accM (Memref.isWhole_whole _) ((atFirstTile_iff ⟨0, hn⟩).mpr (Nat.zero_mod _)) (fun h => (fun h => by (try dsimp only at h); omega) ((atLastTile_iff ⟨0, hn⟩).mp h)) (logitsBlock V c 0 ⟨0, hn⟩) (logitsBlock V c 1 ⟨0, hn⟩),
      accFirst c (grid1.coords ⟨0, hn⟩) (actM ⟨0, hn⟩) (actM_whole ⟨0, hn⟩) (lwM ⟨0, hn⟩) (lwM_whole ⟨0, hn⟩) (outM ⟨0, hn⟩) (outM_whole ⟨0, hn⟩) accM (Memref.isWhole_whole _) ((atFirstTile_iff ⟨0, hn⟩).mpr (Nat.zero_mod _)) (fun h => (fun h => by (try dsimp only at h); omega) ((atLastTile_iff ⟨0, hn⟩).mp h)) (logitsBlock V c 0 ⟨0, hn⟩) (logitsBlock V c 1 ⟨0, hn⟩))
  | n + 1, hn =>
    if h0 : (n + 1) % 4 = 0 then
      if h1 : (n + 1) % 4 = 3 then
        False.elim (by omega)
      else
        (outFirst c (grid1.coords ⟨n + 1, hn⟩) (actM ⟨n + 1, hn⟩) (actM_whole ⟨n + 1, hn⟩) (lwM ⟨n + 1, hn⟩) (lwM_whole ⟨n + 1, hn⟩) (outM ⟨n + 1, hn⟩) (outM_whole ⟨n + 1, hn⟩) accM (Memref.isWhole_whole _) ((atFirstTile_iff ⟨n + 1, hn⟩).mpr h0) (fun h => h1 ((atLastTile_iff ⟨n + 1, hn⟩).mp h)) (logitsBlock V c 0 ⟨n + 1, hn⟩) (logitsBlock V c 1 ⟨n + 1, hn⟩),
          accFirst c (grid1.coords ⟨n + 1, hn⟩) (actM ⟨n + 1, hn⟩) (actM_whole ⟨n + 1, hn⟩) (lwM ⟨n + 1, hn⟩) (lwM_whole ⟨n + 1, hn⟩) (outM ⟨n + 1, hn⟩) (outM_whole ⟨n + 1, hn⟩) accM (Memref.isWhole_whole _) ((atFirstTile_iff ⟨n + 1, hn⟩).mpr h0) (fun h => h1 ((atLastTile_iff ⟨n + 1, hn⟩).mp h)) (logitsBlock V c 0 ⟨n + 1, hn⟩) (logitsBlock V c 1 ⟨n + 1, hn⟩))
    else
      if h1 : (n + 1) % 4 = 3 then
        (outLast c (grid1.coords ⟨n + 1, hn⟩) (actM ⟨n + 1, hn⟩) (actM_whole ⟨n + 1, hn⟩) (lwM ⟨n + 1, hn⟩) (lwM_whole ⟨n + 1, hn⟩) (outM ⟨n + 1, hn⟩) (outM_whole ⟨n + 1, hn⟩) accM (Memref.isWhole_whole _) (fun h => h0 ((atFirstTile_iff ⟨n + 1, hn⟩).mp h)) ((atLastTile_iff ⟨n + 1, hn⟩).mpr h1) (logitsBlock V c 0 ⟨n + 1, hn⟩) (logitsBlock V c 1 ⟨n + 1, hn⟩) (stateAt c n (Nat.lt_of_succ_lt hn)).2,
          accLast c (grid1.coords ⟨n + 1, hn⟩) (actM ⟨n + 1, hn⟩) (actM_whole ⟨n + 1, hn⟩) (lwM ⟨n + 1, hn⟩) (lwM_whole ⟨n + 1, hn⟩) (outM ⟨n + 1, hn⟩) (outM_whole ⟨n + 1, hn⟩) accM (Memref.isWhole_whole _) (fun h => h0 ((atFirstTile_iff ⟨n + 1, hn⟩).mp h)) ((atLastTile_iff ⟨n + 1, hn⟩).mpr h1) (logitsBlock V c 0 ⟨n + 1, hn⟩) (logitsBlock V c 1 ⟨n + 1, hn⟩) (stateAt c n (Nat.lt_of_succ_lt hn)).2)
      else
        (outMid c (grid1.coords ⟨n + 1, hn⟩) (actM ⟨n + 1, hn⟩) (actM_whole ⟨n + 1, hn⟩) (lwM ⟨n + 1, hn⟩) (lwM_whole ⟨n + 1, hn⟩) (outM ⟨n + 1, hn⟩) (outM_whole ⟨n + 1, hn⟩) accM (Memref.isWhole_whole _) (fun h => h0 ((atFirstTile_iff ⟨n + 1, hn⟩).mp h)) (fun h => h1 ((atLastTile_iff ⟨n + 1, hn⟩).mp h)) (logitsBlock V c 0 ⟨n + 1, hn⟩) (logitsBlock V c 1 ⟨n + 1, hn⟩) (stateAt c n (Nat.lt_of_succ_lt hn)).2,
          accMid c (grid1.coords ⟨n + 1, hn⟩) (actM ⟨n + 1, hn⟩) (actM_whole ⟨n + 1, hn⟩) (lwM ⟨n + 1, hn⟩) (lwM_whole ⟨n + 1, hn⟩) (outM ⟨n + 1, hn⟩) (outM_whole ⟨n + 1, hn⟩) accM (Memref.isWhole_whole _) (fun h => h0 ((atFirstTile_iff ⟨n + 1, hn⟩).mp h)) (fun h => h1 ((atLastTile_iff ⟨n + 1, hn⟩).mp h)) (logitsBlock V c 0 ⟨n + 1, hn⟩) (logitsBlock V c 1 ⟨n + 1, hn⟩) (stateAt c n (Nat.lt_of_succ_lt hn)).2)

/-- At a first tile: that case's contents. -/
theorem stateAt_first (c : Dev nD) (t : Fin cfg1.N) (h0 : t.val % 4 = 0) (h1 : ¬t.val % 4 = 3) :
    stateAt V c t.val t.isLt = (outFirst c (grid1.coords t) (actM t) (actM_whole t) (lwM t) (lwM_whole t) (outM t) (outM_whole t) accM (Memref.isWhole_whole _) ((atFirstTile_iff t).mpr h0) (fun h => h1 ((atLastTile_iff t).mp h)) (logitsBlock V c 0 t) (logitsBlock V c 1 t),
      accFirst c (grid1.coords t) (actM t) (actM_whole t) (lwM t) (lwM_whole t) (outM t) (outM_whole t) accM (Memref.isWhole_whole _) ((atFirstTile_iff t).mpr h0) (fun h => h1 ((atLastTile_iff t).mp h)) (logitsBlock V c 0 t) (logitsBlock V c 1 t)) := by
  obtain ⟨n, hn⟩ := t
  cases n with
  | zero => exact rfl
  | succ n => exact (dif_pos h0).trans ((dif_neg h1).trans rfl)

/-- At a middle tile: that case's contents over what the point before left. -/
theorem stateAt_mid (c : Dev nD) (t : Fin cfg1.N) (h0 : ¬t.val % 4 = 0) (h1 : ¬t.val % 4 = 3) :
    stateAt V c t.val t.isLt = (outMid c (grid1.coords t) (actM t) (actM_whole t) (lwM t) (lwM_whole t) (outM t) (outM_whole t) accM (Memref.isWhole_whole _) (fun h => h0 ((atFirstTile_iff t).mp h)) (fun h => h1 ((atLastTile_iff t).mp h)) (logitsBlock V c 0 t) (logitsBlock V c 1 t) (stateAt V c (t.val - 1) (Nat.lt_of_le_of_lt (Nat.sub_le _ _) t.isLt)).2,
      accMid c (grid1.coords t) (actM t) (actM_whole t) (lwM t) (lwM_whole t) (outM t) (outM_whole t) accM (Memref.isWhole_whole _) (fun h => h0 ((atFirstTile_iff t).mp h)) (fun h => h1 ((atLastTile_iff t).mp h)) (logitsBlock V c 0 t) (logitsBlock V c 1 t) (stateAt V c (t.val - 1) (Nat.lt_of_le_of_lt (Nat.sub_le _ _) t.isLt)).2) := by
  obtain ⟨n, hn⟩ := t
  cases n with
  | zero => exact absurd (Nat.zero_mod _) h0
  | succ n => exact (dif_neg h0).trans ((dif_neg h1).trans rfl)

/-- At a last tile: that case's contents over what the point before left. -/
theorem stateAt_last (c : Dev nD) (t : Fin cfg1.N) (h0 : ¬t.val % 4 = 0) (h1 : t.val % 4 = 3) :
    stateAt V c t.val t.isLt = (outLast c (grid1.coords t) (actM t) (actM_whole t) (lwM t) (lwM_whole t) (outM t) (outM_whole t) accM (Memref.isWhole_whole _) (fun h => h0 ((atFirstTile_iff t).mp h)) ((atLastTile_iff t).mpr h1) (logitsBlock V c 0 t) (logitsBlock V c 1 t) (stateAt V c (t.val - 1) (Nat.lt_of_le_of_lt (Nat.sub_le _ _) t.isLt)).2,
      accLast c (grid1.coords t) (actM t) (actM_whole t) (lwM t) (lwM_whole t) (outM t) (outM_whole t) accM (Memref.isWhole_whole _) (fun h => h0 ((atFirstTile_iff t).mp h)) ((atLastTile_iff t).mpr h1) (logitsBlock V c 0 t) (logitsBlock V c 1 t) (stateAt V c (t.val - 1) (Nat.lt_of_le_of_lt (Nat.sub_le _ _) t.isLt)).2) := by
  obtain ⟨n, hn⟩ := t
  cases n with
  | zero => exact absurd (Nat.zero_mod _) h0
  | succ n => exact (dif_neg h0).trans ((dif_pos h1).trans rfl)

/-! ## The invariant -/

/-- Before position `n`: at the region's entry what it is handed (every scoped buffer at anything, the generator register
    at some state); afterwards the same with the accumulator at what the point before left. -/
def accInv (c : Dev nD) : (n : ℕ) → n ≤ cfg1.N → sProp 𝕄
  | 0, _ => Pipeline.ΦA spec1 c
  | n + 1, hn => iprop(scopedWith c (owns (c : Thread nD τ) accM fullShare ((stateAt V c n hn).2)) ∗ (∃ r, prngReg c r))

theorem accInv_zero (c : Dev nD) (n : ℕ) (h : n ≤ cfg1.N) (hz : n = 0) : accInv V c n h = Pipeline.ΦA spec1 c := by
  subst hz; rfl
theorem accInv_succ (c : Dev nD) (n : ℕ) (hn : n < cfg1.N) :
    accInv V c (n + 1) hn = iprop(scopedWith c (owns (c : Thread nD τ) accM fullShare ((stateAt V c n hn).2)) ∗ (∃ r, prngReg c r)) := rfl
theorem accInv_pos (c : Dev nD) (n : ℕ) (h : n ≤ cfg1.N) (hz : n ≠ 0) :
    accInv V c n h = iprop(scopedWith c (owns (c : Thread nD τ) accM fullShare ((stateAt V c (n - 1) (by omega)).2)) ∗ (∃ r, prngReg c r)) := by
  cases n with
  | zero => exact absurd rfl hz
  | succ n => rfl

/-! ## The proof data -/

/-- The region's proof data on core `c`: the arrays as the region finds them; after the body at point `t` each
    input's buffer at its block and the output's at `stateAt`'s first component; the invariant `accInv`; nothing owed;
    full shares. -/
def logitsDat (c : Dev nD) : Dat τ (Elt F) Unit ℕ (UR sig nD τ) ℕ cfg1 c where
  A w := V c (Pipeline.arrRef spec1 w)
  after w t := match w with
    | ⟨0, _⟩ => logitsBlock V c 0 t
    | ⟨1, _⟩ => logitsBlock V c 1 t
    | ⟨2, _⟩ => (stateAt V c t.val t.isLt).1
  Φ t := accInv V c t.val (Nat.le_of_lt_succ t.isLt)
  q _ := fullShare
  owed _ := 0

theorem logitsDat_A (c : Dev nD) (w : Fin cfg1.W) : (logitsDat V c).A w = V c (Pipeline.arrRef spec1 w) := by
  dsimp only [logitsDat]
theorem logitsDat_inv_castSucc (c : Dev nD) (t : Fin cfg1.N) :
    (logitsDat V c).Φ t.castSucc = accInv V c t.val (Nat.le_of_lt t.isLt) := by
  dsimp only [logitsDat]; simp only [Fin.coe_castSucc]
theorem logitsDat_after0 (c : Dev nD) (t : Fin cfg1.N) : (logitsDat V c).after 0 t = logitsBlock V c 0 t := by dsimp only [logitsDat]
theorem logitsDat_after1 (c : Dev nD) (t : Fin cfg1.N) : (logitsDat V c).after 1 t = logitsBlock V c 1 t := by dsimp only [logitsDat]
theorem logitsDat_after2 (c : Dev nD) (t : Fin cfg1.N) : (logitsDat V c).after 2 t = (stateAt V c t.val t.isLt).1 := by dsimp only [logitsDat]
theorem logitsDat_before0 (c : Dev nD) (t : Fin cfg1.N) (d) : (logitsDat V c).before 0 t d = logitsBlock V c 0 t :=
  logitsBlock_before_of0 V (logitsDat V c) (logitsDat_A V c 0) (logitsDat_after0 V c) t d
theorem logitsDat_before1 (c : Dev nD) (t : Fin cfg1.N) (d) : (logitsDat V c).before 1 t d = logitsBlock V c 1 t :=
  logitsBlock_before_of1 V (logitsDat V c) (logitsDat_A V c 1) (logitsDat_after1 V c) t d

/-! ## The body obligation -/

def logitsBodyPre (c : Dev nD) (t : Fin cfg1.N) : sProp 𝕄 :=
  iprop((logitsDat V c).Φ t.castSucc ∗ (logitsDat V c).owesAt () t.castSucc
    ∗ (∃ d, owns (c : Thread nD τ) (actM t) fullShare ((logitsDat V c).before 0 t d))
    ∗ (∃ d, owns (c : Thread nD τ) (lwM t) fullShare ((logitsDat V c).before 1 t d))
    ∗ (∃ d, owns (c : Thread nD τ) (outM t) fullShare ((logitsDat V c).before 2 t d)))

def logitsBodyPost (c : Dev nD) (t : Fin cfg1.N) : sProp 𝕄 :=
  iprop((logitsDat V c).Φ t.succ ∗ (logitsDat V c).owesAt () t.succ
    ∗ (logitsDat V c).leavesExact 0 t
    ∗ (logitsDat V c).leavesExact 1 t
    ∗ (logitsDat V c).leavesExact 2 t)

set_option maxHeartbeats 4800000 in
/-- The body at any point. The inputs' memrefs hold their blocks; the closed forms of the two conditions say which case
    the point is in; the invariant hands the body the accumulator (at anything at the very first point, else at what the
    point before left) and takes it back at this point's contents, the case's stores covering it. -/
theorem logits_sound_body (c : Dev nD) (t : Fin cfg1.N) :
    logitsBodyPre V c t ⊢ wp frame (wpE (defs₀ (F := F)) Variants.none c none) Set.univ (bodyAt1 t) (fun _ => logitsBodyPost V c t) := by
  unfold logitsBodyPre logitsBodyPost bodyAt1
  simp only [logitsDat_before0, logitsDat_before1]
  rw [show (logitsDat V c).owesAt () t.succ = (logitsDat V c).owesAt () t.castSucc from rfl]
  rw [show (logitsDat V c).Φ t.succ = accInv V c (t.val + 1) t.isLt from rfl, accInv_succ]
  have hN : t.val < 16 := lt_of_lt_of_eq t.isLt (show cfg1.N = 16 from N_1)
  rw [show (logitsDat V c).leavesExact 0 t = owns (c : Thread nD τ) (actM t) fullShare ((logitsDat V c).after 0 t) from by
    unfold Dat.leavesExact; rw [activations_live t], logitsDat_after0]
  rw [show (logitsDat V c).leavesExact 1 t = owns (c : Thread nD τ) (lwM t) fullShare ((logitsDat V c).after 1 t) from by
    unfold Dat.leavesExact; rw [logweights_live t], logitsDat_after1]
  by_cases h0 : t.val % 4 = 0
  · have h1 : ¬t.val % 4 = 3 := by omega
    rw [Dat.leavesExact_idle (logitsDat V c) 2 t (output_idle t (fun h => h1 ((atLastTile_iff t).mp h))) (output_noFlush t (fun h => h1 ((atLastTile_iff t).mp h)))]
    rw [stateAt_first V c t h0 h1]
    unfold accFirst; (try dsimp only)
    by_cases hz : t.val = 0
    · rw [logitsDat_inv_castSucc V c t, accInv_zero V c _ _ hz, entryInv_eq]
      unfold scopedWith
      iintro ⟨⟨⟨Ha, Hb, Hc, Hd, HS⟩, Hg⟩, Ho, ⟨%d0, H0⟩, ⟨%d1, H1⟩, ⟨%d2, H2⟩⟩
      iapply ((runFirstTile c (grid1.coords t) _ _ _ _ _ _ _ _ ((atFirstTile_iff t).mpr h0) (fun h => h1 ((atLastTile_iff t).mp h)) (logitsBlock V c 0 t) (logitsBlock V c 1 t)).2.2 _ Set.univ _)
      isplitl [H0]; · iexact H0
      isplitl [H1]; · iexact H1
      isplitl [H2]; · iexact H2
      isplitl [HS]; · iexact HS
      iintro ⟨H0, H1, H2, ⟨%es, HS⟩⟩
      isplitl [Ha Hb Hc Hd HS Hg]
      · isplitl [Ha Hb Hc Hd HS]
        · isplitl [Ha]; · iexact Ha
          isplitl [Hb]; · iexact Hb
          isplitl [Hc]; · iexact Hc
          isplitl [Hd]; · iexact Hd
          unfold owns; iexists _; isplitr
          swap; · iexact HS
          ipureintro; exact View.read_writes_of_cover _ _ _ _ _ (accCoverFirst c _ _ _ _ _ _ _ _ _ _ _ _ _)
        iexact Hg
      isplitl [Ho]; · iexact Ho
      isplitl [H0]; · iexact H0
      isplitl [H1]; · iexact H1
      iexists _; iexact H2
    · rw [logitsDat_inv_castSucc V c t, accInv_pos V c _ _ hz]
      unfold scopedWith
      iintro ⟨⟨⟨Ha, Hb, Hc, Hd, HS⟩, Hg⟩, Ho, ⟨%d0, H0⟩, ⟨%d1, H1⟩, ⟨%d2, H2⟩⟩
      iapply ((runFirstTile c (grid1.coords t) _ _ _ _ _ _ _ _ ((atFirstTile_iff t).mpr h0) (fun h => h1 ((atLastTile_iff t).mp h)) (logitsBlock V c 0 t) (logitsBlock V c 1 t)).2.2 _ Set.univ _)
      isplitl [H0]; · iexact H0
      isplitl [H1]; · iexact H1
      isplitl [H2]; · iexact H2
      isplitl [HS]; · iexists _; iexact HS
      iintro ⟨H0, H1, H2, ⟨%es, HS⟩⟩
      isplitl [Ha Hb Hc Hd HS Hg]
      · isplitl [Ha Hb Hc Hd HS]
        · isplitl [Ha]; · iexact Ha
          isplitl [Hb]; · iexact Hb
          isplitl [Hc]; · iexact Hc
          isplitl [Hd]; · iexact Hd
          unfold owns; iexists _; isplitr
          swap; · iexact HS
          ipureintro; exact View.read_writes_of_cover _ _ _ _ _ (accCoverFirst c _ _ _ _ _ _ _ _ _ _ _ _ _)
        iexact Hg
      isplitl [Ho]; · iexact Ho
      isplitl [H0]; · iexact H0
      isplitl [H1]; · iexact H1
      iexists _; iexact H2
  · have hz : t.val ≠ 0 := fun h => h0 (by rw [h])
    by_cases h1 : t.val % 4 = 3
    · rw [show (logitsDat V c).leavesExact 2 t = owns (c : Thread nD τ) (outM t) fullShare ((logitsDat V c).after 2 t) from by
        unfold Dat.leavesExact; rw [output_live t ((atLastTile_iff t).mpr h1)], logitsDat_after2]
      rw [stateAt_last V c t h0 h1]
      unfold outLast accLast; (try dsimp only)
      rw [logitsDat_inv_castSucc V c t, accInv_pos V c _ _ hz]
      unfold scopedWith
      iintro ⟨⟨⟨Ha, Hb, Hc, Hd, HS⟩, Hg⟩, Ho, ⟨%d0, H0⟩, ⟨%d1, H1⟩, ⟨%d2, H2⟩⟩
      iapply ((runLastTile c (grid1.coords t) _ _ _ _ _ _ _ _ (fun h => h0 ((atFirstTile_iff t).mp h)) ((atLastTile_iff t).mpr h1) (logitsBlock V c 0 t) (logitsBlock V c 1 t) _).2.2 Set.univ _)
      isplitl [H0]; · iexact H0
      isplitl [H1]; · iexact H1
      isplitl [H2]; · iexists _; iexact H2
      isplitl [HS]; · iexact HS
      iintro ⟨H0, H1, ⟨%e2, H2⟩, ⟨%es, HS⟩⟩
      isplitl [Ha Hb Hc Hd HS Hg]
      · isplitl [Ha Hb Hc Hd HS]
        · isplitl [Ha]; · iexact Ha
          isplitl [Hb]; · iexact Hb
          isplitl [Hc]; · iexact Hc
          isplitl [Hd]; · iexact Hd
          unfold owns; iexists _; isplitr
          swap; · iexact HS
          ipureintro; exact View.read_writes_of_cover _ _ _ _ _ (accCoverLast c _ _ _ _ _ _ _ _ _ _ _ _ _ _)
        iexact Hg
      isplitl [Ho]; · iexact Ho
      isplitl [H0]; · iexact H0
      isplitl [H1]; · iexact H1
      unfold owns; iexists _; isplitr
      swap; · iexact H2
      ipureintro; exact View.read_writes_of_cover _ _ _ _ _ (outCoverLast c _ _ _ _ _ _ _ _ _ _ _ _ _ _)
    · rw [Dat.leavesExact_idle (logitsDat V c) 2 t (output_idle t (fun h => h1 ((atLastTile_iff t).mp h))) (output_noFlush t (fun h => h1 ((atLastTile_iff t).mp h)))]
      rw [stateAt_mid V c t h0 h1]
      unfold accMid; (try dsimp only)
      rw [logitsDat_inv_castSucc V c t, accInv_pos V c _ _ hz]
      unfold scopedWith
      iintro ⟨⟨⟨Ha, Hb, Hc, Hd, HS⟩, Hg⟩, Ho, ⟨%d0, H0⟩, ⟨%d1, H1⟩, ⟨%d2, H2⟩⟩
      iapply ((runMidTile c (grid1.coords t) _ _ _ _ _ _ _ _ (fun h => h0 ((atFirstTile_iff t).mp h)) (fun h => h1 ((atLastTile_iff t).mp h)) (logitsBlock V c 0 t) (logitsBlock V c 1 t) _).2.2 _ Set.univ _)
      isplitl [H0]; · iexact H0
      isplitl [H1]; · iexact H1
      isplitl [H2]; · iexact H2
      isplitl [HS]; · iexact HS
      iintro ⟨H0, H1, H2, ⟨%es, HS⟩⟩
      isplitl [Ha Hb Hc Hd HS Hg]
      · isplitl [Ha Hb Hc Hd HS]
        · isplitl [Ha]; · iexact Ha
          isplitl [Hb]; · iexact Hb
          isplitl [Hc]; · iexact Hc
          isplitl [Hd]; · iexact Hd
          unfold owns; iexists _; isplitr
          swap; · iexact HS
          ipureintro; exact View.read_writes_of_cover _ _ _ _ _ (accCoverMid c _ _ _ _ _ _ _ _ _ _ _ _ _ _)
        iexact Hg
      isplitl [Ho]; · iexact Ho
      isplitl [H0]; · iexact H0
      isplitl [H1]; · iexact H1
      iexists _; iexact H2

/-- The library's body obligation, at every point. -/
theorem logits_body_obligation (c : Dev nD) : BodyObligation (logitsDat (F := F) V c) (defs₀ (F := F)) Variants.none () Set.univ := fun t => by
  rw [bigSep_W1, bigSep_W1]
  exact logits_sound_body V c t

/-! ## The invariant's two ends -/

/-- Before the first point the invariant is what the region is handed. -/
theorem logits_inv_first (c : Dev nD) : (logitsDat V c).Φ 0 = Pipeline.ΦA spec1 c := by
  rw [show (logitsDat V c).Φ 0 = accInv V c 0 (Nat.zero_le _) from rfl, accInv_zero V c 0 _ rfl]

/-- After the last point it gives that back: the accumulator's named contents are forgotten. -/
theorem logits_inv_last (c : Dev nD) : (logitsDat V c).Φ (Fin.last cfg1.N) ⊢ Pipeline.ΦA spec1 c := by
  rw [show (logitsDat V c).Φ (Fin.last cfg1.N) = accInv V c (Fin.last cfg1.N).val (Nat.le_of_lt_succ (Fin.last cfg1.N).isLt) from rfl,
    accInv_pos V c _ _ (by rw [Fin.val_last]; have : cfg1.N = 16 := N_1; omega), entryInv_eq]
  unfold scopedWith
  iintro ⟨⟨Ha, Hb, Hc, Hd, HS⟩, Hg⟩
  isplitl [Ha Hb Hc Hd HS]
  · isplitl [Ha]; · iexact Ha
    isplitl [Hb]; · iexact Hb
    isplitl [Hc]; · iexact Hc
    isplitl [Hd]; · iexact Hd
    iexists _; iexact HS
  iexact Hg
end

end Cert.Kernel.Hand

end
-- ==== Proof.KernelFrame.Run.lean ====
/- THE RUN of @main: region 0 (the log-weights kernel) then region 1 (the logits kernel), with no host operation
   between them. The buffer contents at the three boundaries (launch, between the regions, return) are a fold from
   the launch memory; the run's theorem states every unscoped buffer of every core at the last boundary's contents,
   from which the frame (the two arguments end as launched) and the result array's contents are read.
   Stated at any float interpretation F. -/
import proofs.«106602_j17901423690383_2_alg».proof.Proof.KernelFrame.LogWeightsRegion
import proofs.«106602_j17901423690383_2_alg».proof.Proof.KernelFrame.LogitsRegion

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary: a fold through @main -/

/-- Core c's buffers at launch. -/
abbrev B0 : Dev nD → Valuation τ sig (Elt F) := fun c b => (s₀ m ρ).mem ((c : Dev nD), b)
/-- The same read at the TensorCore's references (what region 0's proof data take). -/
abbrev B0' : (c : Dev nD) → (b : Ref sig .tc) → Buf (Elt F) ((c : Thread nD τ).loc b) := fun c b => B0 m ρ c b

/-- Between the regions: region 0's arrays at what its pipeline leaves (the raw weights as entered, the
    log-weights array with every tile's write-back folded in), every other buffer as launched. -/
def B1 (c : Dev nD) : Valuation τ sig (Elt F) :=
  Pipeline.withArrays spec0 c (B0 m ρ c) fun w => (logwDat (B0' m ρ) c).arrAt w cfg0.N
theorem B1_arr (c : Dev nD) (w : Fin cfg0.W) :
    B1 m ρ c (Proc.devRef .tc (Pipeline.arrRef spec0 w)) = (logwDat (B0' m ρ) c).arrAt w cfg0.N := by
  unfold B1; exact Pipeline.withArrays_arr spec0 launch0.win.arr_inj c _ _ w
theorem B1_of_ne (c : Dev nD) (b : Ref sig .tc) (hb : ∀ w, Pipeline.arrRef spec0 w ≠ b) :
    B1 m ρ c (Proc.devRef .tc b) = B0 m ρ c (Proc.devRef .tc b) := by
  unfold B1; exact Pipeline.withArrays_of_ne spec0 c _ _ b hb
/-- The same read at the TensorCore's references (what region 1's proof data take). -/
abbrev B1' : (c : Dev nD) → (b : Ref sig .tc) → Buf (Elt F) ((c : Thread nD τ).loc b) := fun c b => B1 m ρ c b
/-- At region 0's exit each of its arrays holds what the pipeline leaves and every other buffer what it held at
    entry. -/
theorem B1_arrays (c : Dev nD) (w : Fin cfg0.W) : (logwDat (B0' m ρ) c).arrAt w cfg0.N = B1' m ρ c (Pipeline.arrRef spec0 w) :=
  (B1_arr m ρ c w).symm
theorem B1_rest (c : Dev nD) : ∀ b, b ∉ Finset.univ.image (Pipeline.arrRef spec0) → B1' m ρ c b = B0' m ρ c b :=
  fun b hb => B1_of_ne m ρ c b fun w e => hb (Finset.mem_image.mpr ⟨w, Finset.mem_univ _, e⟩)

/-- At the return: region 1's arrays at what its pipeline leaves (the binary matrix and the log-weights as entered,
    the result array with its write-backs folded in), every other buffer as region 1 found it. -/
def B2 (c : Dev nD) : Valuation τ sig (Elt F) :=
  Pipeline.withArrays spec1 c (B1 m ρ c) fun w => (logitsDat (B1' m ρ) c).arrAt w cfg1.N
theorem B2_arr (c : Dev nD) (w : Fin cfg1.W) :
    B2 m ρ c (Proc.devRef .tc (Pipeline.arrRef spec1 w)) = (logitsDat (B1' m ρ) c).arrAt w cfg1.N := by
  unfold B2; exact Pipeline.withArrays_arr spec1 launch1.win.arr_inj c _ _ w
theorem B2_of_ne (c : Dev nD) (b : Ref sig .tc) (hb : ∀ w, Pipeline.arrRef spec1 w ≠ b) :
    B2 m ρ c (Proc.devRef .tc b) = B1 m ρ c (Proc.devRef .tc b) := by
  unfold B2; exact Pipeline.withArrays_of_ne spec1 c _ _ b hb
/-- The same read at the TensorCore's references. -/
abbrev B2' : (c : Dev nD) → (b : Ref sig .tc) → Buf (Elt F) ((c : Thread nD τ).loc b) := fun c b => B2 m ρ c b
theorem B2_arrays (c : Dev nD) (w : Fin cfg1.W) : (logitsDat (B1' m ρ) c).arrAt w cfg1.N = B2' m ρ c (Pipeline.arrRef spec1 w) :=
  (B2_arr m ρ c w).symm
theorem B2_rest (c : Dev nD) : ∀ b, b ∉ Finset.univ.image (Pipeline.arrRef spec1) → B2' m ρ c b = B1' m ρ c b :=
  fun b hb => B2_of_ne m ρ c b fun w e => hb (Finset.mem_image.mpr ⟨w, Finset.mem_univ _, e⟩)

/-! ### Reading the fold: what each of @main's four arrays holds at each boundary -/

/-- At launch every buffer holds the launch memory. -/
theorem B0_eq (c : Dev nD) (b : Ref sig .tc) : B0 m ρ c (Proc.devRef .tc b) = m ((c : Thread nD τ).loc b) := rfl

/-- Region 0 reads the raw weights through an input window: the array is as launched. -/
theorem B1_main_arg1 (c : Dev nD) : B1 m ρ c (Proc.devRef .tc main_arg1) = m ((c : Thread nD τ).loc main_arg1) :=
  calc B1 m ρ c (Proc.devRef .tc main_arg1)
    _ = B0 m ρ c (Proc.devRef .tc main_arg1) := (B1_arr m ρ c 0).trans (((logwDat (B0' m ρ) c).arrAt_in 0 rfl _).trans (logwDat_A (B0' m ρ) c 0))
    _ = m ((c : Thread nD τ).loc main_arg1) := rfl
/-- Region 0 does not touch the binary matrix. -/
theorem B1_main_arg0 (c : Dev nD) : B1 m ρ c (Proc.devRef .tc main_arg0) = m ((c : Thread nD τ).loc main_arg0) :=
  (B1_of_ne m ρ c main_arg0 (by decide)).trans rfl
/-- Region 0's result: the log-weights array after all four tiles' write-backs. -/
theorem B1_main_v0 (c : Dev nD) : B1 m ρ c (Proc.devRef .tc main_v0) = (logwDat (B0' m ρ) c).arrAt 1 cfg0.N :=
  B1_arr m ρ c 1
/-- Region 0 does not touch the final result array. -/
theorem B1_main_v1 (c : Dev nD) : B1 m ρ c (Proc.devRef .tc main_v1) = m ((c : Thread nD τ).loc main_v1) :=
  (B1_of_ne m ρ c main_v1 (by decide)).trans rfl

/-- Region 1 reads the binary matrix through an input window: the array is as launched. -/
theorem B2_main_arg0 (c : Dev nD) : B2 m ρ c (Proc.devRef .tc main_arg0) = m ((c : Thread nD τ).loc main_arg0) :=
  calc B2 m ρ c (Proc.devRef .tc main_arg0)
    _ = B1 m ρ c (Proc.devRef .tc main_arg0) := (B2_arr m ρ c 0).trans (((logitsDat (B1' m ρ) c).arrAt_in 0 rfl _).trans (logitsDat_A (B1' m ρ) c 0))
    _ = m ((c : Thread nD τ).loc main_arg0) := B1_main_arg0 m ρ c
/-- Region 1 does not touch the raw weights. -/
theorem B2_main_arg1 (c : Dev nD) : B2 m ρ c (Proc.devRef .tc main_arg1) = m ((c : Thread nD τ).loc main_arg1) :=
  (B2_of_ne m ρ c main_arg1 (by decide)).trans (B1_main_arg1 m ρ c)
/-- Region 1 reads the log-weights through an input window: the array is as region 0 left it. -/
theorem B2_main_v0 (c : Dev nD) : B2 m ρ c (Proc.devRef .tc main_v0) = (logwDat (B0' m ρ) c).arrAt 1 cfg0.N :=
  ((B2_arr m ρ c 1).trans (((logitsDat (B1' m ρ) c).arrAt_in 1 rfl _).trans (logitsDat_A (B1' m ρ) c 1))).trans (B1_main_v0 m ρ c)
/-- Region 1's result: the result array after its write-backs. -/
theorem B2_main_v1 (c : Dev nD) : B2 m ρ c (Proc.devRef .tc main_v1) = (logitsDat (B1' m ρ) c).arrAt 2 cfg1.N :=
  B2_arr m ρ c 2

/-! ## The proof data family and the thread state -/

/-- The prefetched tables' admissible contents: no pipeline has a table. -/
abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => logwDat (B0' m ρ) c
  | ⟨1, _⟩ => fun c => logitsDat (B1' m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through both regions: the core's generator register at some state and its
    debts, at nothing. -/
abbrev R (c : Dev nD) : sProp 𝕄 := iprop((∃ r, prngReg c r) ∗ ∃ W, owes (c : Thread nD τ) (0 : CellTallies nD τ sig Unit) W)
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the debts: every unscoped buffer at the last boundary's contents, the generator
    register at some state. -/
abbrev Tₙ (c : Dev nD) : sProp 𝕄 := iprop(StableHlo.held (c : Thread nD τ) (Pipeline.ucRefs τ sig) (B2 m ρ c) ∗ ∃ r, prngReg c r)

/-! ## The regions as segments -/

set_option backward.isDefEq.respectTransparency.types false in
/-- REGION 0 over the thread state: entered from every unscoped buffer at the launch contents, left at the
    contents between the regions. Its arrays are split out of the unscoped buffers and put back at the exit
    contents; the generator register goes into the invariant and comes out; nothing owed. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (logw_body_obligation (B0' m ρ) c).loose
  hwaits := Pipeline.hwaits_of_owed_zero _ _ _ _ L lv 0 fun _ _ => rfl
  pre c := iprop(StableHlo.held (c : Thread nD τ) (Pipeline.ucRefs τ sig) (B0 m ρ c) ∗ R c)
  post c := iprop(StableHlo.held (c : Thread nD τ) (Pipeline.ucRefs τ sig) (B1 m ρ c) ∗ R c)
  X c := iprop(∃ r, prngReg c r)
  Y c := iprop(∃ r, prngReg c r)
  Z c := Pipeline.unscopedRest (Ix := Unit) (Name := ℕ) (U := UR sig nD τ) (Lvl := ℕ) spec0 c (B0' m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (B0' m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (B0' m ρ c) (B1' m ρ c) ((pdats m ρ 0 c).arrAt · cfg0.N) (B1_arrays m ρ c) (B1_rest m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 1 over the thread state: entered from every unscoped buffer at the contents between the regions, left
    at the return contents. Its invariant starts as the scoped rest with the generator register and, at the last
    point, forgets the accumulator it carried back into the scoped rest. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (logits_body_obligation (B1' m ρ) c).loose
  hwaits := Pipeline.hwaits_of_owed_zero _ _ _ _ L lv 1 fun _ _ => rfl
  pre c := iprop(StableHlo.held (c : Thread nD τ) (Pipeline.ucRefs τ sig) (B1 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (B1' m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (B1' m ρ c) fun w => logitsDat_A (B1' m ρ) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from logits_inv_first (B1' m ρ) c]; unfold Pipeline.ΦA
    iintro ⟨Hp, -, Hr⟩
    isplitl [Hr]; · iexact Hr
    iexact Hp
  hout c := by
    rw [Pipeline.ownSems0_none]
    refine (show (pdats m ρ 1 c).Φ (Fin.last _) ⊢ Pipeline.ΦA spec1 c from logits_inv_last (B1' m ρ) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (B1' m ρ c) (B2' m ρ c) ((pdats m ρ 1 c).arrAt · cfg1.N) (B2_arrays m ρ c) (B2_rest m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

/-- @main's two segments in order: a region per kernel call, nothing between them. -/
abbrev segs : List (Pipeline.Seg (pcfgs (F := F)) adm (pdats m ρ) () defs₀ 𝒱₀ L lv) :=
  [ .region (reg0 m ρ),
    .region (reg1 m ρ) ]
/-- @main is the run of the two segments. -/
theorem main_run (c : Dev nD) : main (F := F) c = Pipeline.Seg.run (segs m ρ) :=
  main_segs adm (pdats m ρ) () 𝒱₀ L lv (reg0 m ρ) (reg1 m ρ) c

set_option backward.isDefEq.respectTransparency.types false in
/-- THE RUN: at the compiled mesh, from any memory with zero counters, every weakly fair execution of @main on the
    TensorCores terminates, nothing faulting, and in every final state every unscoped buffer of every core holds
    the last boundary's contents. -/
theorem run_all : θ_run defs (onTc (τ := τ) (main (F := F))) ⟨m, fun _ => 0, ρ⟩ (fun r => ∀ c : Dev nD,
      ∀ b ∈ Pipeline.ucRefs τ sig, r.2.mem ((c : Thread nD τ).1, b) = B2 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (B0 m ρ c) ∗ R c)) (Tₙ := Tₙ m ρ)
    (hch := ⟨fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (B0 m ρ c)
        from Pipeline.unscopedBufs_held c (B0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = B2 m ρ c b)
    (hfin := fun c s' => by
      iintro ⟨⟨Hh, -⟩, HSI⟩
      unfold StableHlo.held
      imodintro
      iapply (pointsTo_read_all (Pipeline.ucRefs τ sig) (fun b => (((c : Thread nD τ)).1, b)) (B2 m ρ c) s')
      isplitl [Hh] <;> iassumption)
    (hQ := fun s h => h)

/-- THE FRAME: the two argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (run_all m ρ).mono fun r h c =>
    ⟨(h c _ (mem_uc main_arg0 (by decide))).trans (B2_main_arg0 m ρ c),
     (h c _ (mem_uc main_arg1 (by decide))).trans (B2_main_arg1 m ρ c)⟩

/-- The result array in every final state: what region 1's pipeline leaves in it. -/
theorem result_eq : θ_run defs (onTc (τ := τ) (main (F := F))) ⟨m, fun _ => 0, ρ⟩ (fun r => ∀ c : Dev nD,
      r.2.mem ((c.tc : Thread nD τ).loc main_v1) = (logitsDat (B1' m ρ) c).arrAt 2 cfg1.N) :=
  (run_all m ρ).mono fun r h c =>
    (h c _ (mem_uc main_v1 (by decide))).trans (B2_main_v1 m ρ c)

/-- The result array and the frame in one statement: in every final state the result array holds what region 1's
    pipeline leaves in it, and the two argument arrays are as launched. -/
theorem result_and_frame : θ_run defs (onTc (τ := τ) (main (F := F))) ⟨m, fun _ => 0, ρ⟩ (fun r => ∀ c : Dev nD,
      r.2.mem ((c.tc : Thread nD τ).loc main_v1) = (logitsDat (B1' m ρ) c).arrAt 2 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (run_all m ρ).mono fun r h c =>
    ⟨(h c _ (mem_uc main_v1 (by decide))).trans (B2_main_v1 m ρ c),
     (h c _ (mem_uc main_arg0 (by decide))).trans (B2_main_arg0 m ρ c),
     (h c _ (mem_uc main_arg1 (by decide))).trans (B2_main_arg1 m ρ c)⟩

end Cert.Kernel.Hand

end
-- ==== Proof.Spec.lean ====
/-
  The specification of the computation, over the extended reals, with no program in sight.

  A weight entry is turned into a log-weight: log (max ε (10 · σ(w))), σ the logistic function
  σ(w) = 1 / (1 + e^(-w)), with ε and 10 kept as the two float words the programs print.  For a
  row b of the binary matrix and a row v of the weights the result is
      exp ( (Σ_d bin[b,d] · logw[v,d]) / max (Σ_d bin[b,d]) 1 ).
-/
import Idealize.ShloMosaic.PureOps.Ideal.Laws
import Idealize.ShloMosaic.Lib.ValueIdx
import Idealize.ShloMosaic.Lib.IdealHost

noncomputable section

namespace Cert.KernelIdeal.Math

open Idealize.ShloMosaic Idealize.ShloMosaic.ValueIdx
open scoped BigOperators

/-- The log-weight of one raw weight: log (max ε (10 · σ(x))). -/
def logWAt (x : EReal) : EReal :=
  Ideal.log (max (Ideal.ofBits .f32 0x322BCC77#32) (Ideal.ofBits .f32 0x41200000#32 * Ideal.logistic x))

/-- The logistic function is 1 / (1 + e^(-x)): the spelling with a quotient is the same function. -/
theorem logistic_eq (x : EReal) : Ideal.div 1 (1 + Ideal.exp (-x)) = Ideal.logistic x := rfl

/-- The log-weight at row v, column d of the raw weights. -/
def logW (raw : FVec Ideal ⟨2, ![256, 16384]⟩ .f32) (v : Fin 256) (d : Fin 16384) : EReal :=
  logWAt (raw (ix2 v d))

/-- The sum of row b of the binary matrix. -/
def rowSum (bin : FVec Ideal ⟨2, ![2048, 16384]⟩ .f32) (b : Fin 2048) : EReal :=
  ∑ d : Fin 16384, bin (ix2 b d)

/-- Row b of the binary matrix against row v of the log-weights. -/
def logSum (bin : FVec Ideal ⟨2, ![2048, 16384]⟩ .f32) (raw : FVec Ideal ⟨2, ![256, 16384]⟩ .f32)
    (b : Fin 2048) (v : Fin 256) : EReal :=
  ∑ d : Fin 16384, bin (ix2 b d) * logW raw v d

/-- The result at (b, v): exp (logSum / max rowSum 1). -/
def G (bin : FVec Ideal ⟨2, ![2048, 16384]⟩ .f32) (raw : FVec Ideal ⟨2, ![256, 16384]⟩ .f32) :
    FVec Ideal ⟨2, ![2048, 256]⟩ .f32 :=
  fun i => Ideal.exp (Ideal.div (logSum bin raw (i 0) (i 1)) (max (rowSum bin (i 0)) 1))

theorem G_apply (bin : FVec Ideal ⟨2, ![2048, 16384]⟩ .f32) (raw : FVec Ideal ⟨2, ![256, 16384]⟩ .f32)
    (b : Fin 2048) (v : Fin 256) :
    G bin raw (ix2 b v) = Ideal.exp (Ideal.div (logSum bin raw b v) (max (rowSum bin b) 1)) := rfl

/-- The clamp from below by one, in either order of the operands. -/
theorem clamp_comm (x : EReal) : max 1 x = max x 1 := max_comm 1 x

end Cert.KernelIdeal.Math

end
-- ==== Proof.RefIsSpec.lean ====
/-
  The reference computes the specification: read index by index, the reference's last stage is
  exp ((Σ_d bin[b,d] · log (max ε (10 · σ(raw[v,d])))) / max (Σ_d bin[b,d]) 1), with σ spelled
  as the quotient 1 / (1 + e^(-x)) and the clamp written max 1 (·).
-/
import proofs.«106602_j17901423690383_2_alg».proof.Proof.Gen.ReferenceIdeal.Read
import proofs.«106602_j17901423690383_2_alg».proof.Proof.Spec

noncomputable section

namespace Cert.KernelIdeal.Math

open Cert.ReferenceIdeal Cert.ReferenceIdeal.Gen Cert.ReferenceIdeal.Read
open Idealize.ShloMosaic Idealize.ShloMosaic.ValueIdx Idealize.SL.Sem
open scoped BigOperators

/-- The left operand of the contraction at (b, v), position k, is read at (b, k). -/
theorem ref_lidx (b : Fin 2048) (v : Fin 256) (k : Fin 16384) : lidx_main_v10 (ix2 b v) k = ix2 b k :=
  funext fun a => Fin.ext (by match a with | ⟨0, _⟩ => rfl | ⟨1, _⟩ => rfl)

/-- The right operand of the contraction at (b, v), position k, is read at (v, k). -/
theorem ref_ridx (b : Fin 2048) (v : Fin 256) (k : Fin 16384) : ridx_main_v10 (ix2 b v) k = ix2 v k :=
  funext fun a => Fin.ext (by match a with | ⟨0, _⟩ => rfl | ⟨1, _⟩ => rfl)

/-- The row sum broadcast to (b, v) sums row b. -/
theorem ref_rowidx (b : Fin 2048) (v : Fin 256) (k : Fin 16384) :
    idx_main_v11 (idx_main_v12 (idx_main_v14 (ix2 b v))) k = ix2 b k :=
  funext fun a => Fin.ext (by match a with | ⟨0, _⟩ => rfl | ⟨1, _⟩ => rfl)

/-- The reference's result is the specification of its two arguments. -/
theorem ref_is_G (a0 : (⟨S2048x16384, .f32⟩ : BufTy).Contents (Elt Ideal))
    (a1 : (⟨S256x16384, .f32⟩ : BufTy).Contents (Elt Ideal)) :
    val_main_v16 (F := Ideal) a0 a1 = G a0 a1 := by
  funext i
  obtain ⟨b, v, rfl⟩ : ∃ (b : Fin 2048) (v : Fin 256), i = ix2 b v := ⟨i 0, i 1, eq_ix2 i⟩
  rw [G_apply]
  simp only [val_main_v16_apply, val_main_v15_apply, val_main_v10_apply, val_main_v14_apply, val_main_v13_apply,
    val_main_call1_v1_apply, val_main_call1_v0_apply, val_main_cst_4_apply, val_main_v12_apply, val_main_v11_apply,
    val_main_cst_3_apply, val_main_v9_apply, val_main_v8_apply, val_main_call0_v1_apply, val_main_call0_v0_apply,
    val_main_cst_2_apply, val_main_v7_apply, val_main_v6_apply, val_main_cst_1_apply, val_main_v5_apply,
    val_main_v4_apply, val_main_cst_0_apply, val_main_v3_apply, val_main_v2_apply, val_main_cst_apply,
    val_main_v1_apply, val_main_v0_apply, ref_lidx, ref_ridx, ref_rowidx,
    Ideal.hostUnary_exp_def, Ideal.hostUnary_log_def, Ideal.hostDivf_def, Ideal.maximumf_def, Ideal.mulf_def,
    Ideal.addf_def, Ideal.hostNegf_def, Ideal.negf_def, Ideal.ofBits_def, Ideal.ofBits_one_f32, Ideal.ofBits_zero_f32,
    zero_add, logistic_eq, clamp_comm, logSum, rowSum, logW, logWAt]

end Cert.KernelIdeal.Math

end
-- ==== Proof.LogitsBlocks.lean ====
/- Region 1's blocks against its arrays, coordinate by coordinate. The grid is 4 batch tiles by 4 reduction
   tiles, point t being batch tile t / 4 and reduction tile t % 4. The binary matrix's block at t is rows
   512·(t/4) … +511, columns 4096·(t%4) … +4095; the extended log-weights' block is all 384 rows, columns
   4096·(t%4) … +4095; the result's block is rows 512·(t/4) … +511, all 256 columns, written back exactly at the
   last reduction tile. So the result array is whatever whole-array function its last-tile blocks are the blocks of. -/
import proofs.«106602_j17901423690383_2_alg».proof.Proof.LogitsRegion
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

variable {F : FTy → Type} [FloatOps F]

/-! ## The block indices, decided once over the grid -/

/-- Which block of its array each window is on at point t = 4·i + k: the binary matrix on (i, k), the
    log-weights on (0, k), the result on (i, 0). -/
theorem logits_idx : ∀ t : Fin cfg1.N, win1_0.index t (0 : Fin 2) = t.val / 4 ∧ win1_0.index t (1 : Fin 2) = t.val % 4
    ∧ win1_1.index t (0 : Fin 2) = 0 ∧ win1_1.index t (1 : Fin 2) = t.val % 4
    ∧ win1_2.index t (0 : Fin 2) = t.val / 4 ∧ win1_2.index t (1 : Fin 2) = 0 :=
  (by decide +kernel : ∀ t : Fin grid1.N, _)

section
variable (V : (c : Dev nD) → (b : Ref sig .tc) → Buf (Elt F) ((c : Thread nD τ).loc b))

/-! ## The input blocks read at an index -/

/-- Entry (r, d) of the binary matrix's block at point t is entry (512·(t/4) + r, 4096·(t%4) + d) of the matrix. -/
theorem act_block_apply (c : Dev nD) (t : Fin cfg1.N) (r : Fin 512) (d : Fin 4096) :
    logitsBlock V c 0 t (ix2 r d)
      = V c main_arg0 (ix2 (⟨512 * (t.val / 4) + r.val, by have := t.isLt; have h16 : cfg1.N = 16 := N_1; omega⟩ : Fin 2048)
          (⟨4096 * (t.val % 4) + d.val, by omega⟩ : Fin 16384)) := by
  obtain ⟨e0, e1, e2, e3, e4, e5⟩ := logits_idx t
  show V c main_arg0 (((cfg1.win 0).blk t).view.emb (ix2 r d)) = _
  refine congrArg (V c main_arg0) ?_
  funext a; apply Fin.ext
  match a with
  | ⟨0, _⟩ => show win1_0.index t (0 : Fin 2) * 512 + 1 * r.val = 512 * (t.val / 4) + r.val; omega
  | ⟨1, _⟩ => show win1_0.index t (1 : Fin 2) * 4096 + 1 * d.val = 4096 * (t.val % 4) + d.val; omega

/-- Entry (cc, d) of the extended log-weights' block at point t is entry (cc, 4096·(t%4) + d) of the array. -/
theorem lw_block_apply (c : Dev nD) (t : Fin cfg1.N) (cc : Fin 384) (d : Fin 4096) :
    logitsBlock V c 1 t (ix2 cc d)
      = V c main_v0 (ix2 cc (⟨4096 * (t.val % 4) + d.val, by omega⟩ : Fin 16384)) := by
  obtain ⟨e0, e1, e2, e3, e4, e5⟩ := logits_idx t
  show V c main_v0 (((cfg1.win 1).blk t).view.emb (ix2 cc d)) = _
  refine congrArg (V c main_v0) ?_
  funext a; apply Fin.ext
  match a with
  | ⟨0, _⟩ => show win1_1.index t (0 : Fin 2) * 384 + 1 * cc.val = cc.val; omega
  | ⟨1, _⟩ => show win1_1.index t (1 : Fin 2) * 4096 + 1 * d.val = 4096 * (t.val % 4) + d.val; omega

/-! ## The result array from its last-tile blocks -/

/-- An index of the result array is in point t's block iff each coordinate is in the block's range on its axis. -/
theorem mem_out_block (t : Fin cfg1.N) (i : S2048x256.Idx) :
    i ∈ ((cfg1.win 2).blk t).view.set ↔ ∀ a : Fin 2, win1_2.index t a * S512x256.size a ≤ (i a).val ∧ (i a).val < win1_2.index t a * S512x256.size a + S512x256.size a := by
  show i ∈ ((View.whole main_v1).slice (win1_2.rect t)).set ↔ _
  rw [View.set_slice_whole, Rect.mem_set_unit]
  exact Iff.rfl

/-- If at every last reduction tile the output block is the point's block of one whole-array function Gf — rows
    512·(t/4) … +511 of it — then the result array ends holding Gf: those blocks are written back, each at its own
    rows, and the four batch tiles' rows fill the array. -/
theorem logits_arr_of_blocks (c : Dev nD) (Gf : Buf (Elt F) ((c : Thread nD τ).loc main_v1))
    (h : ∀ t : Fin cfg1.N, t.val % 4 = 3 → ∀ (r : Fin 512) (v : Fin 256),
      (stateAt V c t.val t.isLt).1 (ix2 r v)
        = Gf (ix2 (⟨512 * (t.val / 4) + r.val, by have := t.isLt; have h16 : cfg1.N = 16 := N_1; omega⟩ : Fin 2048) v)) :
    (logitsDat V c).arrAt 2 cfg1.N = Gf := by
  refine (logitsDat V c).arrAt_eq_of_cover 2 Gf (fun t hf => ?_) (fun i => ?_)
  · -- what a last-tile point writes back is its block of Gf
    obtain ⟨e0, e1, e2, e3, e4, e5⟩ := logits_idx t
    show (cfg1.win 2).cut (grid1.coords t) ((logitsDat V c).after 2 t) = _
    rw [logitsDat_after2]
    funext y
    obtain ⟨r, v, rfl⟩ : ∃ (r : Fin 512) (v : Fin 256), y = ix2 r v := ⟨y 0, y 1, eq_ix2 y⟩
    show (stateAt V c t.val t.isLt).1 (ix2 r v) = Gf (((cfg1.win 2).blk t).view.emb (ix2 r v))
    rw [h t ((flush1_2 t).mp hf) r v]
    refine congrArg Gf ?_
    funext a; apply Fin.ext
    match a with
    | ⟨0, _⟩ => show 512 * (t.val / 4) + r.val = win1_2.index t (0 : Fin 2) * 512 + 1 * r.val; omega
    | ⟨1, _⟩ => show v.val = win1_2.index t (1 : Fin 2) * 256 + 1 * v.val; omega
  · -- row i 0 lies in the block of the last reduction tile of its batch tile
    have hi0 : (i 0).val < 2048 := (i 0).isLt
    have hi1 : (i 1).val < 256 := (i 1).isLt
    have h16 : cfg1.N = 16 := N_1
    let t : Fin cfg1.N := ⟨4 * ((i 0).val / 512) + 3, by omega⟩
    have ht : t.val = 4 * ((i 0).val / 512) + 3 := rfl
    obtain ⟨e0, e1, e2, e3, e4, e5⟩ := logits_idx t
    refine ⟨t, (flush1_2 t).mpr (by omega), ?_⟩
    rw [mem_out_block]
    intro a
    match a with
    | ⟨0, _⟩ => show win1_2.index t (0 : Fin 2) * 512 ≤ (i 0).val ∧ (i 0).val < win1_2.index t (0 : Fin 2) * 512 + 512; omega
    | ⟨1, _⟩ => show win1_2.index t (1 : Fin 2) * 256 ≤ (i 1).val ∧ (i 1).val < win1_2.index t (1 : Fin 2) * 256 + 256; omega

end

end Cert.KernelIdeal.Hand

end
-- ==== Proof.LogitsPieces.lean ====
/-
  The second kernel region, third part: what each control case leaves, in terms of the body's arithmetic. A first tile
  leaves in the accumulator the sum of the zero block and this tile's matrix product; a later tile the sum of what it
  found there and this tile's matrix product; a last tile moreover leaves in the output block the read-out of the
  accumulator it has just updated — its first 256 columns against its last 128.
-/
import proofs.«106602_j17901423690383_2_alg».proof.Proof.LogitsRegion
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem origin2 : (![0, 0] : Fin 2 → Nat) = fun _ => 0 := funext fun a => by fin_cases a <;> rfl

/-- The accumulator's first 256 columns and its last 128, as the body's two loads take them. -/
abbrev accLoCols : Rect S512x384 := Rect.unit (s := S512x384) ![0, 0] S512x256.size inb_S512x384_S512x256_0_0
abbrev accHiCols : Rect S512x384 := Rect.unit (s := S512x384) ![0, 256] S512x128.size inb_S512x384_S512x128_0_256

/-- A read of a sub-rectangle of the accumulator after ONE store of the whole of it reads the stored block there. -/
theorem readCov_after_whole_store {sig' : RefSig} {κ : Kind} {sp : Space} (v : View sig' κ sp S512x384 .f32)
    (inb : ∀ a, (![0, 0] : Fin 2 → Nat) a + S512x384.size a ≤ S512x384.size a)
    (w : S512x384.Idx → Elt F .f32) (r : Rect S512x384) :
    v.readCov [(⟨Rect.unit ![0, 0] S512x384.size inb, w⟩ : View.Piece (Elt F) S512x384 .f32)] r.toLoadRect = View.ld w r := by
  rw [View.readCov_eq_canon', View.canon_unit_zero (S := S512x384) origin2]

set_option maxHeartbeats 2000000 in
theorem accFirst_eq (c : Dev nD) (i : grid1.Coords) (arg2 : Memref sig .tc .vmem S512x4096 .f32) (harg2 : arg2.IsWhole) (arg3 : Memref sig .tc .vmem S384x4096 .bf16) (harg3 : arg3.IsWhole) (arg4 : Memref sig .tc .vmem S512x256 .f32) (harg4 : arg4.IsWhole) (arg5 : Memref sig .tc .vmem S512x384 .f32) (harg5 : arg5.IsWhole) (hc0 : atFirstTile i) (hc1 : ¬atLastTile i)
    (x0 : Vec F S512x4096 .f32) (x1 : Vec F S384x4096 .bf16) :
    accFirst c i arg2 harg2 arg3 harg3 arg4 harg4 arg5 harg5 hc0 hc1 x0 x1 = k1_pay2 x0 x1 (k1_pay1 (F := F)) := by
  unfold accFirst
  rw [View.read_writes_eq_canon _ _ _ (accCoverFirst c i arg2 harg2 arg3 harg3 arg4 harg4 arg5 harg5 hc0 hc1 x0 x1)]
  unfold runFirstTile
  dsimp only
  sl_unfold_words
  rw [View.canon_cons_unit_zero (S := S512x384) origin2, View.readCov_unit_zero (S := S512x384) _ origin2]
  simp only [View.readAt_eq_ld, harg2.read_unread, harg3.read_unread, View.ld_unit_zero (S := S512x4096) origin2, View.ld_unit_zero (S := S384x4096) origin2]

set_option maxHeartbeats 2000000 in
theorem accMid_eq (c : Dev nD) (i : grid1.Coords) (arg2 : Memref sig .tc .vmem S512x4096 .f32) (harg2 : arg2.IsWhole) (arg3 : Memref sig .tc .vmem S384x4096 .bf16) (harg3 : arg3.IsWhole) (arg4 : Memref sig .tc .vmem S512x256 .f32) (harg4 : arg4.IsWhole) (arg5 : Memref sig .tc .vmem S512x384 .f32) (harg5 : arg5.IsWhole) (hc0 : ¬atFirstTile i) (hc1 : ¬atLastTile i)
    (x0 : Vec F S512x4096 .f32) (x1 : Vec F S384x4096 .bf16) (xs : Vec F S512x384 .f32) :
    accMid c i arg2 harg2 arg3 harg3 arg4 harg4 arg5 harg5 hc0 hc1 x0 x1 xs = k1_pay2 x0 x1 xs := by
  unfold accMid
  rw [View.read_writes_eq_canon _ _ _ (accCoverMid c i arg2 harg2 arg3 harg3 arg4 harg4 arg5 harg5 hc0 hc1 x0 x1 xs)]
  unfold runMidTile
  dsimp only
  rw [View.canon_unit_zero (S := S512x384) origin2]
  simp only [View.readAt_eq_ld, harg2.read_unread, harg3.read_unread, harg5.read_unread, View.ld_unit_zero (S := S512x4096) origin2, View.ld_unit_zero (S := S384x4096) origin2, View.ld_unit_zero (S := S512x384) origin2]

set_option maxHeartbeats 2000000 in
theorem accLast_eq (c : Dev nD) (i : grid1.Coords) (arg2 : Memref sig .tc .vmem S512x4096 .f32) (harg2 : arg2.IsWhole) (arg3 : Memref sig .tc .vmem S384x4096 .bf16) (harg3 : arg3.IsWhole) (arg4 : Memref sig .tc .vmem S512x256 .f32) (harg4 : arg4.IsWhole) (arg5 : Memref sig .tc .vmem S512x384 .f32) (harg5 : arg5.IsWhole) (hc0 : ¬atFirstTile i) (hc1 : atLastTile i)
    (x0 : Vec F S512x4096 .f32) (x1 : Vec F S384x4096 .bf16) (xs : Vec F S512x384 .f32) :
    accLast c i arg2 harg2 arg3 harg3 arg4 harg4 arg5 harg5 hc0 hc1 x0 x1 xs = k1_pay2 x0 x1 xs := by
  unfold accLast
  rw [View.read_writes_eq_canon _ _ _ (accCoverLast c i arg2 harg2 arg3 harg3 arg4 harg4 arg5 harg5 hc0 hc1 x0 x1 xs)]
  unfold runLastTile
  dsimp only
  sl_unfold_words
  rw [View.canon_unit_zero (S := S512x384) origin2]
  simp only [View.readAt_eq_ld, harg2.read_unread, harg3.read_unread, harg5.read_unread, View.ld_unit_zero (S := S512x4096) origin2, View.ld_unit_zero (S := S384x4096) origin2, View.ld_unit_zero (S := S512x384) origin2]

set_option maxHeartbeats 2000000 in
theorem outLast_eq (c : Dev nD) (i : grid1.Coords) (arg2 : Memref sig .tc .vmem S512x4096 .f32) (harg2 : arg2.IsWhole) (arg3 : Memref sig .tc .vmem S384x4096 .bf16) (harg3 : arg3.IsWhole) (arg4 : Memref sig .tc .vmem S512x256 .f32) (harg4 : arg4.IsWhole) (arg5 : Memref sig .tc .vmem S512x384 .f32) (harg5 : arg5.IsWhole) (hc0 : ¬atFirstTile i) (hc1 : atLastTile i)
    (x0 : Vec F S512x4096 .f32) (x1 : Vec F S384x4096 .bf16) (xs : Vec F S512x384 .f32) :
    outLast c i arg2 harg2 arg3 harg3 arg4 harg4 arg5 harg5 hc0 hc1 x0 x1 xs = k1_pay3 (View.ld (k1_pay2 x0 x1 xs) accLoCols) (View.ld (k1_pay2 x0 x1 xs) accHiCols) := by
  unfold outLast
  rw [View.read_writes_eq_canon _ _ _ (outCoverLast c i arg2 harg2 arg3 harg3 arg4 harg4 arg5 harg5 hc0 hc1 x0 x1 xs)]
  unfold runLastTile
  dsimp only
  sl_unfold_words
  rw [View.canon_unit_zero (S := S512x256) origin2]
  rw [readCov_after_whole_store, readCov_after_whole_store]
  simp only [View.readAt_eq_ld, harg2.read_unread, harg3.read_unread, harg5.read_unread, View.ld_unit_zero (S := S512x4096) origin2, View.ld_unit_zero (S := S384x4096) origin2, View.ld_unit_zero (S := S512x384) origin2]

end Cert.KernelIdeal.Hand

end
-- ==== Proof.LogitsRunningSum.lean ====
/-
  The second kernel region, fourth part: the accumulator after each grid point as an ORDERED running sum. Within one
  batch tile the four reduction tiles are visited in order; after the first the accumulator is the zero block plus that
  tile's matrix product, after each later one it is what it was plus that tile's product. At a last reduction tile the
  output block is the read-out of the accumulator just updated.
-/
import proofs.«106602_j17901423690383_2_alg».proof.Proof.LogitsPieces

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- The running sum after position `n`: restarted from the zero block at a first reduction tile. -/
def accChain (c : Dev nD) : (n : ℕ) → n < cfg1.N → Vec F S512x384 .f32
  | 0, h => k1_pay2 (logitsBlock V c 0 ⟨0, h⟩) (logitsBlock V c 1 ⟨0, h⟩) (k1_pay1 (F := F))
  | n + 1, h =>
    if (n + 1) % 4 = 0 then k1_pay2 (logitsBlock V c 0 ⟨n + 1, h⟩) (logitsBlock V c 1 ⟨n + 1, h⟩) (k1_pay1 (F := F))
    else k1_pay2 (logitsBlock V c 0 ⟨n + 1, h⟩) (logitsBlock V c 1 ⟨n + 1, h⟩) (accChain c n (Nat.lt_of_succ_lt h))

theorem accChain_first (c : Dev nD) (t : Fin cfg1.N) (h0 : t.val % 4 = 0) :
    accChain V c t.val t.isLt = k1_pay2 (logitsBlock V c 0 t) (logitsBlock V c 1 t) (k1_pay1 (F := F)) := by
  obtain ⟨n, hn⟩ := t
  cases n with
  | zero => rfl
  | succ n => exact if_pos h0

theorem accChain_later (c : Dev nD) (t : Fin cfg1.N) (h0 : ¬t.val % 4 = 0) :
    accChain V c t.val t.isLt = k1_pay2 (logitsBlock V c 0 t) (logitsBlock V c 1 t) (accChain V c (t.val - 1) (Nat.lt_of_le_of_lt (Nat.sub_le _ _) t.isLt)) := by
  obtain ⟨n, hn⟩ := t
  cases n with
  | zero => exact absurd (Nat.zero_mod _) h0
  | succ n => exact if_neg h0

/-- What the accumulator holds after position `n` IS the running sum: by induction on the position. -/
theorem stateAt_acc (c : Dev nD) : ∀ (n : ℕ) (h : n < cfg1.N), (stateAt V c n h).2 = accChain V c n h := by
  intro n
  induction n using Nat.strong_induction_on with
  | _ n ih =>
    intro h
    by_cases h0 : n % 4 = 0
    · have h1 : ¬n % 4 = 3 := by omega
      have e := congrArg Prod.snd (stateAt_first V c ⟨n, h⟩ h0 h1)
      dsimp only at e
      rw [e, accChain_first V c ⟨n, h⟩ h0]
      exact accFirst_eq ..
    · by_cases h1 : n % 4 = 3
      · have e := congrArg Prod.snd (stateAt_last V c ⟨n, h⟩ h0 h1)
        dsimp only at e
        rw [e, accChain_later V c ⟨n, h⟩ h0, accLast_eq]
        exact congrArg (k1_pay2 _ _) (ih (n - 1) (by omega) _)
      · have e := congrArg Prod.snd (stateAt_mid V c ⟨n, h⟩ h0 h1)
        dsimp only at e
        rw [e, accChain_later V c ⟨n, h⟩ h0, accMid_eq]
        exact congrArg (k1_pay2 _ _) (ih (n - 1) (by omega) _)

/-- At a last reduction tile the output block is the read-out of the running sum after that tile. -/
theorem stateAt_out_last (c : Dev nD) (t : Fin cfg1.N) (h1 : t.val % 4 = 3) :
    (stateAt V c t.val t.isLt).1 = k1_pay3 (View.ld (accChain V c t.val t.isLt) accLoCols) (View.ld (accChain V c t.val t.isLt) accHiCols) := by
  have h0 : ¬t.val % 4 = 0 := by omega
  have e := congrArg Prod.fst (stateAt_last V c t h0 h1)
  dsimp only at e
  rw [e, accChain_later V c t h0, outLast_eq, stateAt_acc]
end

end Cert.KernelIdeal.Hand

end
-- ==== Proof.LibBroadcastReads.lean ====
/- Small layout reads at coordinates, for any extents and any element type: a column `[a, 1]` broadcast along the lanes
   to `[a, b]` (a vector `broadcast` and a host `broadcast_in_dim` with dims [0, 1]), a row `[1, b]` broadcast down the
   rows by a host `broadcast_in_dim` with dims [0, 1], a vector `[a]` made a column `[a, 1]` (dims [0]) and a vector `[b]`
   made a row `[1, b]` (dims [1]). Each reads the operand at the coordinate that survives; the unit axis reads at 0.
   Nothing here depends on a particular program. -/
import Idealize.ShloMosaic.Lib.Pipeline.Value
import Idealize.ShloMosaic.Lib.ValueIdx

noncomputable section

open Idealize.ShloMosaic Idealize.ShloMosaic.ValueIdx

namespace Cert.Lib.BroadcastReads

variable {α : Type}

/-- A vector broadcast of a column `[a, 1]` to `[a, b]` reads, at `(p, c)`, the column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A host broadcast (dims [0, 1]) of a column `[a, 1]` to `[a, b]` reads, at `(p, c)`, the column at row `p`. -/
theorem broadcastInDim_a1_ab_apply {a b : ℕ} (v : (⟨2, ![a, 1]⟩ : Shape).Idx → α)
    (h : (⟨2, ![a, 1]⟩ : Shape).BroadcastsInDim ⟨2, ![a, b]⟩ ![0, 1]) (p : Fin a) (c : Fin b) :
    broadcastInDim ⟨2, ![a, b]⟩ ![0, 1] h v (ix2 p c) = v (ix2 p (0 : Fin 1)) := by
  refine broadcastInDim_apply _ h v (ix2 p c) (ix2 p (0 : Fin 1)) fun ax => ?_
  match ax with
  | ⟨0, _⟩ =>
    show p.val = if a = 1 then 0 else p.val
    split
    · have := p.isLt; omega
    · rfl
  | ⟨1, _⟩ => rfl

/-- A host broadcast (dims [0, 1]) of a row `[1, b]` to `[a, b]` reads, at `(p, c)`, the row at column `c`. -/
theorem broadcastInDim_1b_ab_apply {a b : ℕ} (v : (⟨2, ![1, b]⟩ : Shape).Idx → α)
    (h : (⟨2, ![1, b]⟩ : Shape).BroadcastsInDim ⟨2, ![a, b]⟩ ![0, 1]) (p : Fin a) (c : Fin b) :
    broadcastInDim ⟨2, ![a, b]⟩ ![0, 1] h v (ix2 p c) = v (ix2 (0 : Fin 1) c) := by
  refine broadcastInDim_apply _ h v (ix2 p c) (ix2 (0 : Fin 1) c) fun ax => ?_
  match ax with
  | ⟨0, _⟩ => rfl
  | ⟨1, _⟩ =>
    show c.val = if b = 1 then 0 else c.val
    split
    · have := c.isLt; omega
    · rfl

/-- A vector `[a]` made a column `[a, 1]` by a host broadcast (dims [0]) reads, at `(p, z)`, the vector at `p`. -/
theorem broadcastInDim_a_a1_apply {a : ℕ} (v : (⟨1, ![a]⟩ : Shape).Idx → α)
    (h : (⟨1, ![a]⟩ : Shape).BroadcastsInDim ⟨2, ![a, 1]⟩ ![0]) (p : Fin a) (z : Fin 1) :
    broadcastInDim ⟨2, ![a, 1]⟩ ![0] h v (ix2 p z) = v (ix1 p) := by
  refine broadcastInDim_apply _ h v (ix2 p z) (ix1 p) fun ax => ?_
  match ax with
  | ⟨0, _⟩ =>
    show p.val = if a = 1 then 0 else p.val
    split
    · have := p.isLt; omega
    · rfl

/-- A vector `[b]` made a row `[1, b]` by a host broadcast (dims [1]) reads, at `(z, c)`, the vector at `c`. -/
theorem broadcastInDim_b_1b_apply {b : ℕ} (v : (⟨1, ![b]⟩ : Shape).Idx → α)
    (h : (⟨1, ![b]⟩ : Shape).BroadcastsInDim ⟨2, ![1, b]⟩ ![1]) (z : Fin 1) (c : Fin b) :
    broadcastInDim ⟨2, ![1, b]⟩ ![1] h v (ix2 z c) = v (ix1 c) := by
  refine broadcastInDim_apply _ h v (ix2 z c) (ix1 c) fun ax => ?_
  match ax with
  | ⟨0, _⟩ =>
    show c.val = if b = 1 then 0 else c.val
    split
    · have := c.isLt; omega
    · rfl

end Cert.Lib.BroadcastReads

end
-- ==== Proof.LibColumnReads.lean ====
/- Column layouts read at coordinates, for any extents and any element type: a vector `[a]` cast to a column `[a, 1]`
   and back, one column of an `[a, b]` array taken as a unit-stride slice `[a, 1]`, and `N` columns `[a, 1]` laid side by
   side along axis 1 into `[a, N]`.  Each reads the operand at the coordinates that survive, the unit axis at 0.
   Nothing here depends on a particular program. -/
import Idealize.ShloMosaic.Lib.Pipeline.Value
import Idealize.ShloMosaic.Lib.ValueIdx

noncomputable section

open Idealize.ShloMosaic Idealize.ShloMosaic.ValueIdx

namespace Cert.Lib.ColumnReads

variable {α : Type}

/-- A vector `[a]` cast to a column `[a, 1]` reads, at `(p, z)`, the vector at `p`: both sit at row-major position `p`. -/
theorem shapeCast_a_a1_apply {a : ℕ} (v : (⟨1, ![a]⟩ : Shape).Idx → α) (h : (⟨1, ![a]⟩ : Shape).ShapeCasts ⟨2, ![a, 1]⟩)
    (p : Fin a) (z : Fin 1) : shapeCast ⟨2, ![a, 1]⟩ v h (ix2 p z) = v (ix1 p) := by
  refine shapeCast_apply v h (ix2 p z) (ix1 p) ?_
  rw [Shape.rowMajor_val_one, Shape.rowMajor_val_two]
  show p.val = p.val * 1 + z.val
  have := z.isLt; omega

/-- A column `[a, 1]` cast to a vector `[a]` reads, at `p`, the column at `(p, 0)`. -/
theorem shapeCast_a1_a_apply {a : ℕ} (v : (⟨2, ![a, 1]⟩ : Shape).Idx → α) (h : (⟨2, ![a, 1]⟩ : Shape).ShapeCasts ⟨1, ![a]⟩)
    (p : Fin a) : shapeCast ⟨1, ![a]⟩ v h (ix1 p) = v (ix2 p (0 : Fin 1)) := by
  refine shapeCast_apply v h (ix1 p) (ix2 p (0 : Fin 1)) ?_
  rw [Shape.rowMajor_val_one, Shape.rowMajor_val_two]
  show p.val * 1 + 0 = p.val
  omega

/-- Column `o` of an `[a, b]` array, taken as the unit-stride slice `[a, 1]` at offsets `(0, o)`, reads at `(p, z)` the
    array at `(p, o)`. -/
theorem slice_column_apply {a b : ℕ} (o : ℕ) (ho : o < b) (x : (⟨2, ![a, b]⟩ : Shape).Idx → α)
    (h : (⟨2, ![a, b]⟩ : Shape).Slices ![0, o] ⟨2, ![a, 1]⟩) (p : Fin a) (z : Fin 1) :
    extractStridedSlice ⟨2, ![a, 1]⟩ ![0, o] x h (ix2 p z) = x (ix2 p (⟨o, ho⟩ : Fin b)) := by
  refine extractStridedSlice_apply _ x h (ix2 p z) (ix2 p (⟨o, ho⟩ : Fin b)) fun ax => ?_
  match ax with
  | ⟨0, _⟩ => show p.val = 0 + p.val; omega
  | ⟨1, _⟩ => show o = o + z.val; have := z.isLt; omega

/-- `N` columns `[a, 1]` laid side by side along axis 1 read, at `(p, n)`, column `n` at `(p, 0)`. -/
theorem concat_columns_apply {a N : ℕ} (f : Fin N → ((⟨2, ![a, 1]⟩ : Shape).Idx → α))
    (h : Shape.Concatenates ((List.ofFn fun n : Fin N => (⟨⟨2, ![a, 1]⟩, f n⟩ : (s : Shape) × (s.Idx → α))).map (·.1))
      ⟨2, ![a, N]⟩ (1 : Fin 2))
    (p : Fin a) (n : Fin N) :
    concatenate ⟨2, ![a, N]⟩ (1 : Fin 2) (List.ofFn fun n : Fin N => (⟨⟨2, ![a, 1]⟩, f n⟩ : (s : Shape) × (s.Idx → α))) h (ix2 p n)
      = f n (ix2 p (0 : Fin 1)) := by
  refine concatenate_ofFn_unit_apply (t := ⟨2, ![a, N]⟩) (s₁ := ⟨2, ![a, 1]⟩) (1 : Fin 2) f h rfl rfl (ix2 p n) n rfl
    (ix2 p (0 : Fin 1)) fun b hb => ?_
  match b with
  | ⟨0, _⟩ => rfl
  | ⟨1, _⟩ => exact absurd rfl hb

end Cert.Lib.ColumnReads

end
-- ==== Proof.Payloads.lean ====
/-
  The kernel's arithmetic, one element at a time, on the extended reals.

  First region: an element of the weight tile becomes its log-weight log (max ε (10 · σ(x))); the
  extra rows hold the constant one.  Second region: the accumulator starts at zero, each step adds
  to its entry (r, c) the sum over k of lhs[r,k] · rhs[c,k] (both operands contract their second
  axis), and the last step writes exp (acc[r,c] / max (max_j ones[r,j]) 1).
-/
import proofs.«106602_j17901423690383_2_alg».proof.Proof.Gen.KernelIdeal.Skeleton
import proofs.«106602_j17901423690383_2_alg».proof.Proof.Spec
import proofs.«106602_j17901423690383_2_alg».proof.Proof.LibBroadcastReads
import proofs.«106602_j17901423690383_2_alg».proof.Proof.LibColumnReads
import Idealize.ShloMosaic.Lib.Pipeline.Value

noncomputable section

namespace Cert.KernelIdeal.Math

open Cert.KernelIdeal Cert.KernelIdeal.Gen
open Idealize.ShloMosaic Idealize.ShloMosaic.ValueIdx Idealize.SL.Sem
open scoped BigOperators

/-! ## The first region -/

/-- The stored weight tile at (p, q) is the log-weight of the raw tile's entry there. -/
theorem pay_logw_apply (x0 : Vec Ideal S256x4096 .f32) (p : Fin 256) (q : Fin 4096) :
    k0_pay1 x0 (ix2 p q) = logWAt (x0 (ix2 p q)) := rfl

/-- The extra rows hold one. -/
theorem pay_ones_apply (p : Fin 128) (q : Fin 4096) : (k0_pay2 (F := Ideal)) (ix2 p q) = 1 :=
  Ideal.ofBits_one_bf16

/-! ## The second region -/

/-- The accumulator is started at zero. -/
theorem pay_zero_apply (r : Fin 512) (c : Fin 384) : (k1_pay1 (F := Ideal)) (ix2 r c) = 0 := by
  dsimp only [k1_pay1]
  rw [shapeCast_self]
  exact Ideal.ofBits_zero_f32

theorem acc_lhs_0 (i : S512x384.Idx) (q : dot_S512x4096_S384x4096_S512x384_1_1_0_0_n_n.contr.Idx) :
    (dot_S512x4096_S384x4096_S512x384_1_1_0_0_n_n.lhsIdx i q 0).val = (i 0).val := by
  unfold DotDims.lhsIdx
  rw [dif_neg (show ¬(0 : Fin S512x4096.rank) ∈ dot_S512x4096_S384x4096_S512x384_1_1_0_0_n_n.lhsBatch by decide),
    dif_pos (show (0 : Fin S512x4096.rank) ∈ dot_S512x4096_S384x4096_S512x384_1_1_0_0_n_n.lhsNonContracting by decide)]
  rfl
theorem acc_lhs_1 (i : S512x384.Idx) (q : dot_S512x4096_S384x4096_S512x384_1_1_0_0_n_n.contr.Idx) :
    (dot_S512x4096_S384x4096_S512x384_1_1_0_0_n_n.lhsIdx i q 1).val = (q ⟨0, by decide⟩).val :=
  dot_S512x4096_S384x4096_S512x384_1_1_0_0_n_n.lhsIdx_val_of_single rfl i q
theorem acc_rhs_0 (i : S512x384.Idx) (q : dot_S512x4096_S384x4096_S512x384_1_1_0_0_n_n.contr.Idx) :
    (dot_S512x4096_S384x4096_S512x384_1_1_0_0_n_n.rhsIdx i q 0).val = (i 1).val := by
  unfold DotDims.rhsIdx
  rw [dif_neg (show ¬(0 : Fin S384x4096.rank) ∈ dot_S512x4096_S384x4096_S512x384_1_1_0_0_n_n.rhsBatch by decide),
    dif_pos (show (0 : Fin S384x4096.rank) ∈ dot_S512x4096_S384x4096_S512x384_1_1_0_0_n_n.rhsNonContracting by decide)]
  rfl
theorem acc_rhs_1 (i : S512x384.Idx) (q : dot_S512x4096_S384x4096_S512x384_1_1_0_0_n_n.contr.Idx) :
    (dot_S512x4096_S384x4096_S512x384_1_1_0_0_n_n.rhsIdx i q 1).val = (q ⟨0, by decide⟩).val :=
  dot_S512x4096_S384x4096_S512x384_1_1_0_0_n_n.rhsIdx_val_of_single rfl i q

/-- The product of the two tiles, both contracting their second axis, read at (r, c). -/
theorem matmul_zero_apply (a : FVec Ideal S512x4096 .bf16) (b : FVec Ideal S384x4096 .bf16) (r : Fin 512) (c : Fin 384) :
    matmul dot_S512x4096_S384x4096_S512x384_1_1_0_0_n_n none a b (constant S512x384 .f32 0x00000000#32) (ix2 r c)
      = ∑ k : Fin 4096, a (ix2 r k) * b (ix2 c k) := by
  show FloatOps.matmul dot_S512x4096_S384x4096_S512x384_1_1_0_0_n_n none a b (constant S512x384 .f32 0x00000000#32) (ix2 r c) = _
  rw [Ideal.matmul_constant_zero_apply,
    ← Equiv.sum_comp (contrEquiv1 dot_S512x4096_S384x4096_S512x384_1_1_0_0_n_n 4096 rfl rfl).symm]
  refine Finset.sum_congr rfl fun k _ => ?_
  have hk := contrEquiv1_symm_val dot_S512x4096_S384x4096_S512x384_1_1_0_0_n_n 4096 rfl rfl k
  have el : dot_S512x4096_S384x4096_S512x384_1_1_0_0_n_n.lhsIdx (ix2 r c) ((contrEquiv1 dot_S512x4096_S384x4096_S512x384_1_1_0_0_n_n 4096 rfl rfl).symm k) = ix2 r k :=
    funext fun ax => Fin.ext (by
      match ax with
      | ⟨0, _⟩ => exact acc_lhs_0 _ _
      | ⟨1, _⟩ => exact (acc_lhs_1 _ _).trans hk)
  have er : dot_S512x4096_S384x4096_S512x384_1_1_0_0_n_n.rhsIdx (ix2 r c) ((contrEquiv1 dot_S512x4096_S384x4096_S512x384_1_1_0_0_n_n 4096 rfl rfl).symm k) = ix2 c k :=
    funext fun ax => Fin.ext (by
      match ax with
      | ⟨0, _⟩ => exact acc_rhs_0 _ _
      | ⟨1, _⟩ => exact (acc_rhs_1 _ _).trans hk)
  rw [el, er]

/-- One accumulation step at (r, c): the old entry plus the sum over k of lhs[r,k] · rhs[c,k]. -/
theorem pay_acc_apply (v3 : Vec Ideal S512x4096 .f32) (v5 : Vec Ideal S384x4096 .bf16) (v8 : Vec Ideal S512x384 .f32)
    (r : Fin 512) (c : Fin 384) :
    k1_pay2 v3 v5 v8 (ix2 r c) = v8 (ix2 r c) + ∑ k : Fin 4096, v3 (ix2 r k) * v5 (ix2 c k) := by
  dsimp only [k1_pay2]
  rw [shapeCast_self, shapeCast_self, addf_apply, matmul_zero_apply]
  rfl

/-- The maximum of a [a, b] array along its second axis, read at row i: the fold of max from the accumulator's
    value over k of the array at (i, k). -/
theorem rowMax_apply {a b : ℕ} (src : FVec Ideal ⟨2, ![a, b]⟩ .f32) (acc : BitVec 32)
    (h : (⟨2, ![a, b]⟩ : Shape).Reduces [1] ⟨1, ![a]⟩) (hφ : FKind.Formats .f32)
    (hacc : acc = FKind.maximumf.neutral .f32 hφ) (i : Fin a) :
    multiReduction .maximumf [1] ⟨1, ![a]⟩ src acc h hφ hacc (ix1 i)
      = (Finset.univ : Finset (Fin b)).fold max (Ideal.ofBits .f32 acc) (fun k => src (ix2 i k)) :=
  (Ideal.multiReduction_maximumf_single src acc h hφ hacc (ix1 i)).trans
    (congrArg (fun f => (Finset.univ : Finset (Fin b)).fold max (Ideal.ofBits .f32 acc) f)
      (funext fun k => congrArg src (funext fun ax => Fin.ext (by
        match ax with
        | ⟨0, _⟩ => rfl
        | ⟨1, _⟩ => rfl))))

/-- The float word of minus infinity is the bottom element. -/
theorem ofBits_neg_inf_f32 : Ideal.ofBits .f32 0xFF800000#32 = ⊥ := by simp [Ideal.ofBits, Ideal.ieee]

/-- The exponential of a vector at an index is the exponential of the element. -/
theorem vexp_apply {s : Shape} {φ : FTy} (x : FVec Ideal s φ) (i : s.Idx) : exp x i = Ideal.exp (x i) := rfl

/-- The float word of one, as a scalar constant, is one. -/
theorem scalar_one_f32 : (Scalar.ofBits .f32 0x3F800000#32 : Ideal .f32) = 1 := Ideal.ofBits_one_f32

/-- The last step at (r, c): exp (acc[r,c] / max (max_j ones[r,j]) 1). -/
theorem pay_out_apply (v16 : Vec Ideal S512x256 .f32) (v17 : Vec Ideal S512x128 .f32) (r : Fin 512) (c : Fin 256) :
    k1_pay3 v16 v17 (ix2 r c)
      = Ideal.exp (Ideal.div (v16 (ix2 r c))
          (max ((Finset.univ : Finset (Fin 128)).fold max ⊥ (fun j => v17 (ix2 r j))) 1)) := by
  dsimp only [k1_pay3]
  rw [vexp_apply, divf_apply, Cert.Lib.BroadcastReads.broadcastTo_a1_ab_apply, maximumf_apply,
    Cert.Lib.ColumnReads.shapeCast_a_a1_apply]
  refine congrArg (fun m => Ideal.exp (Ideal.div (v16 (ix2 r c)) m)) (congrArg₂ max ?_ Ideal.ofBits_one_f32)
  exact (rowMax_apply v17 _ _ _ _ r).trans (by rw [ofBits_neg_inf_f32])

end Cert.KernelIdeal.Math

end
-- ==== Proof.LogitsSums.lean ====
/-
  The accumulator of the second kernel region read at an index, on the extended reals. After reduction tile `k` of a
  batch tile it holds, at row `r` and column `cc`, zero plus the dot products of row `r` of the activations' tiles
  `0 … k` with row `cc` of the extended log-weights' tiles `0 … k`, added in that order. At the last tile the output
  block holds, at row `r` and column `v`, the exponential of the accumulator's entry `(r, v)` divided by the larger
  of `1` and the maximum of its entries `(r, 256 + j)`.
-/
import proofs.«106602_j17901423690383_2_alg».proof.Proof.LogitsRunningSum
import proofs.«106602_j17901423690383_2_alg».proof.Proof.Payloads

set_option maxRecDepth 16384

noncomputable section

namespace Cert.KernelIdeal.Math

open Cert.KernelIdeal Cert.KernelIdeal.Gen Cert.KernelIdeal.Hand
open Idealize.ShloMosaic.ValueIdx
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

section
variable (V : (c : Dev nD) → (b : Ref sig .tc) → Buf (Elt Ideal) ((c : Thread nD τ).loc b))

/-- The two input blocks at position `n`, at their literal shapes. -/
abbrev actBlockAt (c : Dev nD) (n : ℕ) (hn : n < cfg1.N) : Vec Ideal S512x4096 .f32 := logitsBlock V c 0 ⟨n, hn⟩
abbrev lwBlockAt (c : Dev nD) (n : ℕ) (hn : n < cfg1.N) : Vec Ideal S384x4096 .bf16 := logitsBlock V c 1 ⟨n, hn⟩

/-- The dot product of row `r` of the activations' block with row `cc` of the log-weights' block at position `n`. -/
def tileDot (c : Dev nD) (n : ℕ) (hn : n < cfg1.N) (r : Fin 512) (cc : Fin 384) : EReal :=
  ∑ d : Fin 4096, actBlockAt V c n hn (ix2 r d) * lwBlockAt V c n hn (ix2 cc d)

theorem accChain_apply_first (c : Dev nD) (n : ℕ) (hn : n < cfg1.N) (h0 : n % 4 = 0) (r : Fin 512) (cc : Fin 384) :
    accChain V c n hn (ix2 r cc) = 0 + tileDot V c n hn r cc := by
  rw [accChain_first V c ⟨n, hn⟩ h0, pay_acc_apply, pay_zero_apply]
  rfl

theorem accChain_apply_later (c : Dev nD) (n : ℕ) (hn : n < cfg1.N) (h0 : ¬n % 4 = 0) (r : Fin 512) (cc : Fin 384) :
    accChain V c n hn (ix2 r cc) = accChain V c (n - 1) (Nat.lt_of_le_of_lt (Nat.sub_le _ _) hn) (ix2 r cc) + tileDot V c n hn r cc := by
  rw [accChain_later V c ⟨n, hn⟩ h0, pay_acc_apply]
  rfl

/-- The dot product at position `n`, zero past the grid (so that no bound rides along). -/
def tileDot' (c : Dev nD) (n : ℕ) (r : Fin 512) (cc : Fin 384) : EReal :=
  if hn : n < cfg1.N then tileDot V c n hn r cc else 0

/-- Zero plus the first `k + 1` dot products from position `base`, added in order. -/
def partialSum (c : Dev nD) (base : ℕ) (r : Fin 512) (cc : Fin 384) : ℕ → EReal
  | 0 => 0 + tileDot' V c base r cc
  | k + 1 => partialSum c base r cc k + tileDot' V c (base + (k + 1)) r cc

/-- Within a batch tile starting at position `base` the running sum after tile `k` is that partial sum. -/
theorem accChain_partial (c : Dev nD) (base : ℕ) (hb : base % 4 = 0) (r : Fin 512) (cc : Fin 384) :
    ∀ (k : ℕ) (hk : k ≤ 3) (h : base + k < cfg1.N), accChain V c (base + k) h (ix2 r cc) = partialSum V c base r cc k
  | 0, _, h => by
    rw [accChain_apply_first V c (base + 0) h (by simpa using hb)]
    simp only [partialSum, tileDot', Nat.add_zero, dif_pos (show base < cfg1.N from h)]
  | k + 1, hk, h => by
    have h0 : ¬(base + (k + 1)) % 4 = 0 := by omega
    rw [accChain_apply_later V c (base + (k + 1)) h h0 r cc]
    show accChain V c (base + k) _ (ix2 r cc) + _ = _
    rw [accChain_partial c base hb r cc k (by omega) (by omega)]
    simp only [partialSum, tileDot', dif_pos h]
end

/-! ## The two column loads of the accumulator at an index -/

theorem ld_lo_apply (X : Vec Ideal S512x384 .f32) (r : Fin 512) (v : Fin 256) :
    View.ld X accLoCols (ix2 r v) = X (ix2 r (⟨v.val, by omega⟩ : Fin 384)) := by
  show X (accLoCols.emb (ix2 r v)) = _
  congr 1
  funext a
  apply Fin.ext
  match a with
  | ⟨0, _⟩ => show 0 + 1 * r.val = r.val; omega
  | ⟨1, _⟩ => show 0 + 1 * v.val = v.val; omega

theorem ld_hi_apply (X : Vec Ideal S512x384 .f32) (r : Fin 512) (j : Fin 128) :
    View.ld X accHiCols (ix2 r j) = X (ix2 r (⟨256 + j.val, by omega⟩ : Fin 384)) := by
  show X (accHiCols.emb (ix2 r j)) = _
  congr 1
  funext a
  apply Fin.ext
  match a with
  | ⟨0, _⟩ => show 0 + 1 * r.val = r.val; omega
  | ⟨1, _⟩ => show 256 + 1 * j.val = 256 + j.val; omega

/-- The read-out at an index: the output block's entry `(r, v)` from an accumulator `X`. -/
theorem readout_apply (X : Vec Ideal S512x384 .f32) (r : Fin 512) (v : Fin 256) :
    k1_pay3 (View.ld X accLoCols) (View.ld X accHiCols) (ix2 r v)
      = Ideal.exp (Ideal.div (X (ix2 r (⟨v.val, by omega⟩ : Fin 384)))
          (max ((Finset.univ : Finset (Fin 128)).fold max ⊥ (fun j => X (ix2 r (⟨256 + j.val, by omega⟩ : Fin 384)))) 1)) := by
  have e : (fun j : Fin 128 => View.ld X accHiCols (ix2 r j)) = fun j => X (ix2 r (⟨256 + j.val, by omega⟩ : Fin 384)) :=
    funext fun j => ld_hi_apply X r j
  rw [pay_out_apply, ld_lo_apply, e]

end Cert.KernelIdeal.Math

end
-- ==== Proof.LogWeightsValue.lean ====
/-
  What the first region leaves in its output array, on the extended reals: the log-weights of the raw
  weights in rows 0..255, the constant one in rows 256..383.  Point t of the grid writes columns
  4096·t .. 4096·t + 4095 of every row, and the four points cover all 16384 columns.
-/
import proofs.«106602_j17901423690383_2_alg».proof.Proof.LogWeightsRegion
import proofs.«106602_j17901423690383_2_alg».proof.Proof.Payloads
import Idealize.ShloMosaic.Lib.Pipeline.Value

set_option maxRecDepth 16384

noncomputable section

namespace Cert.KernelIdeal.Math

open Cert.KernelIdeal Cert.KernelIdeal.Gen Cert.KernelIdeal.Hand
open Idealize.ShloMosaic Idealize.ShloMosaic.TcCoe Idealize.ShloMosaic.ValueIdx
open Idealize.SL Idealize.SL.Sem
open Idealize.ShloMosaic.Pipeline (Dat Cfg Window)
open scoped BigOperators

/-! ## The array the first region leaves -/

/-- The extended log-weights: row v < 256 is the log-weights' row v, the rows from 256 on hold one. -/
def logwExt (raw : FVec Ideal S256x16384 .f32) : FVec Ideal S384x16384 .bf16 :=
  fun i => if h : (i 0).val < 256 then logW raw ⟨(i 0).val, h⟩ (i 1) else 1

theorem logwExt_lt (raw : FVec Ideal S256x16384 .f32) (c : Fin 384) (d : Fin 16384) (h : c.val < 256) :
    logwExt raw (ix2 c d) = logW raw ⟨c.val, h⟩ d := dif_pos h

theorem logwExt_ge (raw : FVec Ideal S256x16384 .f32) (c : Fin 384) (d : Fin 16384) (h : ¬c.val < 256) :
    logwExt raw (ix2 c d) = 1 := dif_neg h

/-! ## The output tile after the body, one entry at a time -/

theorem zero_offsets : (![0, 0] : Fin 2 → Nat) = fun _ => 0 := funext fun a => by fin_cases a <;> rfl

/-- Rows 256..383 of the output tile hold one. -/
theorem logwOut_apply_ge (x0 : Vec Ideal S256x4096 .f32) (p : Fin 384) (q : Fin 4096) (h : ¬p.val < 256) :
    logwOut x0 (ix2 p q) = 1 := by
  have e : (ix2 p q : S384x4096.Idx) = rows256to383.emb (ix2 (⟨p.val - 256, by have := p.isLt; omega⟩ : Fin 128) q) :=
    funext fun a => Fin.ext (by
      match a with
      | ⟨0, _⟩ => rw [Rect.emb_apply]; show p.val = 256 + 1 * (p.val - 256); omega
      | ⟨1, _⟩ => rw [Rect.emb_apply]; show q.val = 0 + 1 * q.val; omega)
  unfold logwOut
  rw [e, View.canon_cons_emb, pay_ones_apply]

/-- An entry of rows 0..255 is outside the rows that hold one. -/
theorem not_mem_rows256to383 (p : Fin 384) (q : Fin 4096) (h : p.val < 256) :
    (ix2 p q : S384x4096.Idx) ∉ rows256to383.set := fun hm => by
  have h0 := (Rect.mem_set_unit.mp hm 0).1
  have h' : 256 ≤ p.val := h0
  omega

/-- Rows 0..255 of the output tile hold the log-weights of the input tile. -/
theorem logwOut_apply_lt (x0 : Vec Ideal S256x4096 .f32) (p : Fin 384) (q : Fin 4096) (h : p.val < 256) :
    logwOut x0 (ix2 p q) = logWAt (x0 (ix2 (⟨p.val, h⟩ : Fin 256) q)) := by
  have e : (ix2 p q : S384x4096.Idx) = rows0to255.emb (ix2 (⟨p.val, h⟩ : Fin 256) q) :=
    funext fun a => Fin.ext (by
      match a with
      | ⟨0, _⟩ => rw [Rect.emb_apply]; show p.val = 0 + 1 * p.val; omega
      | ⟨1, _⟩ => rw [Rect.emb_apply]; show q.val = 0 + 1 * q.val; omega)
  have s1 : logwOut x0 (ix2 p q)
      = View.canon [(⟨rows0to255, k0_pay1 (View.ld x0 inputRect)⟩ : View.Piece (Elt Ideal) S384x4096 .bf16)] (ix2 p q) := by
    unfold logwOut
    exact View.canon_cons_of_not_mem (⟨rows256to383, k0_pay2 (F := Ideal)⟩ : View.Piece (Elt Ideal) S384x4096 .bf16)
      [⟨rows0to255, k0_pay1 (View.ld x0 inputRect)⟩] (not_mem_rows256to383 p q h)
  rw [s1, e, View.canon_cons_emb, pay_logw_apply, View.ld_unit_zero zero_offsets]

/-! ## The windows' blocks, read at coordinates -/

/-- Both windows of the first region sit at row block 0 and column block t. -/
theorem logw_idx_facts : ∀ t : Fin cfg0.N, win0_0.index t (0 : Fin 2) = 0 ∧ win0_0.index t (1 : Fin 2) = t.val
    ∧ win0_1.index t (0 : Fin 2) = 0 ∧ win0_1.index t (1 : Fin 2) = t.val :=
  (by decide +kernel : ∀ t : Fin grid0.N, _)

section Blocks
variable (V : (c : Dev nD) → (b : Ref sig .tc) → Buf (Elt Ideal) ((c : Thread nD τ).loc b))

/-- The raw-weights tile of point t at (p, q) is the raw weights at (p, 4096·t + q). -/
theorem logwBlock_apply (c : Dev nD) (t : Fin cfg0.N) (x : S256x4096.Idx) (k : S256x16384.Idx)
    (hk0 : (k 0).val = (x 0).val) (hk1 : (k 1).val = 4096 * t.val + (x 1).val) :
    (logwBlock V c 0 t : Vec Ideal S256x4096 .f32) x = (V c main_arg1 : S256x16384.Idx → EReal) k := by
  obtain ⟨e0, e1, -, -⟩ := logw_idx_facts t
  unfold logwBlock
  rw [View.read_apply]
  show V c main_arg1 _ = V c main_arg1 _
  congr 1
  funext a
  apply Fin.ext
  match a with
  | ⟨0, _⟩ => show win0_0.index t (0 : Fin 2) * 256 + 1 * (x 0).val = (k 0).val; rw [e0, hk0]; omega
  | ⟨1, _⟩ => show win0_0.index t (1 : Fin 2) * 4096 + 1 * (x 1).val = (k 1).val; rw [e1, hk1]; omega

/-- What point t writes back is block t of the extended log-weights of the raw weights. -/
theorem logw_flushed_eq (c : Dev nD) (t : Fin cfg0.N) :
    (logwDat (F := Ideal) V c).flushed 1 t
      = ((cfg0.win 1).blk t).view.read (Elt Ideal) (logwExt (V c main_arg1)) := by
  obtain ⟨-, -, e2, e3⟩ := logw_idx_facts t
  have hN : cfg0.N = 4 := N_0
  show (cfg0.win 1).cut (grid0.coords t) ((logwDat V c).after 1 t) = _
  rw [logwDat_after_out]
  funext y
  rw [View.read_apply]
  have hy0 : (y 0).val < 384 := (y 0).isLt
  have hy1 : (y 1).val < 4096 := (y 1).isLt
  have ht : t.val < 4 := hN ▸ t.isLt
  have ex : (cfg0.win 1).xinj (grid0.coords t) y = (ix2 (⟨(y 0).val, hy0⟩ : Fin 384) (⟨(y 1).val, hy1⟩ : Fin 4096) : S384x4096.Idx) :=
    funext fun a => Fin.ext (by match a with | ⟨0, _⟩ => rfl | ⟨1, _⟩ => rfl)
  have ee : ((cfg0.win 1).blk t).view.emb y
      = (ix2 (⟨(y 0).val, hy0⟩ : Fin 384) (⟨4096 * t.val + (y 1).val, by omega⟩ : Fin 16384) : S384x16384.Idx) :=
    funext fun a => Fin.ext (by
      match a with
      | ⟨0, _⟩ => show win0_1.index t (0 : Fin 2) * 384 + 1 * (y 0).val = (y 0).val; rw [e2]; omega
      | ⟨1, _⟩ => show win0_1.index t (1 : Fin 2) * 4096 + 1 * (y 1).val = 4096 * t.val + (y 1).val; rw [e3]; omega)
  show logwOut (logwBlock V c 0 t) ((cfg0.win 1).xinj (grid0.coords t) y) = logwExt (V c main_arg1) (((cfg0.win 1).blk t).view.emb y)
  rw [ex, ee]
  by_cases h : (⟨(y 0).val, hy0⟩ : Fin 384).val < 256
  · rw [logwOut_apply_lt _ ⟨(y 0).val, hy0⟩ _ h, logwExt_lt _ ⟨(y 0).val, hy0⟩ _ h]
    show logWAt _ = logWAt _
    exact congrArg logWAt (logwBlock_apply V c t _ _ rfl rfl)
  · rw [logwOut_apply_ge _ ⟨(y 0).val, hy0⟩ _ h, logwExt_ge _ ⟨(y 0).val, hy0⟩ _ h]

/-- An index of the output array is in point t's block iff each coordinate is in the block's range. -/
theorem logw_mem_blk (t : Fin cfg0.N) (i : S384x16384.Idx) :
    i ∈ ((cfg0.win 1).blk t).view.set
      ↔ ∀ a : Fin 2, win0_1.index t a * S384x4096.size a ≤ (i a).val
          ∧ (i a).val < win0_1.index t a * S384x4096.size a + S384x4096.size a := by
  show i ∈ ((View.whole main_v0).slice (win0_1.rect t)).set ↔ _
  rw [View.set_slice_whole, Rect.mem_set_unit]
  exact Iff.rfl

/-- The output array after the first region is the extended log-weights of the raw weights. -/
theorem logw_final (c : Dev nD) :
    (logwDat (F := Ideal) V c).arrAt 1 cfg0.N = logwExt (V c main_arg1) :=
  (logwDat (F := Ideal) V c).arrAt_eq_of_cover 1 (logwExt (V c main_arg1)) (fun t _ => logw_flushed_eq V c t) fun i => by
    have hN : cfg0.N = 4 := N_0
    have hi0 : (i 0).val < 384 := (i 0).isLt
    have hi1 : (i 1).val < 16384 := (i 1).isLt
    let t : Fin cfg0.N := ⟨(i 1).val / 4096, by rw [hN]; omega⟩
    obtain ⟨-, -, e2, e3⟩ := logw_idx_facts t
    refine ⟨t, flush0_1 t, ?_⟩
    rw [logw_mem_blk]
    intro a
    have htv : t.val = (i 1).val / 4096 := rfl
    match a with
    | ⟨0, _⟩ =>
      show win0_1.index t (0 : Fin 2) * 384 ≤ (i 0).val ∧ (i 0).val < win0_1.index t (0 : Fin 2) * 384 + 384
      rw [e2]; omega
    | ⟨1, _⟩ =>
      show win0_1.index t (1 : Fin 2) * 4096 ≤ (i 1).val ∧ (i 1).val < win0_1.index t (1 : Fin 2) * 4096 + 4096
      rw [e3, htv]; omega

end Blocks

end Cert.KernelIdeal.Math

end
-- ==== Proof.LibTileSums.lean ====
/-
  A sum over the nodes as a sum over ten tiles of five thousand rows: the row `5000 · t + q` is row `q` of tile `t`,
  and every node is exactly one such row. A kernel that accumulates per-tile column sums across its grid reaches the
  whole column sum this way.
-/
import Mathlib.Algebra.BigOperators.Fin
import Mathlib.Logic.Equiv.Fin.Basic

namespace TileSums

open Finset

/-- A sum over `Fin (m * n)` is the double sum over `m` tiles of `n` rows, row `q` of tile `t` at position `q + n · t`. -/
theorem sum_tiles {M : Type*} [AddCommMonoid M] (m n : ℕ) (f : Fin (m * n) → M) :
    ∑ r : Fin (m * n), f r = ∑ t : Fin m, ∑ q : Fin n, f (finProdFinEquiv (t, q)) := by
  rw [← Fintype.sum_prod_type' (f := fun t q => f (finProdFinEquiv (t, q)))]
  exact (Fintype.sum_equiv finProdFinEquiv _ _ fun _ => rfl).symm

/-- The nodes in ten tiles of five thousand rows. -/
theorem sum_nodes_tiles {M : Type*} [AddCommMonoid M] (f : Fin 50000 → M) :
    ∑ r : Fin 50000, f r = ∑ t : Fin 10, ∑ q : Fin 5000, f ⟨5000 * t.val + q.val, by have := t.isLt; have := q.isLt; omega⟩ := by
  have h := sum_tiles 10 5000 (fun r : Fin (10 * 5000) => f ⟨r.val, r.isLt⟩)
  refine Eq.trans ?_ (h.trans ?_)
  · rfl
  · refine Finset.sum_congr rfl fun t _ => Finset.sum_congr rfl fun q _ => congrArg f (Fin.ext ?_)
    show (finProdFinEquiv (t, q)).val = 5000 * t.val + q.val
    simp [finProdFinEquiv]; omega

end TileSums
-- ==== Proof.AccumulateLaw.lean ====
/-
  The arithmetic of accumulating over four tiles of the contraction axis.

  A sum over the 16384 positions of the contraction axis is the sum over four tiles of 4096
  positions, position d of tile k being 4096 · k + d; an accumulator that starts at zero and adds
  one tile's sum per step therefore ends at the whole sum.  A product with one is the factor, and
  the maximum of equal copies of a value is the value.
-/
import proofs.«106602_j17901423690383_2_alg».proof.Proof.Spec
import proofs.«106602_j17901423690383_2_alg».proof.Proof.LibTileSums

noncomputable section

namespace Cert.KernelIdeal.Math

open scoped BigOperators

/-- Position d of tile k of the contraction axis. -/
def tileIdx (k : Fin 4) (d : Fin 4096) : Fin 16384 :=
  ⟨4096 * k.val + d.val, by have := k.isLt; have := d.isLt; omega⟩

theorem tileIdx_val (k : Fin 4) (d : Fin 4096) : (tileIdx k d).val = 4096 * k.val + d.val := rfl

/-- A sum over the contraction axis is the double sum over tiles and positions in a tile. -/
theorem sum_four_tiles {M : Type*} [AddCommMonoid M] (f : Fin 16384 → M) :
    ∑ r : Fin 16384, f r = ∑ t : Fin 4, ∑ q : Fin 4096, f (tileIdx t q) := by
  have h := TileSums.sum_tiles 4 4096 (fun r : Fin (4 * 4096) => f ⟨r.val, r.isLt⟩)
  refine Eq.trans ?_ (h.trans ?_)
  · rfl
  · refine Finset.sum_congr rfl fun t _ => Finset.sum_congr rfl fun q _ => congrArg f (Fin.ext ?_)
    show (finProdFinEquiv (t, q)).val = 4096 * t.val + q.val
    simp [finProdFinEquiv]; omega

/-- The accumulator after the four steps, started at zero, holds the whole sum. -/
theorem accumulate_four {M : Type*} [AddCommMonoid M] (f : Fin 16384 → M) :
    (((0 + ∑ d : Fin 4096, f (tileIdx 0 d)) + ∑ d : Fin 4096, f (tileIdx 1 d)) + ∑ d : Fin 4096, f (tileIdx 2 d))
        + ∑ d : Fin 4096, f (tileIdx 3 d)
      = ∑ d : Fin 16384, f d := by
  rw [sum_four_tiles, Fin.sum_univ_four, zero_add]

/-- A product with one is the factor. -/
theorem ereal_mul_one (x : EReal) : x * 1 = x := mul_one x

/-- Zero plus a value is the value. -/
theorem ereal_zero_add (x : EReal) : 0 + x = x := zero_add x

/-- A sum of products with one is the sum of the factors. -/
theorem sum_mul_one {ι : Type*} (s : Finset ι) (f : ι → EReal) : ∑ d ∈ s, f d * 1 = ∑ d ∈ s, f d :=
  Finset.sum_congr rfl fun d _ => mul_one (f d)

/-- The maximum, from the bottom element, of equal copies of a value over a nonempty index set is the value. -/
theorem fold_max_const {ι : Type*} (s : Finset ι) (hs : s.Nonempty) (x : EReal) :
    s.fold max ⊥ (fun _ => x) = x := by
  classical
  induction s using Finset.induction_on with
  | empty => exact absurd hs Finset.not_nonempty_empty
  | insert a s ha ih =>
    rw [Finset.fold_insert ha]
    rcases s.eq_empty_or_nonempty with rfl | hne
    · rw [Finset.fold_empty]; exact max_bot_right x
    · rw [ih hne, max_self]

/-- The maximum over the 128 extra columns, all holding the same value, is that value. -/
theorem fold_max_128 (g : Fin 128 → EReal) (x : EReal) (hg : ∀ j, g j = x) :
    (Finset.univ : Finset (Fin 128)).fold max ⊥ g = x := by
  rw [show g = fun _ => x from funext hg]
  exact fold_max_const _ Finset.univ_nonempty x

end Cert.KernelIdeal.Math

end
-- ==== Proof.ReadoutIsSpec.lean ====
/-
  The read-out of the accumulator is the specification, on the extended reals.

  Entry cc of the accumulator's row for batch row b holds, tile after tile from zero, the sum over the
  contraction axis of bin[b,d] · ext[cc,d], ext the extended log-weights: for cc < 256 that is the row
  against the log-weights' row cc, for cc ≥ 256 (where ext is one) the row sum.  So
  exp (X[v] / max (max_j X[256+j]) 1) is the specification at (b, v).
-/
import proofs.«106602_j17901423690383_2_alg».proof.Proof.Spec
import proofs.«106602_j17901423690383_2_alg».proof.Proof.AccumulateLaw
import proofs.«106602_j17901423690383_2_alg».proof.Proof.LogWeightsValue

noncomputable section

namespace Cert.KernelIdeal.Math

open Cert.KernelIdeal
open Idealize.ShloMosaic Idealize.ShloMosaic.ValueIdx
open scoped BigOperators

/-- One term of the contraction: row b of bin against row cc of the extended log-weights, at position d. -/
def term (bin : FVec Ideal S2048x16384 .f32) (raw : FVec Ideal S256x16384 .f32) (b : Fin 2048) (cc : Fin 384)
    (d : Fin 16384) : EReal :=
  bin (ix2 b d) * logwExt raw (ix2 cc d)

/-- What four accumulation steps from zero leave: the four tiles' sums, in the order they were added. -/
def fourTiles (f : Fin 16384 → EReal) : EReal :=
  (((0 + ∑ d : Fin 4096, f (tileIdx 0 d)) + ∑ d : Fin 4096, f (tileIdx 1 d)) + ∑ d : Fin 4096, f (tileIdx 2 d))
    + ∑ d : Fin 4096, f (tileIdx 3 d)

/-- The four tiles' sums are the sum over the whole contraction axis. -/
theorem fourTiles_eq_sum (f : Fin 16384 → EReal) : fourTiles f = ∑ d : Fin 16384, f d := accumulate_four f

/-- Against the extended log-weights, a column below 256 gives the row against the log-weights' row, -/
theorem sum_term_lt (bin : FVec Ideal S2048x16384 .f32) (raw : FVec Ideal S256x16384 .f32) (b : Fin 2048)
    (cc : Fin 384) (h : cc.val < 256) :
    ∑ d : Fin 16384, term bin raw b cc d = logSum bin raw b ⟨cc.val, h⟩ := by
  unfold logSum term
  exact Finset.sum_congr rfl fun d _ => by rw [logwExt_lt raw cc d h]

/-- and a column from 256 on gives the row sum. -/
theorem sum_term_ge (bin : FVec Ideal S2048x16384 .f32) (raw : FVec Ideal S256x16384 .f32) (b : Fin 2048)
    (cc : Fin 384) (h : ¬cc.val < 256) :
    ∑ d : Fin 16384, term bin raw b cc d = rowSum bin b := by
  unfold rowSum term
  exact Finset.sum_congr rfl fun d _ => by rw [logwExt_ge raw cc d h, mul_one]

/-- The read-out of a row of the accumulator that holds the four tiles' sums is the specification at (b, v). -/
theorem readout_is_G (bin : FVec Ideal S2048x16384 .f32) (raw : FVec Ideal S256x16384 .f32) (b : Fin 2048) (v : Fin 256)
    (X : Fin 384 → EReal) (hX : ∀ cc : Fin 384, X cc = fourTiles (term bin raw b cc)) :
    Ideal.exp (Ideal.div (X (⟨v.val, by omega⟩ : Fin 384))
        (max ((Finset.univ : Finset (Fin 128)).fold max ⊥ (fun j => X (⟨256 + j.val, by omega⟩ : Fin 384))) 1))
      = G bin raw (ix2 b v) := by
  have hmax : (Finset.univ : Finset (Fin 128)).fold max ⊥ (fun j => X (⟨256 + j.val, by omega⟩ : Fin 384)) = rowSum bin b :=
    fold_max_128 _ _ fun j => by
      rw [hX, fourTiles_eq_sum, sum_term_ge bin raw b _ (by show ¬256 + j.val < 256; omega)]
  rw [G_apply, hmax, hX, fourTiles_eq_sum, sum_term_lt bin raw b _ (by show v.val < 256; exact v.isLt)]

end Cert.KernelIdeal.Math

end
-- ==== Proof.KernelValue.lean ====
/- The value of the kernel's result array, over the extended reals.

   Region 1 is entered with the binary matrix as launched and with the extended log-weights of the raw weights
   (what region 0 leaves). At a last reduction tile of batch tile i the output block's entry (r, v) is the read-out
   exp (X[v] / max (max_j X[256+j]) 1) of the accumulator row X, and X[cc] is zero plus the four tiles' dot products
   of row 512·i + r of the binary matrix with row cc of the extended log-weights, added in order. That read-out is the
   specification at (512·i + r, v); the last-tile blocks are written back at their own rows and fill the array. -/
import proofs.«106602_j17901423690383_2_alg».proof.Proof.Run
import proofs.«106602_j17901423690383_2_alg».proof.Proof.LogitsBlocks
import proofs.«106602_j17901423690383_2_alg».proof.Proof.LogitsSums
import proofs.«106602_j17901423690383_2_alg».proof.Proof.LogWeightsValue
import proofs.«106602_j17901423690383_2_alg».proof.Proof.ReadoutIsSpec

set_option maxRecDepth 16384

noncomputable section

namespace Cert.KernelIdeal.Math

open Cert.KernelIdeal Cert.KernelIdeal.Gen Cert.KernelIdeal.Hand
open Idealize.ShloMosaic Idealize.ShloMosaic.TcCoe Idealize.ShloMosaic.ValueIdx
open Idealize.SL Idealize.SL.Sem
open scoped BigOperators

variable (m : (ℓ : Loc nD τ sig) → Buf (Elt Ideal) ℓ) (ρ : Dev nD → PrngReg)

/-! ## What region 1 is entered with -/

/-- The binary matrix is as launched. -/
theorem entry_bin (c : Dev nD) : B1' m ρ c main_arg0 = m ((c.tc : Thread nD τ).loc main_arg0) :=
  B1_main_arg0 m ρ c

/-- The log-weights array is the extended log-weights of the launched raw weights. -/
theorem entry_logw (c : Dev nD) : B1' m ρ c main_v0 = logwExt (m ((c.tc : Thread nD τ).loc main_arg1)) :=
  (B1_main_v0 m ρ c).trans (logw_final (B0' m ρ) c)

/-- A product of an entry of the binary matrix with an entry of the extended log-weights is the contraction's term at
    any row and position with the same values. -/
theorem term_congr (bin : FVec Ideal S2048x16384 .f32) (raw : FVec Ideal S256x16384 .f32) {b b' : Fin 2048} {d d' : Fin 16384}
    (cc : Fin 384) (hb : b.val = b'.val) (hd : d.val = d'.val) :
    bin (ix2 b d) * logwExt raw (ix2 cc d) = term bin raw b' cc d' := by
  obtain rfl := Fin.ext hb
  obtain rfl := Fin.ext hd
  rfl

/-! ## One tile's dot product, in the launched arrays -/

/-- Within the batch tile starting at position base, tile k's dot product at (r, cc) is the sum over tile k of the
    contraction axis of the terms of row 512·(base/4) + r of the binary matrix against row cc of the extended
    log-weights. -/
theorem tileDot'_eq (c : Dev nD) (base k : ℕ) (hb : base % 4 = 0) (hk : k ≤ 3) (h : base + k < cfg1.N) (r : Fin 512) (cc : Fin 384) :
    tileDot' (B1' m ρ) c (base + k) r cc
      = ∑ d : Fin 4096, term (m ((c.tc : Thread nD τ).loc main_arg0)) (m ((c.tc : Thread nD τ).loc main_arg1))
          (⟨512 * (base / 4) + r.val, by have h16 : cfg1.N = 16 := N_1; omega⟩ : Fin 2048) cc (tileIdx ⟨k, by omega⟩ d) := by
  have hq : (base + k) / 4 = base / 4 := by omega
  have hr : (base + k) % 4 = k := by omega
  unfold tileDot'
  rw [dif_pos h]
  unfold tileDot
  refine Finset.sum_congr rfl fun d _ => ?_
  dsimp only [actBlockAt, lwBlockAt]
  rw [act_block_apply, lw_block_apply, entry_bin, entry_logw]
  exact term_congr (m ((c.tc : Thread nD τ).loc main_arg0)) (m ((c.tc : Thread nD τ).loc main_arg1)) cc
    (by show 512 * ((base + k) / 4) + r.val = 512 * (base / 4) + r.val; rw [hq])
    (by show 4096 * ((base + k) % 4) + d.val = 4096 * k + d.val; rw [hr])

/-! ## The result array -/

/-- The kernel's result array is the specification of the two launched arguments. -/
theorem kernel_value (c : Dev nD) :
    (Cert.KernelIdeal.Hand.logitsDat (F := Ideal) (Cert.KernelIdeal.Hand.B1' m ρ) c).arrAt 2 cfg1.N
      = Cert.KernelIdeal.Math.G (m ((c.tc : Thread nD τ).loc main_arg0)) (m ((c.tc : Thread nD τ).loc main_arg1)) := by
  refine logits_arr_of_blocks (B1' m ρ) c (G (m ((c.tc : Thread nD τ).loc main_arg0)) (m ((c.tc : Thread nD τ).loc main_arg1))) (fun t h3 r v => ?_)
  have h16 : cfg1.N = 16 := N_1
  obtain ⟨n, hn⟩ := t
  have h3' : n % 4 = 3 := h3
  obtain ⟨base, rfl⟩ : ∃ base, n = base + 3 := ⟨n - 3, by omega⟩
  have hb : base % 4 = 0 := by omega
  have hq : (base + 3) / 4 = base / 4 := by omega
  rw [stateAt_out_last (B1' m ρ) c ⟨base + 3, hn⟩ h3, readout_apply]
  have hrow : (⟨512 * ((base + 3) / 4) + r.val, by omega⟩ : Fin 2048) = ⟨512 * (base / 4) + r.val, by omega⟩ :=
    Fin.ext (by show 512 * ((base + 3) / 4) + r.val = 512 * (base / 4) + r.val; rw [hq])
  refine (readout_is_G (m ((c.tc : Thread nD τ).loc main_arg0)) (m ((c.tc : Thread nD τ).loc main_arg1))
    (⟨512 * (base / 4) + r.val, by omega⟩ : Fin 2048) v
    (fun cc => accChain (B1' m ρ) c (base + 3) hn (ix2 r cc)) (fun cc => ?_)).trans
    (congrArg (fun b => G (m ((c.tc : Thread nD τ).loc main_arg0)) (m ((c.tc : Thread nD τ).loc main_arg1)) (ix2 b v)) hrow.symm)
  rw [accChain_partial (B1' m ρ) c base hb r cc 3 (le_refl 3) hn]
  show ((0 + tileDot' (B1' m ρ) c base r cc + tileDot' (B1' m ρ) c (base + (0 + 1)) r cc)
      + tileDot' (B1' m ρ) c (base + (1 + 1)) r cc) + tileDot' (B1' m ρ) c (base + (2 + 1)) r cc = _
  have t0 : tileDot' (B1' m ρ) c base r cc = _ := tileDot'_eq m ρ c base 0 hb (by omega) (by omega) r cc
  have t1 := tileDot'_eq m ρ c base 1 hb (by omega) (by omega) r cc
  have t2 := tileDot'_eq m ρ c base 2 hb (by omega) (by omega) r cc
  have t3 := tileDot'_eq m ρ c base 3 hb (by omega) (by omega) r cc
  rw [show base + (0 + 1) = base + 1 from rfl, show base + (1 + 1) = base + 2 from rfl, show base + (2 + 1) = base + 3 from rfl,
    t0, t1, t2, t3]
  rfl

end Cert.KernelIdeal.Math

end
-- ==== Proof.lean ====
/- The claim, assembled.

   For a matrix bin [2048,16384] and raw weights raw [256,16384] both programs compute
       G[b,v] = exp( (Σ_d bin[b,d] · logw[v,d]) / max (Σ_d bin[b,d]) 1 ),   logw[v,d] = log (max ε (10 · σ(raw[v,d]))).
   The reference does it operation by operation. The kernel does it in two grid regions: the first rewrites the
   weights, tile by tile along the long axis, into log-weights and appends 128 rows of ones, so that one matrix
   product against a row of bin yields both the weighted sums and (in each appended column) the row's sum; the
   second accumulates, over the four tiles of the long axis, the product of a batch tile with the extended
   log-weights, and at the last tile divides the first 256 columns by the larger of one and the row sum and
   exponentiates.

   The kernel's frames (it terminates without fault and leaves its two arguments as launched) come from the two
   regions' body obligations joined into one run of @main; the word-level program and its reading over the extended
   reals are one text, so one proof, stated at any float interpretation, serves both. The reference's frame is its
   generated run with the result forgotten. The idealization rewrote nothing, so there is nothing to preserve.

   The algebraic conjunct joins the two result arrays through ONE whole-array function G of the two arguments: the
   kernel's result array is what the second region's write-backs leave, which is G read tile by tile; the
   reference's result is its generated stage term, which is G read index by index. -/
import proofs.«106602_j17901423690383_2_alg».proof.Defs
import proofs.«106602_j17901423690383_2_alg».proof.Proof.Gen.Kernel
import proofs.«106602_j17901423690383_2_alg».proof.Proof.Gen.KernelIdeal
import proofs.«106602_j17901423690383_2_alg».proof.Proof.Gen.ReferenceIdeal
import proofs.«106602_j17901423690383_2_alg».proof.Proof.Gen.Pre_finite_inputs
import proofs.«106602_j17901423690383_2_alg».proof.Proof.Gen.ReferenceIdeal.Run
import proofs.«106602_j17901423690383_2_alg».proof.Proof.Gen.ReferenceIdeal.Read
import proofs.«106602_j17901423690383_2_alg».proof.Proof.Run
import proofs.«106602_j17901423690383_2_alg».proof.Proof.KernelFrame.Run
import proofs.«106602_j17901423690383_2_alg».proof.Proof.RefIsSpec
import proofs.«106602_j17901423690383_2_alg».proof.Proof.KernelValue
import Idealize.ShloMosaic.Adequacy
import Idealize.ShloMosaic.Init

noncomputable section

namespace Cert.Proof

open Idealize.ShloMosaic Idealize.SL.Sem

/-- The word-level kernel terminates and leaves its two arguments as launched. -/
theorem frame_Kernel : Cert.frame_Kernel := fun m ρ _ => Cert.Kernel.Hand.frame (F := Bits) m ρ

/-- So does its reading over the extended reals. -/
theorem frame_KernelIdeal : Cert.frame_KernelIdeal := fun m ρ _ => Cert.KernelIdeal.Hand.frame (F := Ideal) m ρ

/-- The reference terminates and leaves its two arguments as launched: its run, the result forgotten. -/
theorem frame_ReferenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Over the extended reals, from memories agreeing on the two arguments, the kernel's result array and the
    reference's are both G of the arguments. -/
theorem algebraic : Cert.algebraic_KernelIdeal_ReferenceIdeal := by
  intro m ρ m' ρ' _ hagree
  refine ⟨fun c => Cert.KernelIdeal.Math.G
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1)), ?_, ?_⟩
  · exact (θ_run Cert.KernelIdeal.defs _ _).mono
      (fun _ h c => ⟨(h c).1.trans (Cert.KernelIdeal.Math.kernel_value m ρ c), (h c).2⟩)
      (Cert.KernelIdeal.Hand.result_and_frame (F := Ideal) m ρ)
  · refine (θ_run Cert.ReferenceIdeal.defs _ _).mono (fun _ h c => ⟨?_, (h c).2⟩)
      (Cert.ReferenceIdeal.Value.run (F := Ideal) m' ρ')
    rw [(h c).1, Cert.ReferenceIdeal.Read.val_main_v16_eq, Cert.KernelIdeal.Math.ref_is_G, (hagree c).1, (hagree c).2]

theorem claim : Cert.Claim :=
  ⟨Cert.Kernel.Gen.facts, Cert.KernelIdeal.Gen.facts, Cert.ReferenceIdeal.Gen.facts, Cert.Pre_finite_inputs.Gen.facts,
    frame_Kernel, frame_KernelIdeal, frame_ReferenceIdeal, preserves, algebraic⟩

end Cert.Proof

end
